-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S81x64x128x128 : Shape := ⟨4, ![81, 64, 128, 128]⟩
abbrev S_ : Shape := ⟨0, ![]⟩

class Facts : Prop where
  bcast_S_S81x64x128x128 : S_.BroadcastsInDim S81x64x128x128 (![] : Fin 0 → Fin S81x64x128x128.rank)
  reducesTo_S81x64x128x128_S_d0_1_2_3 : S81x64x128x128.ReducesTo [0, 1, 2, 3] S_
  h_S_ : 0 < S_.numel

variable [Facts]

def fn {F : FTy → Type} [FloatOps F] (main_arg0 : FVec F S81x64x128x128 .f32) : IVec S_ 1 :=
  let main_v0 : FVec F S81x64x128x128 .f32 := Host.absf main_arg0
  let main_cst : FVec F S_ .f32 := constant S_ .f32 0x7F800000#32
  let main_v1 : FVec F S81x64x128x128 .f32 := broadcastInDim S81x64x128x128 ![] bcast_S_S81x64x128x128 main_cst
  let main_v2 : IVec S81x64x128x128 1 := cmpf .olt main_v0 main_v1
  let main_c : IVec S_ 1 := constantI S_ 1 1#1
  let main_v3 : IVec S_ 1 := (fun x v => Host.reduce IntOp.andi x v reducesTo_S81x64x128x128_S_d0_1_2_3 h_S_) main_v2 main_c
  main_v3
-- ==== Kernel.lean ====
abbrev S81x64x128x128 : Shape := ⟨4, ![81, 64, 128, 128]⟩
abbrev S64x1136x1136 : Shape := ⟨3, ![64, 1136, 1136]⟩
abbrev S1x1136x1136 : Shape := ⟨3, ![1, 1136, 1136]⟩
abbrev S2x1x128x128 : Shape := ⟨4, ![2, 1, 128, 128]⟩
abbrev S2 : Shape := ⟨1, ![2]⟩
abbrev S1 : Shape := ⟨1, ![1]⟩
abbrev S_ : Shape := ⟨0, ![]⟩
abbrev S1x1x128x128 : Shape := ⟨4, ![1, 1, 128, 128]⟩
abbrev S1x128x128 : Shape := ⟨3, ![1, 128, 128]⟩
abbrev S128x128 : Shape := ⟨2, ![128, 128]⟩
abbrev S64x1024x1024 : Shape := ⟨3, ![64, 1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S81x64x128x128, .f32⟩
  | .hbm, ⟨1, _⟩ => ⟨S64x1136x1136, .f32⟩
  | .hbm, ⟨2, _⟩ => ⟨S64x1024x1024, .f32⟩
  | .local _ .vmem, ⟨0, _⟩ => ⟨S1x1136x1136, .f32⟩
  | .local _ .vmem, ⟨1, _⟩ => ⟨S1x1136x1136, .f32⟩
  | .local _ .vmem, ⟨2, _⟩ => ⟨S2x1x128x128, .f32⟩
  | _, _ => ⟨S81x64x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let c0_i32 : BitVec 32 := 0#32
  let arg0 : BitVec 32 := BitVec.ofNat 32 (i 0).val
  let c1_i32 : BitVec 32 := 1#32
  let v0 : BitVec 32 := Scalar.muli arg0 c1_i32
  let c0_i32_5 : BitVec 32 := 0#32
  let c0_i32_6 : BitVec 32 := 0#32
  ![0, v0.toNat, 0, 0]
def k0_off2 (i : grid0.Coords) : Fin 4 → Nat :=
  let c1_i32_16 : BitVec 32 := 1#32
  let arg0 : BitVec 32 := BitVec.ofNat 32 (i 0).val
  let c1_i32 : BitVec 32 := 1#32
  let v0 : BitVec 32 := Scalar.muli arg0 c1_i32
  let c0_i32_22 : BitVec 32 := 0#32
  let c0_i32_23 : BitVec 32 := 0#32
  ![1, v0.toNat, 0, 0]
def k0_off3 (i : grid0.Coords) : Fin 4 → Nat :=
  let c2_i32 : BitVec 32 := 2#32
  let arg0 : BitVec 32 := BitVec.ofNat 32 (i 0).val
  let c1_i32 : BitVec 32 := 1#32
  let v0 : BitVec 32 := Scalar.muli arg0 c1_i32
  let c0_i32_44 : BitVec 32 := 0#32
  let c0_i32_45 : BitVec 32 := 0#32
  ![2, v0.toNat, 0, 0]
def k0_off4 (i : grid0.Coords) : Fin 4 → Nat :=
  let c3_i32 : BitVec 32 := 3#32
  let arg0 : BitVec 32 := BitVec.ofNat 32 (i 0).val
  let c1_i32 : BitVec 32 := 1#32
  let v0 : BitVec 32 := Scalar.muli arg0 c1_i32
  let c0_i32_65 : BitVec 32 := 0#32
  let c0_i32_66 : BitVec 32 := 0#32
  ![3, v0.toNat, 0, 0]
def k0_off5 (i : grid0.Coords) : Fin 4 → Nat :=
  let c4_i32 : BitVec 32 := 4#32
  let arg0 : BitVec 32 := BitVec.ofNat 32 (i 0).val
  let c1_i32 : BitVec 32 := 1#32
  let v0 : BitVec 32 := Scalar.muli arg0 c1_i32
  let c0_i32_87 : BitVec 32 := 0#32
  let c0_i32_88 : BitVec 32 := 0#32
  ![4, v0.toNat, 0, 0]
def k0_off6 (i : grid0.Coords) : Fin 4 → Nat :=
  let c5_i32 : BitVec 32 := 5#32
  let arg0 : BitVec 32 := BitVec.ofNat 32 (i 0).val
  let c1_i32 : BitVec 32 := 1#32
  let v0 : BitVec 32 := Scalar.muli arg0 c1_i32
  let c0_i32_109 : BitVec 32 := 0#32
  let c0_i32_110 : BitVec 32 := 0#32
  ![5, v0.toNat, 0, 0]
def k0_off7 (i : grid0.Coords) : Fin 4 → Nat :=
  let c6_i32 : BitVec 32 := 6#32
  let arg0 : BitVec 32 := BitVec.ofNat 32 (i 0).val
  let c1_i32 : BitVec 32 := 1#32
  let v0 : BitVec 32 := Scalar.muli arg0 c1_i32
  let c0_i32_131 : BitVec 32 := 0#32
  let c0_i32_132 : BitVec 32 := 0#32
  ![6, v0.toNat, 0, 0]
def k0_off8 (i : grid0.Coords) : Fin 4 → Nat :=
  let c7_i32 : BitVec 32 := 7#32
  let arg0 : BitVec 32 := BitVec.ofNat 32 (i 0).val
  let c1_i32 : BitVec 32 := 1#32
  let v0 : BitVec 32 := Scalar.muli arg0 c1_i32
  let c0_i32_153 : BitVec 32 := 0#32
  let c0_i32_154 : BitVec 32 := 0#32
  ![7, v0.toNat, 0, 0]
def k0_off9 (i : grid0.Coords) : Fin 4 → Nat :=
  let c8_i32 : BitVec 32 := 8#32
  let arg0 : BitVec 32 := BitVec.ofNat 32 (i 0).val
  let c1_i32 : BitVec 32 := 1#32
  let v0 : BitVec 32 := Scalar.muli arg0 c1_i32
  let c0_i32_175 : BitVec 32 := 0#32
  let c0_i32_176 : BitVec 32 := 0#32
  ![8, v0.toNat, 0, 0]
def k0_off10 (i : grid0.Coords) : Fin 4 → Nat :=
  let c9_i32 : BitVec 32 := 9#32
  let arg0 : BitVec 32 := BitVec.ofNat 32 (i 0).val
  let c1_i32 : BitVec 32 := 1#32
  let v0 : BitVec 32 := Scalar.muli arg0 c1_i32
  let c0_i32_197 : BitVec 32 := 0#32
  let c0_i32_198 : BitVec 32 := 0#32
  ![9, v0.toNat, 0, 0]
def k0_off11 (i : grid0.Coords) : Fin 4 → Nat :=
  let c10_i32 : BitVec 32 := 10#32
  let arg0 : BitVec 32 := BitVec.ofNat 32 (i 0).val
  let c1_i32 : BitVec 32 := 1#32
  let v0 : BitVec 32 := Scalar.muli arg0 c1_i32
  let c0_i32_219 : BitVec 32 := 0#32
  let c0_i32_220 : BitVec 32 := 0#32
  ![10, v0.toNat, 0, 0]
def k0_off12 (i : grid0.Coords) : Fin 4 → Nat :=
  let c11_i32 : BitVec 32 := 11#32
  let arg0 : BitVec 32 := BitVec.ofNat 32 (i 0).val
  let c1_i32 : BitVec 32 := 1#32
  let v0 : BitVec 32 := Scalar.muli arg0 c1_i32
  let c0_i32_242 : BitVec 32 := 0#32
  let c0_i32_243 : BitVec 32 := 0#32
  ![11, v0.toNat, 0, 0]
def k0_off13 (i : grid0.Coords) : Fin 4 → Nat :=
  let c12_i32 : BitVec 32 := 12#32
  let arg0 : BitVec 32 := BitVec.ofNat 32 (i 0).val
  let c1_i32 : BitVec 32 := 1#32
  let v0 : BitVec 32 := Scalar.muli arg0 c1_i32
  let c0_i32_265 : BitVec 32 := 0#32
  let c0_i32_266 : BitVec 32 := 0#32
  ![12, v0.toNat, 0, 0]
def k0_off14 (i : grid0.Coords) : Fin 4 → Nat :=
  let c13_i32 : BitVec 32 := 13#32
  let arg0 : BitVec 32 := BitVec.ofNat 32 (i 0).val
  let c1_i32 : BitVec 32 := 1#32
  let v0 : BitVec 32 := Scalar.muli arg0 c1_i32
  let c0_i32_288 : BitVec 32 := 0#32
  let c0_i32_289 : BitVec 32 := 0#32
  ![13, v0.toNat, 0, 0]
def k0_off15 (i : grid0.Coords) : Fin 4 → Nat :=
  let c14_i32 : BitVec 32 := 14#32
  let arg0 : BitVec 32 := BitVec.ofNat 32 (i 0).val
  let c1_i32 : BitVec 32 := 1#32
  let v0 : BitVec 32 := Scalar.muli arg0 c1_i32
  let c0_i32_311 : BitVec 32 := 0#32
  let c0_i32_312 : BitVec 32 := 0#32
  ![14, v0.toNat, 0, 0]
def k0_off16 (i : grid0.Coords) : Fin 4 → Nat :=
  let c15_i32 : BitVec 32 := 15#32
  let arg0 : BitVec 32 := BitVec.ofNat 32 (i 0).val
  let c1_i32 : BitVec 32 := 1#32
  let v0 : BitVec 32 := Scalar.muli arg0 c1_i32
  let c0_i32_334 : BitVec 32 := 0#32
  let c0_i32_335 : BitVec 32 := 0#32
  ![15, v0.toNat, 0, 0]
def k0_off17 (i : grid0.Coords) : Fin 4 → Nat :=
  let c16_i32 : BitVec 32 := 16#32
  let arg0 : BitVec 32 := BitVec.ofNat 32 (i 0).val
  let c1_i32 : BitVec 32 := 1#32
  let v0 : BitVec 32 := Scalar.muli arg0 c1_i32
  let c0_i32_357 : BitVec 32 := 0#32
  let c0_i32_358 : BitVec 32 := 0#32
  ![16, v0.toNat, 0, 0]
def k0_off18 (i : grid0.Coords) : Fin 4 → Nat :=
  let c17_i32 : BitVec 32 := 17#32
  let arg0 : BitVec 32 := BitVec.ofNat 32 (i 0).val
  let c1_i32 : BitVec 32 := 1#32
  let v0 : BitVec 32 := Scalar.muli arg0 c1_i32
  let c0_i32_380 : BitVec 32 := 0#32
  let c0_i32_381 : BitVec 32 := 0#32
  ![17, v0.toNat, 0, 0]
def k0_off19 (i : grid0.Coords) : Fin 4 → Nat :=
  let c18_i32 : BitVec 32 := 18#32
  let arg0 : BitVec 32 := BitVec.ofNat 32 (i 0).val
  let c1_i32 : BitVec 32 := 1#32
  let v0 : BitVec 32 := Scalar.muli arg0 c1_i32
  let c0_i32_403 : BitVec 32 := 0#32
  let c0_i32_404 : BitVec 32 := 0#32
  ![18, v0.toNat, 0, 0]
def k0_off20 (i : grid0.Coords) : Fin 4 → Nat :=
  let c19_i32 : BitVec 32 := 19#32
  let arg0 : BitVec 32 := BitVec.ofNat 32 (i 0).val
  let c1_i32 : BitVec 32 := 1#32
  let v0 : BitVec 32 := Scalar.muli arg0 c1_i32
  let c0_i32_426 : BitVec 32 := 0#32
  let c0_i32_427 : BitVec 32 := 0#32
  ![19, v0.toNat, 0, 0]
def k0_off21 (i : grid0.Coords) : Fin 4 → Nat :=
  let c20_i32 : BitVec 32 := 20#32
  let arg0 : BitVec 32 := BitVec.ofNat 32 (i 0).val
  let c1_i32 : BitVec 32 := 1#32
  let v0 : BitVec 32 := Scalar.muli arg0 c1_i32
  let c0_i32_449 : BitVec 32 := 0#32
  let c0_i32_450 : BitVec 32 := 0#32
  ![20, v0.toNat, 0, 0]
def k0_off22 (i : grid0.Coords) : Fin 4 → Nat :=
  let c21_i32 : BitVec 32 := 21#32
  let arg0 : BitVec 32 := BitVec.ofNat 32 (i 0).val
  let c1_i32 : BitVec 32 := 1#32
  let v0 : BitVec 32 := Scalar.muli arg0 c1_i32
  let c0_i32_472 : BitVec 32 := 0#32
  let c0_i32_473 : BitVec 32 := 0#32
  ![21, v0.toNat, 0, 0]
def k0_off23 (i : grid0.Coords) : Fin 4 → Nat :=
  let c22_i32 : BitVec 32 := 22#32
  let arg0 : BitVec 32 := BitVec.ofNat 32 (i 0).val
  let c1_i32 : BitVec 32 := 1#32
  let v0 : BitVec 32 := Scalar.muli arg0 c1_i32
  let c0_i32_495 : BitVec 32 := 0#32
  let c0_i32_496 : BitVec 32 := 0#32
  ![22, v0.toNat, 0, 0]
def k0_off24 (i : grid0.Coords) : Fin 4 → Nat :=
  let c23_i32 : BitVec 32 := 23#32
  let arg0 : BitVec 32 := BitVec.ofNat 32 (i 0).val
  let c1_i32 : BitVec 32 := 1#32
  let v0 : BitVec 32 := Scalar.muli arg0 c1_i32
  let c0_i32_518 : BitVec 32 := 0#32
  let c0_i32_519 : BitVec 32 := 0#32
  ![23, v0.toNat, 0, 0]
def k0_off25 (i : grid0.Coords) : Fin 4 → Nat :=
  let c24_i32 : BitVec 32 := 24#32
  let arg0 : BitVec 32 := BitVec.ofNat 32 (i 0).val
  let c1_i32 : BitVec 32 := 1#32
  let v0 : BitVec 32 := Scalar.muli arg0 c1_i32
  let c0_i32_541 : BitVec 32 := 0#32
  let c0_i32_542 : BitVec 32 := 0#32
  ![24, v0.toNat, 0, 0]
def k0_off26 (i : grid0.Coords) : Fin 4 → Nat :=
  let c25_i32 : BitVec 32 := 25#32
  let arg0 : BitVec 32 := BitVec.ofNat 32 (i 0).val
  let c1_i32 : BitVec 32 := 1#32
  let v0 : BitVec 32 := Scalar.muli arg0 c1_i32
  let c0_i32_564 : BitVec 32 := 0#32
  let c0_i32_565 : BitVec 32 := 0#32
  ![25, v0.toNat, 0, 0]
def k0_off27 (i : grid0.Coords) : Fin 4 → Nat :=
  let c26_i32 : BitVec 32 := 26#32
  let arg0 : BitVec 32 := BitVec.ofNat 32 (i 0).val
  let c1_i32 : BitVec 32 := 1#32
  let v0 : BitVec 32 := Scalar.muli arg0 c1_i32
  let c0_i32_587 : BitVec 32 := 0#32
  let c0_i32_588 : BitVec 32 := 0#32
  ![26, v0.toNat, 0, 0]
def k0_off28 (i : grid0.Coords) : Fin 4 → Nat :=
  let c27_i32 : BitVec 32 := 27#32
  let arg0 : BitVec 32 := BitVec.ofNat 32 (i 0).val
  let c1_i32 : BitVec 32 := 1#32
  let v0 : BitVec 32 := Scalar.muli arg0 c1_i32
  let c0_i32_610 : BitVec 32 := 0#32
  let c0_i32_611 : BitVec 32 := 0#32
  ![27, v0.toNat, 0, 0]
def k0_off29 (i : grid0.Coords) : Fin 4 → Nat :=
  let c28_i32 : BitVec 32 := 28#32
  let arg0 : BitVec 32 := BitVec.ofNat 32 (i 0).val
  let c1_i32 : BitVec 32 := 1#32
  let v0 : BitVec 32 := Scalar.muli arg0 c1_i32
  let c0_i32_633 : BitVec 32 := 0#32
  let c0_i32_634 : BitVec 32 := 0#32
  ![28, v0.toNat, 0, 0]
def k0_off30 (i : grid0.Coords) : Fin 4 → Nat :=
  let c29_i32 : BitVec 32 := 29#32
  let arg0 : BitVec 32 := BitVec.ofNat 32 (i 0).val
  let c1_i32 : BitVec 32 := 1#32
  let v0 : BitVec 32 := Scalar.muli arg0 c1_i32
  let c0_i32_656 : BitVec 32 := 0#32
  let c0_i32_657 : BitVec 32 := 0#32
  ![29, v0.toNat, 0, 0]
def k0_off31 (i : grid0.Coords) : Fin 4 → Nat :=
  let c30_i32 : BitVec 32 := 30#32
  let arg0 : BitVec 32 := BitVec.ofNat 32 (i 0).val
  let c1_i32 : BitVec 32 := 1#32
  let v0 : BitVec 32 := Scalar.muli arg0 c1_i32
  let c0_i32_679 : BitVec 32 := 0#32
  let c0_i32_680 : BitVec 32 := 0#32
  ![30, v0.toNat, 0, 0]
def k0_off32 (i : grid0.Coords) : Fin 4 → Nat :=
  let c31_i32 : BitVec 32 := 31#32
  let arg0 : BitVec 32 := BitVec.ofNat 32 (i 0).val
  let c1_i32 : BitVec 32 := 1#32
  let v0 : BitVec 32 := Scalar.muli arg0 c1_i32
  let c0_i32_702 : BitVec 32 := 0#32
  let c0_i32_703 : BitVec 32 := 0#32
  ![31, v0.toNat, 0, 0]
def k0_off33 (i : grid0.Coords) : Fin 4 → Nat :=
  let c32_i32 : BitVec 32 := 32#32
  let arg0 : BitVec 32 := BitVec.ofNat 32 (i 0).val
  let c1_i32 : BitVec 32 := 1#32
  let v0 : BitVec 32 := Scalar.muli arg0 c1_i32
  let c0_i32_725 : BitVec 32 := 0#32
  let c0_i32_726 : BitVec 32 := 0#32
  ![32, v0.toNat, 0, 0]
def k0_off34 (i : grid0.Coords) : Fin 4 → Nat :=
  let c33_i32 : BitVec 32 := 33#32
  let arg0 : BitVec 32 := BitVec.ofNat 32 (i 0).val
  let c1_i32 : BitVec 32 := 1#32
  let v0 : BitVec 32 := Scalar.muli arg0 c1_i32
  let c0_i32_748 : BitVec 32 := 0#32
  let c0_i32_749 : BitVec 32 := 0#32
  ![33, v0.toNat, 0, 0]
def k0_off35 (i : grid0.Coords) : Fin 4 → Nat :=
  let c34_i32 : BitVec 32 := 34#32
  let arg0 : BitVec 32 := BitVec.ofNat 32 (i 0).val
  let c1_i32 : BitVec 32 := 1#32
  let v0 : BitVec 32 := Scalar.muli arg0 c1_i32
  let c0_i32_771 : BitVec 32 := 0#32
  let c0_i32_772 : BitVec 32 := 0#32
  ![34, v0.toNat, 0, 0]
def k0_off36 (i : grid0.Coords) : Fin 4 → Nat :=
  let c35_i32 : BitVec 32 := 35#32
  let arg0 : BitVec 32 := BitVec.ofNat 32 (i 0).val
  let c1_i32 : BitVec 32 := 1#32
  let v0 : BitVec 32 := Scalar.muli arg0 c1_i32
  let c0_i32_794 : BitVec 32 := 0#32
  let c0_i32_795 : BitVec 32 := 0#32
  ![35, v0.toNat, 0, 0]
def k0_off37 (i : grid0.Coords) : Fin 4 → Nat :=
  let c36_i32 : BitVec 32 := 36#32
  let arg0 : BitVec 32 := BitVec.ofNat 32 (i 0).val
  let c1_i32 : BitVec 32 := 1#32
  let v0 : BitVec 32 := Scalar.muli arg0 c1_i32
  let c0_i32_817 : BitVec 32 := 0#32
  let c0_i32_818 : BitVec 32 := 0#32
  ![36, v0.toNat, 0, 0]
def k0_off38 (i : grid0.Coords) : Fin 4 → Nat :=
  let c37_i32 : BitVec 32 := 37#32
  let arg0 : BitVec 32 := BitVec.ofNat 32 (i 0).val
  let c1_i32 : BitVec 32 := 1#32
  let v0 : BitVec 32 := Scalar.muli arg0 c1_i32
  let c0_i32_840 : BitVec 32 := 0#32
  let c0_i32_841 : BitVec 32 := 0#32
  ![37, v0.toNat, 0, 0]
def k0_off39 (i : grid0.Coords) : Fin 4 → Nat :=
  let c38_i32 : BitVec 32 := 38#32
  let arg0 : BitVec 32 := BitVec.ofNat 32 (i 0).val
  let c1_i32 : BitVec 32 := 1#32
  let v0 : BitVec 32 := Scalar.muli arg0 c1_i32
  let c0_i32_863 : BitVec 32 := 0#32
  let c0_i32_864 : BitVec 32 := 0#32
  ![38, v0.toNat, 0, 0]
def k0_off40 (i : grid0.Coords) : Fin 4 → Nat :=
  let c39_i32 : BitVec 32 := 39#32
  let arg0 : BitVec 32 := BitVec.ofNat 32 (i 0).val
  let c1_i32 : BitVec 32 := 1#32
  let v0 : BitVec 32 := Scalar.muli arg0 c1_i32
  let c0_i32_886 : BitVec 32 := 0#32
  let c0_i32_887 : BitVec 32 := 0#32
  ![39, v0.toNat, 0, 0]
def k0_off41 (i : grid0.Coords) : Fin 4 → Nat :=
  let c40_i32 : BitVec 32 := 40#32
  let arg0 : BitVec 32 := BitVec.ofNat 32 (i 0).val
  let c1_i32 : BitVec 32 := 1#32
  let v0 : BitVec 32 := Scalar.muli arg0 c1_i32
  let c0_i32_909 : BitVec 32 := 0#32
  let c0_i32_910 : BitVec 32 := 0#32
  ![40, v0.toNat, 0, 0]
def k0_off42 (i : grid0.Coords) : Fin 4 → Nat :=
  let c41_i32 : BitVec 32 := 41#32
  let arg0 : BitVec 32 := BitVec.ofNat 32 (i 0).val
  let c1_i32 : BitVec 32 := 1#32
  let v0 : BitVec 32 := Scalar.muli arg0 c1_i32
  let c0_i32_932 : BitVec 32 := 0#32
  let c0_i32_933 : BitVec 32 := 0#32
  ![41, v0.toNat, 0, 0]
def k0_off43 (i : grid0.Coords) : Fin 4 → Nat :=
  let c42_i32 : BitVec 32 := 42#32
  let arg0 : BitVec 32 := BitVec.ofNat 32 (i 0).val
  let c1_i32 : BitVec 32 := 1#32
  let v0 : BitVec 32 := Scalar.muli arg0 c1_i32
  let c0_i32_955 : BitVec 32 := 0#32
  let c0_i32_956 : BitVec 32 := 0#32
  ![42, v0.toNat, 0, 0]
def k0_off44 (i : grid0.Coords) : Fin 4 → Nat :=
  let c43_i32 : BitVec 32 := 43#32
  let arg0 : BitVec 32 := BitVec.ofNat 32 (i 0).val
  let c1_i32 : BitVec 32 := 1#32
  let v0 : BitVec 32 := Scalar.muli arg0 c1_i32
  let c0_i32_978 : BitVec 32 := 0#32
  let c0_i32_979 : BitVec 32 := 0#32
  ![43, v0.toNat, 0, 0]
def k0_off45 (i : grid0.Coords) : Fin 4 → Nat :=
  let c44_i32 : BitVec 32 := 44#32
  let arg0 : BitVec 32 := BitVec.ofNat 32 (i 0).val
  let c1_i32 : BitVec 32 := 1#32
  let v0 : BitVec 32 := Scalar.muli arg0 c1_i32
  let c0_i32_1001 : BitVec 32 := 0#32
  let c0_i32_1002 : BitVec 32 := 0#32
  ![44, v0.toNat, 0, 0]
def k0_off46 (i : grid0.Coords) : Fin 4 → Nat :=
  let c45_i32 : BitVec 32 := 45#32
  let arg0 : BitVec 32 := BitVec.ofNat 32 (i 0).val
  let c1_i32 : BitVec 32 := 1#32
  let v0 : BitVec 32 := Scalar.muli arg0 c1_i32
  let c0_i32_1024 : BitVec 32 := 0#32
  let c0_i32_1025 : BitVec 32 := 0#32
  ![45, v0.toNat, 0, 0]
def k0_off47 (i : grid0.Coords) : Fin 4 → Nat :=
  let c46_i32 : BitVec 32 := 46#32
  let arg0 : BitVec 32 := BitVec.ofNat 32 (i 0).val
  let c1_i32 : BitVec 32 := 1#32
  let v0 : BitVec 32 := Scalar.muli arg0 c1_i32
  let c0_i32_1047 : BitVec 32 := 0#32
  let c0_i32_1048 : BitVec 32 := 0#32
  ![46, v0.toNat, 0, 0]
def k0_off48 (i : grid0.Coords) : Fin 4 → Nat :=
  let c47_i32 : BitVec 32 := 47#32
  let arg0 : BitVec 32 := BitVec.ofNat 32 (i 0).val
  let c1_i32 : BitVec 32 := 1#32
  let v0 : BitVec 32 := Scalar.muli arg0 c1_i32
  let c0_i32_1070 : BitVec 32 := 0#32
  let c0_i32_1071 : BitVec 32 := 0#32
  ![47, v0.toNat, 0, 0]
def k0_off49 (i : grid0.Coords) : Fin 4 → Nat :=
  let c48_i32 : BitVec 32 := 48#32
  let arg0 : BitVec 32 := BitVec.ofNat 32 (i 0).val
  let c1_i32 : BitVec 32 := 1#32
  let v0 : BitVec 32 := Scalar.muli arg0 c1_i32
  let c0_i32_1093 : BitVec 32 := 0#32
  let c0_i32_1094 : BitVec 32 := 0#32
  ![48, v0.toNat, 0, 0]
def k0_off50 (i : grid0.Coords) : Fin 4 → Nat :=
  let c49_i32 : BitVec 32 := 49#32
  let arg0 : BitVec 32 := BitVec.ofNat 32 (i 0).val
  let c1_i32 : BitVec 32 := 1#32
  let v0 : BitVec 32 := Scalar.muli arg0 c1_i32
  let c0_i32_1116 : BitVec 32 := 0#32
  let c0_i32_1117 : BitVec 32 := 0#32
  ![49, v0.toNat, 0, 0]
def k0_off51 (i : grid0.Coords) : Fin 4 → Nat :=
  let c50_i32 : BitVec 32 := 50#32
  let arg0 : BitVec 32 := BitVec.ofNat 32 (i 0).val
  let c1_i32 : BitVec 32 := 1#32
  let v0 : BitVec 32 := Scalar.muli arg0 c1_i32
  let c0_i32_1139 : BitVec 32 := 0#32
  let c0_i32_1140 : BitVec 32 := 0#32
  ![50, v0.toNat, 0, 0]
def k0_off52 (i : grid0.Coords) : Fin 4 → Nat :=
  let c51_i32 : BitVec 32 := 51#32
  let arg0 : BitVec 32 := BitVec.ofNat 32 (i 0).val
  let c1_i32 : BitVec 32 := 1#32
  let v0 : BitVec 32 := Scalar.muli arg0 c1_i32
  let c0_i32_1162 : BitVec 32 := 0#32
  let c0_i32_1163 : BitVec 32 := 0#32
  ![51, v0.toNat, 0, 0]
def k0_off53 (i : grid0.Coords) : Fin 4 → Nat :=
  let c52_i32 : BitVec 32 := 52#32
  let arg0 : BitVec 32 := BitVec.ofNat 32 (i 0).val
  let c1_i32 : BitVec 32 := 1#32
  let v0 : BitVec 32 := Scalar.muli arg0 c1_i32
  let c0_i32_1185 : BitVec 32 := 0#32
  let c0_i32_1186 : BitVec 32 := 0#32
  ![52, v0.toNat, 0, 0]
def k0_off54 (i : grid0.Coords) : Fin 4 → Nat :=
  let c53_i32 : BitVec 32 := 53#32
  let arg0 : BitVec 32 := BitVec.ofNat 32 (i 0).val
  let c1_i32 : BitVec 32 := 1#32
  let v0 : BitVec 32 := Scalar.muli arg0 c1_i32
  let c0_i32_1208 : BitVec 32 := 0#32
  let c0_i32_1209 : BitVec 32 := 0#32
  ![53, v0.toNat, 0, 0]
def k0_off55 (i : grid0.Coords) : Fin 4 → Nat :=
  let c54_i32 : BitVec 32 := 54#32
  let arg0 : BitVec 32 := BitVec.ofNat 32 (i 0).val
  let c1_i32 : BitVec 32 := 1#32
  let v0 : BitVec 32 := Scalar.muli arg0 c1_i32
  let c0_i32_1231 : BitVec 32 := 0#32
  let c0_i32_1232 : BitVec 32 := 0#32
  ![54, v0.toNat, 0, 0]
def k0_off56 (i : grid0.Coords) : Fin 4 → Nat :=
  let c55_i32 : BitVec 32 := 55#32
  let arg0 : BitVec 32 := BitVec.ofNat 32 (i 0).val
  let c1_i32 : BitVec 32 := 1#32
  let v0 : BitVec 32 := Scalar.muli arg0 c1_i32
  let c0_i32_1254 : BitVec 32 := 0#32
  let c0_i32_1255 : BitVec 32 := 0#32
  ![55, v0.toNat, 0, 0]
def k0_off57 (i : grid0.Coords) : Fin 4 → Nat :=
  let c56_i32 : BitVec 32 := 56#32
  let arg0 : BitVec 32 := BitVec.ofNat 32 (i 0).val
  let c1_i32 : BitVec 32 := 1#32
  let v0 : BitVec 32 := Scalar.muli arg0 c1_i32
  let c0_i32_1277 : BitVec 32 := 0#32
  let c0_i32_1278 : BitVec 32 := 0#32
  ![56, v0.toNat, 0, 0]
def k0_off58 (i : grid0.Coords) : Fin 4 → Nat :=
  let c57_i32 : BitVec 32 := 57#32
  let arg0 : BitVec 32 := BitVec.ofNat 32 (i 0).val
  let c1_i32 : BitVec 32 := 1#32
  let v0 : BitVec 32 := Scalar.muli arg0 c1_i32
  let c0_i32_1300 : BitVec 32 := 0#32
  let c0_i32_1301 : BitVec 32 := 0#32
  ![57, v0.toNat, 0, 0]
def k0_off59 (i : grid0.Coords) : Fin 4 → Nat :=
  let c58_i32 : BitVec 32 := 58#32
  let arg0 : BitVec 32 := BitVec.ofNat 32 (i 0).val
  let c1_i32 : BitVec 32 := 1#32
  let v0 : BitVec 32 := Scalar.muli arg0 c1_i32
  let c0_i32_1323 : BitVec 32 := 0#32
  let c0_i32_1324 : BitVec 32 := 0#32
  ![58, v0.toNat, 0, 0]
def k0_off60 (i : grid0.Coords) : Fin 4 → Nat :=
  let c59_i32 : BitVec 32 := 59#32
  let arg0 : BitVec 32 := BitVec.ofNat 32 (i 0).val
  let c1_i32 : BitVec 32 := 1#32
  let v0 : BitVec 32 := Scalar.muli arg0 c1_i32
  let c0_i32_1346 : BitVec 32 := 0#32
  let c0_i32_1347 : BitVec 32 := 0#32
  ![59, v0.toNat, 0, 0]
def k0_off61 (i : grid0.Coords) : Fin 4 → Nat :=
  let c60_i32 : BitVec 32 := 60#32
  let arg0 : BitVec 32 := BitVec.ofNat 32 (i 0).val
  let c1_i32 : BitVec 32 := 1#32
  let v0 : BitVec 32 := Scalar.muli arg0 c1_i32
  let c0_i32_1369 : BitVec 32 := 0#32
  let c0_i32_1370 : BitVec 32 := 0#32
  ![60, v0.toNat, 0, 0]
def k0_off62 (i : grid0.Coords) : Fin 4 → Nat :=
  let c61_i32 : BitVec 32 := 61#32
  let arg0 : BitVec 32 := BitVec.ofNat 32 (i 0).val
  let c1_i32 : BitVec 32 := 1#32
  let v0 : BitVec 32 := Scalar.muli arg0 c1_i32
  let c0_i32_1392 : BitVec 32 := 0#32
  let c0_i32_1393 : BitVec 32 := 0#32
  ![61, v0.toNat, 0, 0]
def k0_off63 (i : grid0.Coords) : Fin 4 → Nat :=
  let c62_i32 : BitVec 32 := 62#32
  let arg0 : BitVec 32 := BitVec.ofNat 32 (i 0).val
  let c1_i32 : BitVec 32 := 1#32
  let v0 : BitVec 32 := Scalar.muli arg0 c1_i32
  let c0_i32_1415 : BitVec 32 := 0#32
  let c0_i32_1416 : BitVec 32 := 0#32
  ![62, v0.toNat, 0, 0]
def k0_off64 (i : grid0.Coords) : Fin 4 → Nat :=
  let c63_i32 : BitVec 32 := 63#32
  let arg0 : BitVec 32 := BitVec.ofNat 32 (i 0).val
  let c1_i32 : BitVec 32 := 1#32
  let v0 : BitVec 32 := Scalar.muli arg0 c1_i32
  let c0_i32_1438 : BitVec 32 := 0#32
  let c0_i32_1439 : BitVec 32 := 0#32
  ![63, v0.toNat, 0, 0]
def k0_off65 (i : grid0.Coords) : Fin 4 → Nat :=
  let c64_i32 : BitVec 32 := 64#32
  let arg0 : BitVec 32 := BitVec.ofNat 32 (i 0).val
  let c1_i32 : BitVec 32 := 1#32
  let v0 : BitVec 32 := Scalar.muli arg0 c1_i32
  let c0_i32_1461 : BitVec 32 := 0#32
  let c0_i32_1462 : BitVec 32 := 0#32
  ![64, v0.toNat, 0, 0]
def k0_off66 (i : grid0.Coords) : Fin 4 → Nat :=
  let c65_i32 : BitVec 32 := 65#32
  let arg0 : BitVec 32 := BitVec.ofNat 32 (i 0).val
  let c1_i32 : BitVec 32 := 1#32
  let v0 : BitVec 32 := Scalar.muli arg0 c1_i32
  let c0_i32_1484 : BitVec 32 := 0#32
  let c0_i32_1485 : BitVec 32 := 0#32
  ![65, v0.toNat, 0, 0]
def k0_off67 (i : grid0.Coords) : Fin 4 → Nat :=
  let c66_i32 : BitVec 32 := 66#32
  let arg0 : BitVec 32 := BitVec.ofNat 32 (i 0).val
  let c1_i32 : BitVec 32 := 1#32
  let v0 : BitVec 32 := Scalar.muli arg0 c1_i32
  let c0_i32_1507 : BitVec 32 := 0#32
  let c0_i32_1508 : BitVec 32 := 0#32
  ![66, v0.toNat, 0, 0]
def k0_off68 (i : grid0.Coords) : Fin 4 → Nat :=
  let c67_i32 : BitVec 32 := 67#32
  let arg0 : BitVec 32 := BitVec.ofNat 32 (i 0).val
  let c1_i32 : BitVec 32 := 1#32
  let v0 : BitVec 32 := Scalar.muli arg0 c1_i32
  let c0_i32_1530 : BitVec 32 := 0#32
  let c0_i32_1531 : BitVec 32 := 0#32
  ![67, v0.toNat, 0, 0]
def k0_off69 (i : grid0.Coords) : Fin 4 → Nat :=
  let c68_i32 : BitVec 32 := 68#32
  let arg0 : BitVec 32 := BitVec.ofNat 32 (i 0).val
  let c1_i32 : BitVec 32 := 1#32
  let v0 : BitVec 32 := Scalar.muli arg0 c1_i32
  let c0_i32_1553 : BitVec 32 := 0#32
  let c0_i32_1554 : BitVec 32 := 0#32
  ![68, v0.toNat, 0, 0]
def k0_off70 (i : grid0.Coords) : Fin 4 → Nat :=
  let c69_i32 : BitVec 32 := 69#32
  let arg0 : BitVec 32 := BitVec.ofNat 32 (i 0).val
  let c1_i32 : BitVec 32 := 1#32
  let v0 : BitVec 32 := Scalar.muli arg0 c1_i32
  let c0_i32_1576 : BitVec 32 := 0#32
  let c0_i32_1577 : BitVec 32 := 0#32
  ![69, v0.toNat, 0, 0]
def k0_off71 (i : grid0.Coords) : Fin 4 → Nat :=
  let c70_i32 : BitVec 32 := 70#32
  let arg0 : BitVec 32 := BitVec.ofNat 32 (i 0).val
  let c1_i32 : BitVec 32 := 1#32
  let v0 : BitVec 32 := Scalar.muli arg0 c1_i32
  let c0_i32_1599 : BitVec 32 := 0#32
  let c0_i32_1600 : BitVec 32 := 0#32
  ![70, v0.toNat, 0, 0]
def k0_off72 (i : grid0.Coords) : Fin 4 → Nat :=
  let c71_i32 : BitVec 32 := 71#32
  let arg0 : BitVec 32 := BitVec.ofNat 32 (i 0).val
  let c1_i32 : BitVec 32 := 1#32
  let v0 : BitVec 32 := Scalar.muli arg0 c1_i32
  let c0_i32_1622 : BitVec 32 := 0#32
  let c0_i32_1623 : BitVec 32 := 0#32
  ![71, v0.toNat, 0, 0]
def k0_off73 (i : grid0.Coords) : Fin 4 → Nat :=
  let c72_i32 : BitVec 32 := 72#32
  let arg0 : BitVec 32 := BitVec.ofNat 32 (i 0).val
  let c1_i32 : BitVec 32 := 1#32
  let v0 : BitVec 32 := Scalar.muli arg0 c1_i32
  let c0_i32_1645 : BitVec 32 := 0#32
  let c0_i32_1646 : BitVec 32 := 0#32
  ![72, v0.toNat, 0, 0]
def k0_off74 (i : grid0.Coords) : Fin 4 → Nat :=
  let c73_i32 : BitVec 32 := 73#32
  let arg0 : BitVec 32 := BitVec.ofNat 32 (i 0).val
  let c1_i32 : BitVec 32 := 1#32
  let v0 : BitVec 32 := Scalar.muli arg0 c1_i32
  let c0_i32_1668 : BitVec 32 := 0#32
  let c0_i32_1669 : BitVec 32 := 0#32
  ![73, v0.toNat, 0, 0]
def k0_off75 (i : grid0.Coords) : Fin 4 → Nat :=
  let c74_i32 : BitVec 32 := 74#32
  let arg0 : BitVec 32 := BitVec.ofNat 32 (i 0).val
  let c1_i32 : BitVec 32 := 1#32
  let v0 : BitVec 32 := Scalar.muli arg0 c1_i32
  let c0_i32_1691 : BitVec 32 := 0#32
  let c0_i32_1692 : BitVec 32 := 0#32
  ![74, v0.toNat, 0, 0]
def k0_off76 (i : grid0.Coords) : Fin 4 → Nat :=
  let c75_i32 : BitVec 32 := 75#32
  let arg0 : BitVec 32 := BitVec.ofNat 32 (i 0).val
  let c1_i32 : BitVec 32 := 1#32
  let v0 : BitVec 32 := Scalar.muli arg0 c1_i32
  let c0_i32_1714 : BitVec 32 := 0#32
  let c0_i32_1715 : BitVec 32 := 0#32
  ![75, v0.toNat, 0, 0]
def k0_off77 (i : grid0.Coords) : Fin 4 → Nat :=
  let c76_i32 : BitVec 32 := 76#32
  let arg0 : BitVec 32 := BitVec.ofNat 32 (i 0).val
  let c1_i32 : BitVec 32 := 1#32
  let v0 : BitVec 32 := Scalar.muli arg0 c1_i32
  let c0_i32_1737 : BitVec 32 := 0#32
  let c0_i32_1738 : BitVec 32 := 0#32
  ![76, v0.toNat, 0, 0]
def k0_off78 (i : grid0.Coords) : Fin 4 → Nat :=
  let c77_i32 : BitVec 32 := 77#32
  let arg0 : BitVec 32 := BitVec.ofNat 32 (i 0).val
  let c1_i32 : BitVec 32 := 1#32
  let v0 : BitVec 32 := Scalar.muli arg0 c1_i32
  let c0_i32_1760 : BitVec 32 := 0#32
  let c0_i32_1761 : BitVec 32 := 0#32
  ![77, v0.toNat, 0, 0]
def k0_off79 (i : grid0.Coords) : Fin 4 → Nat :=
  let c78_i32 : BitVec 32 := 78#32
  let arg0 : BitVec 32 := BitVec.ofNat 32 (i 0).val
  let c1_i32 : BitVec 32 := 1#32
  let v0 : BitVec 32 := Scalar.muli arg0 c1_i32
  let c0_i32_1783 : BitVec 32 := 0#32
  let c0_i32_1784 : BitVec 32 := 0#32
  ![78, v0.toNat, 0, 0]
def k0_off80 (i : grid0.Coords) : Fin 4 → Nat :=
  let c79_i32 : BitVec 32 := 79#32
  let arg0 : BitVec 32 := BitVec.ofNat 32 (i 0).val
  let c1_i32 : BitVec 32 := 1#32
  let v0 : BitVec 32 := Scalar.muli arg0 c1_i32
  let c0_i32_1806 : BitVec 32 := 0#32
  let c0_i32_1807 : BitVec 32 := 0#32
  ![79, v0.toNat, 0, 0]
def k0_off81 (i : grid0.Coords) : Fin 4 → Nat :=
  let c80_i32 : BitVec 32 := 80#32
  let arg0 : BitVec 32 := BitVec.ofNat 32 (i 0).val
  let c1_i32 : BitVec 32 := 1#32
  let v0 : BitVec 32 := Scalar.muli arg0 c1_i32
  let c0_i32_1829 : BitVec 32 := 0#32
  let c0_i32_1830 : BitVec 32 := 0#32
  ![80, v0.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1136x1136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S2_S1_0 : ∀ a, (![0] : Fin 1 → Nat) a + S1.size a ≤ S2.size a
  squeezes_S1_S_ : S1.Squeezes S_
  inb_S2x1x128x128_S1x1x128x128_0_0_0_0 : ∀ a, (![0, 0, 0, 0] : Fin 4 → Nat) a + S1x1x128x128.size a ≤ S2x1x128x128.size a
  squeezes_S1x1x128x128_S1x128x128 : S1x1x128x128.Squeezes S1x128x128
  inb_S81x64x128x128_S1x1x128x128_0_0_0_0 : ∀ a, (![0, 0, 0, 0] : Fin 4 → Nat) a + S1x1x128x128.size a ≤ S81x64x128x128.size a
  inb_S2_S1_1 : ∀ a, (![1] : Fin 1 → Nat) a + S1.size a ≤ S2.size a
  inb_S2x1x128x128_S1x1x128x128_1_0_0_0 : ∀ a, (![1, 0, 0, 0] : Fin 4 → Nat) a + S1x1x128x128.size a ≤ S2x1x128x128.size a
  h_S1x1x128x128 : 0 < S1x1x128x128.numel
  shapeCasts_S1x1x128x128_S128x128 : S1x1x128x128.ShapeCasts S128x128
  inb_S1x1136x1136_S1x128x128_0_0_0 : ∀ a, (![0, 0, 0] : Fin 3 → Nat) a + S1x128x128.size a ≤ S1x1136x1136.size a
  h_S1x128x128 : 0 < S1x128x128.numel
  shapeCasts_S1x128x128_S128x128 : S1x128x128.ShapeCasts S128x128
  shapeCasts_S128x128_S1x128x128 : S128x128.ShapeCasts S1x128x128
  inb_S1x1136x1136_S1x128x128_0_0_126 : ∀ a, (![0, 0, 126] : Fin 3 → Nat) a + S1x128x128.size a ≤ S1x1136x1136.size a
  inb_S1x1136x1136_S1x128x128_0_0_252 : ∀ a, (![0, 0, 252] : Fin 3 → Nat) a + S1x128x128.size a ≤ S1x1136x1136.size a
  inb_S1x1136x1136_S1x128x128_0_0_378 : ∀ a, (![0, 0, 378] : Fin 3 → Nat) a + S1x128x128.size a ≤ S1x1136x1136.size a
  inb_S1x1136x1136_S1x128x128_0_0_504 : ∀ a, (![0, 0, 504] : Fin 3 → Nat) a + S1x128x128.size a ≤ S1x1136x1136.size a
  inb_S1x1136x1136_S1x128x128_0_0_630 : ∀ a, (![0, 0, 630] : Fin 3 → Nat) a + S1x128x128.size a ≤ S1x1136x1136.size a
  inb_S1x1136x1136_S1x128x128_0_0_756 : ∀ a, (![0, 0, 756] : Fin 3 → Nat) a + S1x128x128.size a ≤ S1x1136x1136.size a
  inb_S1x1136x1136_S1x128x128_0_0_882 : ∀ a, (![0, 0, 882] : Fin 3 → Nat) a + S1x128x128.size a ≤ S1x1136x1136.size a
  inb_S1x1136x1136_S1x128x128_0_0_1008 : ∀ a, (![0, 0, 1008] : Fin 3 → Nat) a + S1x128x128.size a ≤ S1x1136x1136.size a
  inb_S1x1136x1136_S1x128x128_0_126_0 : ∀ a, (![0, 126, 0] : Fin 3 → Nat) a + S1x128x128.size a ≤ S1x1136x1136.size a
  inb_S1x1136x1136_S1x128x128_0_126_126 : ∀ a, (![0, 126, 126] : Fin 3 → Nat) a + S1x128x128.size a ≤ S1x1136x1136.size a
  inb_S1x1136x1136_S1x128x128_0_126_252 : ∀ a, (![0, 126, 252] : Fin 3 → Nat) a + S1x128x128.size a ≤ S1x1136x1136.size a
  inb_S1x1136x1136_S1x128x128_0_126_378 : ∀ a, (![0, 126, 378] : Fin 3 → Nat) a + S1x128x128.size a ≤ S1x1136x1136.size a
  inb_S1x1136x1136_S1x128x128_0_126_504 : ∀ a, (![0, 126, 504] : Fin 3 → Nat) a + S1x128x128.size a ≤ S1x1136x1136.size a
  inb_S1x1136x1136_S1x128x128_0_126_630 : ∀ a, (![0, 126, 630] : Fin 3 → Nat) a + S1x128x128.size a ≤ S1x1136x1136.size a
  inb_S1x1136x1136_S1x128x128_0_126_756 : ∀ a, (![0, 126, 756] : Fin 3 → Nat) a + S1x128x128.size a ≤ S1x1136x1136.size a
  inb_S1x1136x1136_S1x128x128_0_126_882 : ∀ a, (![0, 126, 882] : Fin 3 → Nat) a + S1x128x128.size a ≤ S1x1136x1136.size a
  inb_S1x1136x1136_S1x128x128_0_126_1008 : ∀ a, (![0, 126, 1008] : Fin 3 → Nat) a + S1x128x128.size a ≤ S1x1136x1136.size a
  inb_S1x1136x1136_S1x128x128_0_252_0 : ∀ a, (![0, 252, 0] : Fin 3 → Nat) a + S1x128x128.size a ≤ S1x1136x1136.size a
  inb_S1x1136x1136_S1x128x128_0_252_126 : ∀ a, (![0, 252, 126] : Fin 3 → Nat) a + S1x128x128.size a ≤ S1x1136x1136.size a
  inb_S1x1136x1136_S1x128x128_0_252_252 : ∀ a, (![0, 252, 252] : Fin 3 → Nat) a + S1x128x128.size a ≤ S1x1136x1136.size a
  inb_S1x1136x1136_S1x128x128_0_252_378 : ∀ a, (![0, 252, 378] : Fin 3 → Nat) a + S1x128x128.size a ≤ S1x1136x1136.size a
  inb_S1x1136x1136_S1x128x128_0_252_504 : ∀ a, (![0, 252, 504] : Fin 3 → Nat) a + S1x128x128.size a ≤ S1x1136x1136.size a
  inb_S1x1136x1136_S1x128x128_0_252_630 : ∀ a, (![0, 252, 630] : Fin 3 → Nat) a + S1x128x128.size a ≤ S1x1136x1136.size a
  inb_S1x1136x1136_S1x128x128_0_252_756 : ∀ a, (![0, 252, 756] : Fin 3 → Nat) a + S1x128x128.size a ≤ S1x1136x1136.size a
  inb_S1x1136x1136_S1x128x128_0_252_882 : ∀ a, (![0, 252, 882] : Fin 3 → Nat) a + S1x128x128.size a ≤ S1x1136x1136.size a
  inb_S1x1136x1136_S1x128x128_0_252_1008 : ∀ a, (![0, 252, 1008] : Fin 3 → Nat) a + S1x128x128.size a ≤ S1x1136x1136.size a
  inb_S1x1136x1136_S1x128x128_0_378_0 : ∀ a, (![0, 378, 0] : Fin 3 → Nat) a + S1x128x128.size a ≤ S1x1136x1136.size a
  inb_S1x1136x1136_S1x128x128_0_378_126 : ∀ a, (![0, 378, 126] : Fin 3 → Nat) a + S1x128x128.size a ≤ S1x1136x1136.size a
  inb_S1x1136x1136_S1x128x128_0_378_252 : ∀ a, (![0, 378, 252] : Fin 3 → Nat) a + S1x128x128.size a ≤ S1x1136x1136.size a
  inb_S1x1136x1136_S1x128x128_0_378_378 : ∀ a, (![0, 378, 378] : Fin 3 → Nat) a + S1x128x128.size a ≤ S1x1136x1136.size a
  inb_S1x1136x1136_S1x128x128_0_378_504 : ∀ a, (![0, 378, 504] : Fin 3 → Nat) a + S1x128x128.size a ≤ S1x1136x1136.size a
  inb_S1x1136x1136_S1x128x128_0_378_630 : ∀ a, (![0, 378, 630] : Fin 3 → Nat) a + S1x128x128.size a ≤ S1x1136x1136.size a
  inb_S1x1136x1136_S1x128x128_0_378_756 : ∀ a, (![0, 378, 756] : Fin 3 → Nat) a + S1x128x128.size a ≤ S1x1136x1136.size a
  inb_S1x1136x1136_S1x128x128_0_378_882 : ∀ a, (![0, 378, 882] : Fin 3 → Nat) a + S1x128x128.size a ≤ S1x1136x1136.size a
  inb_S1x1136x1136_S1x128x128_0_378_1008 : ∀ a, (![0, 378, 1008] : Fin 3 → Nat) a + S1x128x128.size a ≤ S1x1136x1136.size a
  inb_S1x1136x1136_S1x128x128_0_504_0 : ∀ a, (![0, 504, 0] : Fin 3 → Nat) a + S1x128x128.size a ≤ S1x1136x1136.size a
  inb_S1x1136x1136_S1x128x128_0_504_126 : ∀ a, (![0, 504, 126] : Fin 3 → Nat) a + S1x128x128.size a ≤ S1x1136x1136.size a
  inb_S1x1136x1136_S1x128x128_0_504_252 : ∀ a, (![0, 504, 252] : Fin 3 → Nat) a + S1x128x128.size a ≤ S1x1136x1136.size a
  inb_S1x1136x1136_S1x128x128_0_504_378 : ∀ a, (![0, 504, 378] : Fin 3 → Nat) a + S1x128x128.size a ≤ S1x1136x1136.size a
  inb_S1x1136x1136_S1x128x128_0_504_504 : ∀ a, (![0, 504, 504] : Fin 3 → Nat) a + S1x128x128.size a ≤ S1x1136x1136.size a
  inb_S1x1136x1136_S1x128x128_0_504_630 : ∀ a, (![0, 504, 630] : Fin 3 → Nat) a + S1x128x128.size a ≤ S1x1136x1136.size a
  inb_S1x1136x1136_S1x128x128_0_504_756 : ∀ a, (![0, 504, 756] : Fin 3 → Nat) a + S1x128x128.size a ≤ S1x1136x1136.size a
  inb_S1x1136x1136_S1x128x128_0_504_882 : ∀ a, (![0, 504, 882] : Fin 3 → Nat) a + S1x128x128.size a ≤ S1x1136x1136.size a
  inb_S1x1136x1136_S1x128x128_0_504_1008 : ∀ a, (![0, 504, 1008] : Fin 3 → Nat) a + S1x128x128.size a ≤ S1x1136x1136.size a
  inb_S1x1136x1136_S1x128x128_0_630_0 : ∀ a, (![0, 630, 0] : Fin 3 → Nat) a + S1x128x128.size a ≤ S1x1136x1136.size a
  inb_S1x1136x1136_S1x128x128_0_630_126 : ∀ a, (![0, 630, 126] : Fin 3 → Nat) a + S1x128x128.size a ≤ S1x1136x1136.size a
  inb_S1x1136x1136_S1x128x128_0_630_252 : ∀ a, (![0, 630, 252] : Fin 3 → Nat) a + S1x128x128.size a ≤ S1x1136x1136.size a
  inb_S1x1136x1136_S1x128x128_0_630_378 : ∀ a, (![0, 630, 378] : Fin 3 → Nat) a + S1x128x128.size a ≤ S1x1136x1136.size a
  inb_S1x1136x1136_S1x128x128_0_630_504 : ∀ a, (![0, 630, 504] : Fin 3 → Nat) a + S1x128x128.size a ≤ S1x1136x1136.size a
  inb_S1x1136x1136_S1x128x128_0_630_630 : ∀ a, (![0, 630, 630] : Fin 3 → Nat) a + S1x128x128.size a ≤ S1x1136x1136.size a
  inb_S1x1136x1136_S1x128x128_0_630_756 : ∀ a, (![0, 630, 756] : Fin 3 → Nat) a + S1x128x128.size a ≤ S1x1136x1136.size a
  inb_S1x1136x1136_S1x128x128_0_630_882 : ∀ a, (![0, 630, 882] : Fin 3 → Nat) a + S1x128x128.size a ≤ S1x1136x1136.size a
  inb_S1x1136x1136_S1x128x128_0_630_1008 : ∀ a, (![0, 630, 1008] : Fin 3 → Nat) a + S1x128x128.size a ≤ S1x1136x1136.size a
  inb_S1x1136x1136_S1x128x128_0_756_0 : ∀ a, (![0, 756, 0] : Fin 3 → Nat) a + S1x128x128.size a ≤ S1x1136x1136.size a
  inb_S1x1136x1136_S1x128x128_0_756_126 : ∀ a, (![0, 756, 126] : Fin 3 → Nat) a + S1x128x128.size a ≤ S1x1136x1136.size a
  inb_S1x1136x1136_S1x128x128_0_756_252 : ∀ a, (![0, 756, 252] : Fin 3 → Nat) a + S1x128x128.size a ≤ S1x1136x1136.size a
  inb_S1x1136x1136_S1x128x128_0_756_378 : ∀ a, (![0, 756, 378] : Fin 3 → Nat) a + S1x128x128.size a ≤ S1x1136x1136.size a
  inb_S1x1136x1136_S1x128x128_0_756_504 : ∀ a, (![0, 756, 504] : Fin 3 → Nat) a + S1x128x128.size a ≤ S1x1136x1136.size a
  inb_S1x1136x1136_S1x128x128_0_756_630 : ∀ a, (![0, 756, 630] : Fin 3 → Nat) a + S1x128x128.size a ≤ S1x1136x1136.size a
  inb_S1x1136x1136_S1x128x128_0_756_756 : ∀ a, (![0, 756, 756] : Fin 3 → Nat) a + S1x128x128.size a ≤ S1x1136x1136.size a
  inb_S1x1136x1136_S1x128x128_0_756_882 : ∀ a, (![0, 756, 882] : Fin 3 → Nat) a + S1x128x128.size a ≤ S1x1136x1136.size a
  inb_S1x1136x1136_S1x128x128_0_756_1008 : ∀ a, (![0, 756, 1008] : Fin 3 → Nat) a + S1x128x128.size a ≤ S1x1136x1136.size a
  inb_S1x1136x1136_S1x128x128_0_882_0 : ∀ a, (![0, 882, 0] : Fin 3 → Nat) a + S1x128x128.size a ≤ S1x1136x1136.size a
  inb_S1x1136x1136_S1x128x128_0_882_126 : ∀ a, (![0, 882, 126] : Fin 3 → Nat) a + S1x128x128.size a ≤ S1x1136x1136.size a
  inb_S1x1136x1136_S1x128x128_0_882_252 : ∀ a, (![0, 882, 252] : Fin 3 → Nat) a + S1x128x128.size a ≤ S1x1136x1136.size a
  inb_S1x1136x1136_S1x128x128_0_882_378 : ∀ a, (![0, 882, 378] : Fin 3 → Nat) a + S1x128x128.size a ≤ S1x1136x1136.size a
  inb_S1x1136x1136_S1x128x128_0_882_504 : ∀ a, (![0, 882, 504] : Fin 3 → Nat) a + S1x128x128.size a ≤ S1x1136x1136.size a
  inb_S1x1136x1136_S1x128x128_0_882_630 : ∀ a, (![0, 882, 630] : Fin 3 → Nat) a + S1x128x128.size a ≤ S1x1136x1136.size a
  inb_S1x1136x1136_S1x128x128_0_882_756 : ∀ a, (![0, 882, 756] : Fin 3 → Nat) a + S1x128x128.size a ≤ S1x1136x1136.size a
  inb_S1x1136x1136_S1x128x128_0_882_882 : ∀ a, (![0, 882, 882] : Fin 3 → Nat) a + S1x128x128.size a ≤ S1x1136x1136.size a
  inb_S1x1136x1136_S1x128x128_0_882_1008 : ∀ a, (![0, 882, 1008] : Fin 3 → Nat) a + S1x128x128.size a ≤ S1x1136x1136.size a
  inb_S1x1136x1136_S1x128x128_0_1008_0 : ∀ a, (![0, 1008, 0] : Fin 3 → Nat) a + S1x128x128.size a ≤ S1x1136x1136.size a
  inb_S1x1136x1136_S1x128x128_0_1008_126 : ∀ a, (![0, 1008, 126] : Fin 3 → Nat) a + S1x128x128.size a ≤ S1x1136x1136.size a
  inb_S1x1136x1136_S1x128x128_0_1008_252 : ∀ a, (![0, 1008, 252] : Fin 3 → Nat) a + S1x128x128.size a ≤ S1x1136x1136.size a
  inb_S1x1136x1136_S1x128x128_0_1008_378 : ∀ a, (![0, 1008, 378] : Fin 3 → Nat) a + S1x128x128.size a ≤ S1x1136x1136.size a
  inb_S1x1136x1136_S1x128x128_0_1008_504 : ∀ a, (![0, 1008, 504] : Fin 3 → Nat) a + S1x128x128.size a ≤ S1x1136x1136.size a
  inb_S1x1136x1136_S1x128x128_0_1008_630 : ∀ a, (![0, 1008, 630] : Fin 3 → Nat) a + S1x128x128.size a ≤ S1x1136x1136.size a
  inb_S1x1136x1136_S1x128x128_0_1008_756 : ∀ a, (![0, 1008, 756] : Fin 3 → Nat) a + S1x128x128.size a ≤ S1x1136x1136.size a
  inb_S1x1136x1136_S1x128x128_0_1008_882 : ∀ a, (![0, 1008, 882] : Fin 3 → Nat) a + S1x128x128.size a ≤ S1x1136x1136.size a
  inb_S1x1136x1136_S1x128x128_0_1008_1008 : ∀ a, (![0, 1008, 1008] : Fin 3 → Nat) a + S1x128x128.size a ≤ S1x1136x1136.size a
  slices_S64x1136x1136_S64x1024x1024_0_0_0 : S64x1136x1136.Slices ![0, 0, 0] S64x1024x1024
  hcc0_scratch1 : 2 + S2.numel ≤ 4
  hrank0 : 0 < grid0.rank
  k0_off1_inb : ∀ i : grid0.Coords, ∀ a, (k0_off1 i) a + S1x1x128x128.size a ≤ S81x64x128x128.size a
  k0_off2_inb : ∀ i : grid0.Coords, ∀ a, (k0_off2 i) a + S1x1x128x128.size a ≤ S81x64x128x128.size a
  k0_off3_inb : ∀ i : grid0.Coords, ∀ a, (k0_off3 i) a + S1x1x128x128.size a ≤ S81x64x128x128.size a
  k0_off4_inb : ∀ i : grid0.Coords, ∀ a, (k0_off4 i) a + S1x1x128x128.size a ≤ S81x64x128x128.size a
  k0_off5_inb : ∀ i : grid0.Coords, ∀ a, (k0_off5 i) a + S1x1x128x128.size a ≤ S81x64x128x128.size a
  k0_off6_inb : ∀ i : grid0.Coords, ∀ a, (k0_off6 i) a + S1x1x128x128.size a ≤ S81x64x128x128.size a
  k0_off7_inb : ∀ i : grid0.Coords, ∀ a, (k0_off7 i) a + S1x1x128x128.size a ≤ S81x64x128x128.size a
  k0_off8_inb : ∀ i : grid0.Coords, ∀ a, (k0_off8 i) a + S1x1x128x128.size a ≤ S81x64x128x128.size a
  k0_off9_inb : ∀ i : grid0.Coords, ∀ a, (k0_off9 i) a + S1x1x128x128.size a ≤ S81x64x128x128.size a
  k0_off10_inb : ∀ i : grid0.Coords, ∀ a, (k0_off10 i) a + S1x1x128x128.size a ≤ S81x64x128x128.size a
  k0_off11_inb : ∀ i : grid0.Coords, ∀ a, (k0_off11 i) a + S1x1x128x128.size a ≤ S81x64x128x128.size a
  k0_off12_inb : ∀ i : grid0.Coords, ∀ a, (k0_off12 i) a + S1x1x128x128.size a ≤ S81x64x128x128.size a
  k0_off13_inb : ∀ i : grid0.Coords, ∀ a, (k0_off13 i) a + S1x1x128x128.size a ≤ S81x64x128x128.size a
  k0_off14_inb : ∀ i : grid0.Coords, ∀ a, (k0_off14 i) a + S1x1x128x128.size a ≤ S81x64x128x128.size a
  k0_off15_inb : ∀ i : grid0.Coords, ∀ a, (k0_off15 i) a + S1x1x128x128.size a ≤ S81x64x128x128.size a
  k0_off16_inb : ∀ i : grid0.Coords, ∀ a, (k0_off16 i) a + S1x1x128x128.size a ≤ S81x64x128x128.size a
  k0_off17_inb : ∀ i : grid0.Coords, ∀ a, (k0_off17 i) a + S1x1x128x128.size a ≤ S81x64x128x128.size a
  k0_off18_inb : ∀ i : grid0.Coords, ∀ a, (k0_off18 i) a + S1x1x128x128.size a ≤ S81x64x128x128.size a
  k0_off19_inb : ∀ i : grid0.Coords, ∀ a, (k0_off19 i) a + S1x1x128x128.size a ≤ S81x64x128x128.size a
  k0_off20_inb : ∀ i : grid0.Coords, ∀ a, (k0_off20 i) a + S1x1x128x128.size a ≤ S81x64x128x128.size a
  k0_off21_inb : ∀ i : grid0.Coords, ∀ a, (k0_off21 i) a + S1x1x128x128.size a ≤ S81x64x128x128.size a
  k0_off22_inb : ∀ i : grid0.Coords, ∀ a, (k0_off22 i) a + S1x1x128x128.size a ≤ S81x64x128x128.size a
  k0_off23_inb : ∀ i : grid0.Coords, ∀ a, (k0_off23 i) a + S1x1x128x128.size a ≤ S81x64x128x128.size a
  k0_off24_inb : ∀ i : grid0.Coords, ∀ a, (k0_off24 i) a + S1x1x128x128.size a ≤ S81x64x128x128.size a
  k0_off25_inb : ∀ i : grid0.Coords, ∀ a, (k0_off25 i) a + S1x1x128x128.size a ≤ S81x64x128x128.size a
  k0_off26_inb : ∀ i : grid0.Coords, ∀ a, (k0_off26 i) a + S1x1x128x128.size a ≤ S81x64x128x128.size a
  k0_off27_inb : ∀ i : grid0.Coords, ∀ a, (k0_off27 i) a + S1x1x128x128.size a ≤ S81x64x128x128.size a
  k0_off28_inb : ∀ i : grid0.Coords, ∀ a, (k0_off28 i) a + S1x1x128x128.size a ≤ S81x64x128x128.size a
  k0_off29_inb : ∀ i : grid0.Coords, ∀ a, (k0_off29 i) a + S1x1x128x128.size a ≤ S81x64x128x128.size a
  k0_off30_inb : ∀ i : grid0.Coords, ∀ a, (k0_off30 i) a + S1x1x128x128.size a ≤ S81x64x128x128.size a
  k0_off31_inb : ∀ i : grid0.Coords, ∀ a, (k0_off31 i) a + S1x1x128x128.size a ≤ S81x64x128x128.size a
  k0_off32_inb : ∀ i : grid0.Coords, ∀ a, (k0_off32 i) a + S1x1x128x128.size a ≤ S81x64x128x128.size a
  k0_off33_inb : ∀ i : grid0.Coords, ∀ a, (k0_off33 i) a + S1x1x128x128.size a ≤ S81x64x128x128.size a
  k0_off34_inb : ∀ i : grid0.Coords, ∀ a, (k0_off34 i) a + S1x1x128x128.size a ≤ S81x64x128x128.size a
  k0_off35_inb : ∀ i : grid0.Coords, ∀ a, (k0_off35 i) a + S1x1x128x128.size a ≤ S81x64x128x128.size a
  k0_off36_inb : ∀ i : grid0.Coords, ∀ a, (k0_off36 i) a + S1x1x128x128.size a ≤ S81x64x128x128.size a
  k0_off37_inb : ∀ i : grid0.Coords, ∀ a, (k0_off37 i) a + S1x1x128x128.size a ≤ S81x64x128x128.size a
  k0_off38_inb : ∀ i : grid0.Coords, ∀ a, (k0_off38 i) a + S1x1x128x128.size a ≤ S81x64x128x128.size a
  k0_off39_inb : ∀ i : grid0.Coords, ∀ a, (k0_off39 i) a + S1x1x128x128.size a ≤ S81x64x128x128.size a
  k0_off40_inb : ∀ i : grid0.Coords, ∀ a, (k0_off40 i) a + S1x1x128x128.size a ≤ S81x64x128x128.size a
  k0_off41_inb : ∀ i : grid0.Coords, ∀ a, (k0_off41 i) a + S1x1x128x128.size a ≤ S81x64x128x128.size a
  k0_off42_inb : ∀ i : grid0.Coords, ∀ a, (k0_off42 i) a + S1x1x128x128.size a ≤ S81x64x128x128.size a
  k0_off43_inb : ∀ i : grid0.Coords, ∀ a, (k0_off43 i) a + S1x1x128x128.size a ≤ S81x64x128x128.size a
  k0_off44_inb : ∀ i : grid0.Coords, ∀ a, (k0_off44 i) a + S1x1x128x128.size a ≤ S81x64x128x128.size a
  k0_off45_inb : ∀ i : grid0.Coords, ∀ a, (k0_off45 i) a + S1x1x128x128.size a ≤ S81x64x128x128.size a
  k0_off46_inb : ∀ i : grid0.Coords, ∀ a, (k0_off46 i) a + S1x1x128x128.size a ≤ S81x64x128x128.size a
  k0_off47_inb : ∀ i : grid0.Coords, ∀ a, (k0_off47 i) a + S1x1x128x128.size a ≤ S81x64x128x128.size a
  k0_off48_inb : ∀ i : grid0.Coords, ∀ a, (k0_off48 i) a + S1x1x128x128.size a ≤ S81x64x128x128.size a
  k0_off49_inb : ∀ i : grid0.Coords, ∀ a, (k0_off49 i) a + S1x1x128x128.size a ≤ S81x64x128x128.size a
  k0_off50_inb : ∀ i : grid0.Coords, ∀ a, (k0_off50 i) a + S1x1x128x128.size a ≤ S81x64x128x128.size a
  k0_off51_inb : ∀ i : grid0.Coords, ∀ a, (k0_off51 i) a + S1x1x128x128.size a ≤ S81x64x128x128.size a
  k0_off52_inb : ∀ i : grid0.Coords, ∀ a, (k0_off52 i) a + S1x1x128x128.size a ≤ S81x64x128x128.size a
  k0_off53_inb : ∀ i : grid0.Coords, ∀ a, (k0_off53 i) a + S1x1x128x128.size a ≤ S81x64x128x128.size a
  k0_off54_inb : ∀ i : grid0.Coords, ∀ a, (k0_off54 i) a + S1x1x128x128.size a ≤ S81x64x128x128.size a
  k0_off55_inb : ∀ i : grid0.Coords, ∀ a, (k0_off55 i) a + S1x1x128x128.size a ≤ S81x64x128x128.size a
  k0_off56_inb : ∀ i : grid0.Coords, ∀ a, (k0_off56 i) a + S1x1x128x128.size a ≤ S81x64x128x128.size a
  k0_off57_inb : ∀ i : grid0.Coords, ∀ a, (k0_off57 i) a + S1x1x128x128.size a ≤ S81x64x128x128.size a
  k0_off58_inb : ∀ i : grid0.Coords, ∀ a, (k0_off58 i) a + S1x1x128x128.size a ≤ S81x64x128x128.size a
  k0_off59_inb : ∀ i : grid0.Coords, ∀ a, (k0_off59 i) a + S1x1x128x128.size a ≤ S81x64x128x128.size a
  k0_off60_inb : ∀ i : grid0.Coords, ∀ a, (k0_off60 i) a + S1x1x128x128.size a ≤ S81x64x128x128.size a
  k0_off61_inb : ∀ i : grid0.Coords, ∀ a, (k0_off61 i) a + S1x1x128x128.size a ≤ S81x64x128x128.size a
  k0_off62_inb : ∀ i : grid0.Coords, ∀ a, (k0_off62 i) a + S1x1x128x128.size a ≤ S81x64x128x128.size a
  k0_off63_inb : ∀ i : grid0.Coords, ∀ a, (k0_off63 i) a + S1x1x128x128.size a ≤ S81x64x128x128.size a
  k0_off64_inb : ∀ i : grid0.Coords, ∀ a, (k0_off64 i) a + S1x1x128x128.size a ≤ S81x64x128x128.size a
  k0_off65_inb : ∀ i : grid0.Coords, ∀ a, (k0_off65 i) a + S1x1x128x128.size a ≤ S81x64x128x128.size a
  k0_off66_inb : ∀ i : grid0.Coords, ∀ a, (k0_off66 i) a + S1x1x128x128.size a ≤ S81x64x128x128.size a
  k0_off67_inb : ∀ i : grid0.Coords, ∀ a, (k0_off67 i) a + S1x1x128x128.size a ≤ S81x64x128x128.size a
  k0_off68_inb : ∀ i : grid0.Coords, ∀ a, (k0_off68 i) a + S1x1x128x128.size a ≤ S81x64x128x128.size a
  k0_off69_inb : ∀ i : grid0.Coords, ∀ a, (k0_off69 i) a + S1x1x128x128.size a ≤ S81x64x128x128.size a
  k0_off70_inb : ∀ i : grid0.Coords, ∀ a, (k0_off70 i) a + S1x1x128x128.size a ≤ S81x64x128x128.size a
  k0_off71_inb : ∀ i : grid0.Coords, ∀ a, (k0_off71 i) a + S1x1x128x128.size a ≤ S81x64x128x128.size a
  k0_off72_inb : ∀ i : grid0.Coords, ∀ a, (k0_off72 i) a + S1x1x128x128.size a ≤ S81x64x128x128.size a
  k0_off73_inb : ∀ i : grid0.Coords, ∀ a, (k0_off73 i) a + S1x1x128x128.size a ≤ S81x64x128x128.size a
  k0_off74_inb : ∀ i : grid0.Coords, ∀ a, (k0_off74 i) a + S1x1x128x128.size a ≤ S81x64x128x128.size a
  k0_off75_inb : ∀ i : grid0.Coords, ∀ a, (k0_off75 i) a + S1x1x128x128.size a ≤ S81x64x128x128.size a
  k0_off76_inb : ∀ i : grid0.Coords, ∀ a, (k0_off76 i) a + S1x1x128x128.size a ≤ S81x64x128x128.size a
  k0_off77_inb : ∀ i : grid0.Coords, ∀ a, (k0_off77 i) a + S1x1x128x128.size a ≤ S81x64x128x128.size a
  k0_off78_inb : ∀ i : grid0.Coords, ∀ a, (k0_off78 i) a + S1x1x128x128.size a ≤ S81x64x128x128.size a
  k0_off79_inb : ∀ i : grid0.Coords, ∀ a, (k0_off79 i) a + S1x1x128x128.size a ≤ S81x64x128x128.size a
  k0_off80_inb : ∀ i : grid0.Coords, ∀ a, (k0_off80 i) a + S1x1x128x128.size a ≤ S81x64x128x128.size a
  k0_off81_inb : ∀ i : grid0.Coords, ∀ a, (k0_off81 i) a + S1x1x128x128.size a ≤ S81x64x128x128.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1136x1136.size a ≤ S64x1136x1136.size a
  hwx0_0 : ∀ i : grid0.Coords, EltTy.bits .f32 = 32 ∨ (Rect.block (s := S64x1136x1136) S1x1136x1136.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_v0) S1x1136x1136.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S81x64x128x128 : Shape := ⟨4, ![81, 64, 128, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1024x1024x1 : Shape := ⟨3, ![1024, 1024, 1]⟩
abbrev S1024x1024x3 : Shape := ⟨3, ![1024, 1024, 3]⟩
abbrev S1024x1024x64 : Shape := ⟨3, ![1024, 1024, 64]⟩
abbrev S64x1024x1024 : Shape := ⟨3, ![64, 1024, 1024]⟩

abbrev nBuf : Space → Nat
  | .hbm => 92
  | .vmem => 0
  | .smem => 0
  | _ => 0

abbrev bufTy : (tb : Table) → Fin (tcTables nBuf tb) → BufTy
  | .hbm, ⟨0, _⟩ => ⟨S81x64x128x128, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S_, .i32⟩
  | .hbm, ⟨55, _⟩ => ⟨S1024x1, .i32⟩
  | .hbm, ⟨56, _⟩ => ⟨S1024x1, .i32⟩
  | .hbm, ⟨57, _⟩ => ⟨S1x1024, .i32⟩
  | .hbm, ⟨58, _⟩ => ⟨S1024x1024, .i32⟩
  | .hbm, ⟨59, _⟩ => ⟨S1024x1024, .i32⟩
  | .hbm, ⟨60, _⟩ => ⟨S1024x1024, .i32⟩
  | .hbm, ⟨61, _⟩ => ⟨S1024x1, .i32⟩
  | .hbm, ⟨62, _⟩ => ⟨S1x1024, .i32⟩
  | .hbm, ⟨63, _⟩ => ⟨S_, .i32⟩
  | .hbm, ⟨64, _⟩ => ⟨S1024x1024, .i32⟩
  | .hbm, ⟨65, _⟩ => ⟨S1024x1024, .i1⟩
  | .hbm, ⟨66, _⟩ => ⟨S_, .i32⟩
  | .hbm, ⟨67, _⟩ => ⟨S1024x1024, .i32⟩
  | .hbm, ⟨68, _⟩ => ⟨S1024x1024, .i32⟩
  | .hbm, ⟨69, _⟩ => ⟨S1024x1024, .i32⟩
  | .hbm, ⟨70, _⟩ => ⟨S_, .i32⟩
  | .hbm, ⟨71, _⟩ => ⟨S1024x1, .i32⟩
  | .hbm, ⟨72, _⟩ => ⟨S1024x1, .i1⟩
  | .hbm, ⟨73, _⟩ => ⟨S_, .i32⟩
  | .hbm, ⟨74, _⟩ => ⟨S1024x1, .i32⟩
  | .hbm, ⟨75, _⟩ => ⟨S1024x1, .i32⟩
  | .hbm, ⟨76, _⟩ => ⟨S1024x1, .i32⟩
  | .hbm, ⟨77, _⟩ => ⟨S_, .i32⟩
  | .hbm, ⟨78, _⟩ => ⟨S1x1024, .i32⟩
  | .hbm, ⟨79, _⟩ => ⟨S1x1024, .i1⟩
  | .hbm, ⟨80, _⟩ => ⟨S_, .i32⟩
  | .hbm, ⟨81, _⟩ => ⟨S1x1024, .i32⟩
  | .hbm, ⟨82, _⟩ => ⟨S1x1024, .i32⟩
  | .hbm, ⟨83, _⟩ => ⟨S1x1024, .i32⟩
  | .hbm, ⟨84, _⟩ => ⟨S1024x1024, .i32⟩
  | .hbm, ⟨85, _⟩ => ⟨S1024x1024, .i32⟩
  | .hbm, ⟨86, _⟩ => ⟨S1024x1024x1, .i32⟩
  | .hbm, ⟨87, _⟩ => ⟨S1024x1024x1, .i32⟩
  | .hbm, ⟨88, _⟩ => ⟨S1024x1024x1, .i32⟩
  | .hbm, ⟨89, _⟩ => ⟨S1024x1024x3, .i32⟩
  | .hbm, ⟨90, _⟩ => ⟨S1024x1024x64, .f32⟩
  | .hbm, ⟨91, _⟩ => ⟨S64x1024x1024, .f32⟩
  | _, _ => ⟨S81x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_c_2 : Ref sig .tc := ⟨.hbm, 42, rfl⟩
abbrev main_v6 : Ref sig .tc := ⟨.hbm, 43, rfl⟩
abbrev main_v7 : Ref sig .tc := ⟨.hbm, 44, rfl⟩
abbrev main_c_3 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c_4 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_5 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_6 : Ref sig .tc := ⟨.hbm, 63, rfl⟩
abbrev main_v23 : Ref sig .tc := ⟨.hbm, 64, rfl⟩
abbrev main_v24 : Ref sig .tc := ⟨.hbm, 65, rfl⟩
abbrev main_c_7 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_8 : Ref sig .tc := ⟨.hbm, 70, rfl⟩
abbrev main_v28 : Ref sig .tc := ⟨.hbm, 71, rfl⟩
abbrev main_v29 : Ref sig .tc := ⟨.hbm, 72, rfl⟩
abbrev main_c_9 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_10 : Ref sig .tc := ⟨.hbm, 77, rfl⟩
abbrev main_v33 : Ref sig .tc := ⟨.hbm, 78, rfl⟩
abbrev main_v34 : Ref sig .tc := ⟨.hbm, 79, rfl⟩
abbrev main_c_11 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S1024x1024_S1024x1024x1_0_1 : S1024x1024.BroadcastsInDim S1024x1024x1 (![0, 1] : Fin 2 → Fin S1024x1024x1.rank)
  concatenates_S1024x1024x1_S1024x1024x1_S1024x1024x1_S1024x1024x3_d2 : Shape.Concatenates [S1024x1024x1, S1024x1024x1, S1024x1024x1] S1024x1024x3 2
  transposes_S1024x1024x64_S64x1024x1024_2_0_1 : S1024x1024x64.Transposes [2, 0, 1] S64x1024x1024
  gather_S81x64x128x128_S1024x1024x3_S1024x1024x64_2_023_n_n_023_2_16411_wf : GatherDims.WF S81x64x128x128 S1024x1024x3 S1024x1024x64 [2] [0, 2, 3] [] [0, 2, 3] [] 2 ![1, 64, 1, 1]

variable [Facts₀]

def gather_S81x64x128x128_S1024x1024x3_S1024x1024x64_2_023_n_n_023_2_16411 : GatherDims S81x64x128x128 S1024x1024x3 S1024x1024x64 where
  offsetDims := [2]
  collapsedSliceDims := [0, 2, 3]
  operandBatchingDims := []
  startIndicesBatchingDims := []
  startIndexMap := [0, 2, 3]
  indexVectorDim := 2
  sliceSizes := ![1, 64, 1, 1]
  wf := gather_S81x64x128x128_S1024x1024x3_S1024x1024x64_2_023_n_n_023_2_16411_wf

class Facts : Prop extends Facts₀ where

variable [Facts]
-- ==== Proof.BitsKit.lean ====
/-
  The launch side of the overlap-scatter kernel at the algebra of a body with transfers of its own.

  The kernel leaves the patches array in HBM and copies one patch's channel block at a time into a two-slot
  scratch buffer by its own DMA, on two semaphore cells of its own, each copy waited for within the grid
  point. The region invariant is therefore: the scratch buffer and the generator register at anything, the two
  cells at zero, the patches array whole at its launch contents. After the region the host crops the padded
  planes; that line reads the region's output array and writes the result, and touches neither the patches nor
  any array of the pipeline's other than by reading.
-/
import proofs.«114181_j72378788872306_2_alg».proof.Proof.Gen.Kernel.Frame
import proofs.«114181_j72378788872306_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The patches array, left in HBM, as the whole memref the body slices. -/
abbrev patchesM : Memref sig .tc .hbm S81x64x128x128 .f32 := Memref.whole main_arg0
/-- A memref's buffer on core `c`: its contents type, and the buffer held whole at `f`. -/
abbrev HeldBuf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : HeldBuf (F := F) c M) : sProp 𝕄 :=
  M.view.loc (c : Thread nD τ) ↦{fullShare} f
/-- The two-slot scratch buffer. -/
abbrev slotsM : Memref sig .tc .vmem S2x1x128x128 .f32 := Memref.whole cc0_scratch0

/-- The body's two DMA cells, by their numbers in the pool. -/
abbrev ownCells : Fin 2 → SemLoc sig := fun j => (![SemLoc.dma 2, SemLoc.dma 3] : Fin 2 → SemLoc sig) j
theorem ownCells_facts : Pipeline.OwnSemFacts spec0 ownCells := by decide
theorem ownCells_zero (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 2) 0 ∗ semVal ((c : Thread nD τ), SemLoc.dma 3) 0) := by
  rw [Pipeline.ownSems0_eq_of_list c ownCells [0, 1] (by decide) (by decide)]; rfl

/-- The array the body copies from: unscoped, and no window's array. -/
def moved : Finset (Ref sig .tc) := {main_arg0}
theorem moved_sub : moved ⊆ Pipeline.restRefs sig spec0 := by decide
theorem moved_pts (c : Dev nD) :
    (bigSep moved (fun b => ((c : Thread nD τ).loc b) ↦{fullShare} V m c b) : sProp 𝕄) = iprop(heldAt c patchesM (V m c main_arg0)) := by
  rw [BI.bigSep_eq_bigSepL_of_eq [main_arg0] (by decide) (by decide)]; rfl

/-- The region invariant, conjunct by conjunct. -/
theorem inv_eq (c : Dev nD) :
    (Pipeline.ΦD ownCells spec0 moved (V m) c : sProp 𝕄)
      = iprop(iprop((∃ d, owns (c : Thread nD τ) slotsM fullShare d)) ∗ (∃ r, prngReg c r)
          ∗ iprop(semVal ((c : Thread nD τ), SemLoc.dma 2) 0 ∗ semVal ((c : Thread nD τ), SemLoc.dma 3) 0) ∗ iprop(heldAt c patchesM (V m c main_arg0))) := by
  rw [Pipeline.ΦD_eq, scopedRest0_eq, ownCells_zero, moved_pts]; simp only [slotsM, owns_whole]; try rfl

/-- @main around the region: the region, then the crop. -/
theorem mainAround (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The crop touches the pipeline's arrays and the bypassing buffers other than the patches. -/
theorem crop_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut Pipeline.Prefetch.none spec0 moved op ((List.forall_iff_forall_mem.mp hostOps1_sub) op hop) (fun k => k.elim0) ?_
  simp only [hostOps1, List.mem_cons, List.mem_nil_iff, or_false] at hop
  rcases hop with rfl
  intro b hb
  simp only [moved, Finset.mem_singleton] at hb
  subst hb
  simp only [StableHlo.unary_bufs, Finset.mem_insert, Finset.mem_singleton, not_or]
  exact ⟨StableHlo.devRef_ne_of_ne (by decide), StableHlo.devRef_ne_of_ne (by decide)⟩

/-- The crop leaves the patches as launched, for proof data at the transfer algebra. -/
theorem patches_after (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame claim's post from a frame run at the transfer algebra. -/
theorem frame_of_run (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (patches_after m dats c))) h

end Cert.Kernel.Scatter

end
-- ==== Proof.BitsBody.lean ====
/-
  The kernel body, run once on whole memrefs.

  At a grid point (one channel) the body starts the copy of patch 0 into slot 0 of the scratch buffer, and then,
  for patch k = 0 .. 80 in row-major order: waits for patch k's copy (slot k mod 2), starts the copy of patch
  k + 1 into the other slot, loads slot k mod 2 and stores it, whole, into the channel's padded plane at the
  patch's corner (126 (k / 9), 126 (k mod 9)). Every copy is drained at the point where it was issued, so the
  two cells are at zero again at the end, the patches array is whole again, and the plane holds the eighty-one
  stores in order, the last store first in the list.
-/
import proofs.«114181_j72378788872306_2_alg».proof.Proof.BitsKit

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (Pipeline.UD sig nD τ) ℕ

-- the two slots of the scratch buffer share no element: a copy into one slot leaves the other slot's contents as
-- they are, so the other slot is read while the copy is in flight
set_option sl_exec.dmaWindow true in
set_option sl_exec.dmaWindowSet true in
set_option maxHeartbeats 16000000 in
/-- The stores the body leaves in the plane's staging memref, the last first, with the proof that the body runs
    from the plane at anything, the scratch at `s0`, the two cells at zero and the patches whole at `fh0` to the
    plane with those stores written, the scratch at something, the cells at zero and the patches whole at `fh0`. -/
noncomputable def bodyRun (c : Dev nD) (i : grid0.Coords) (arg2 : Memref sig .tc .vmem S1x1136x1136 .f32) (harg2 : arg2.IsWhole)
    (arg3 : Memref sig .tc .vmem S2x1x128x128 .f32) (harg3 : arg3.IsWhole) (fh0 : HeldBuf (F := F) c patchesM) (s0 : Vec F S2x1x128x128 .f32) :
    { L : List (View.Piece (Elt F) S1x1136x1136 .f32) //
      ∀ (W : Waits sig Unit) (K : PUnit → sProp 𝕄),
        iprop((∃ d, owns (c : Thread nD τ) arg2 fullShare d) ∗ owns (c : Thread nD τ) arg3 fullShare s0
            ∗ semVal ((c : Thread nD τ), SemLoc.dma 2) 0 ∗ semVal ((c : Thread nD τ), SemLoc.dma 3) 0 ∗ heldAt c patchesM fh0 ∗ owes (c : Thread nD τ) 0 W
            ∗ (iprop((∃ f, arg2.view.loc (c : Thread nD τ) ↦[arg2.view.set]{fullShare} arg2.view.writes (Elt F) f L) ∗ (∃ d, owns (c : Thread nD τ) arg3 fullShare d)
                ∗ semVal ((c : Thread nD τ), SemLoc.dma 2) 0 ∗ semVal ((c : Thread nD τ), SemLoc.dma 3) 0 ∗ heldAt c patchesM fh0 ∗ (∃ W', owes (c : Thread nD τ) 0 W')) -∗ K ⟨⟩))
          ⊢ wp frame (wpE (defs₀ (F := F)) Variants.none c none) Set.univ (cc0__scatter_kernel i (Memref.whole main_arg0) (Memref.isWhole_whole _) arg2 harg2 arg3 harg3 cc0_scratch1) K } := by
  refine ⟨?_, fun W K => ?run⟩
  case run =>
    simp only [cc0__scatter_kernel_eq_skeleton]; unfold cc0__scatter_kernel_skel
    unfold owns
    iintro ⟨⟨%d1, %f1, -, H1⟩, ⟨%fs0, %hfs0, HS0⟩, Hq0, Hq1, Hh0, HW, Hk⟩
    obtain rfl := harg3.eq_unread hfs0
    sl_exec_parts
    sl_step
    iapply Hk
    isplitl [H1]; · iexists _; iexact H1
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.Kernel.Scatter

end
-- ==== Proof.BitsSlots.lean ====
/-
  The two-slot scratch buffer read at a slot.

  A patch's channel block lands in slot k mod 2 of the scratch buffer through the slot's view with the unit
  axis dropped, and is loaded back through the slot's rectangle of the whole buffer; in between, the next
  patch's block may land in the OTHER slot. The two slots share no element, so the load reads the block that
  landed in its own slot, re-indexed along the row-major order from [1, 128, 128] to [1, 1, 128, 128]; the
  body's two shape casts ([1, 1, 128, 128] to [128, 128] to [1, 128, 128]) re-index it back, and the three
  re-indexings compose to the identity: what is stored into the plane is the block that landed.
-/
import proofs.«114181_j72378788872306_2_alg».proof.Proof.BitsKit
import Idealize.ShloMosaic.Lib.ValueIdx

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]
variable (arg3 : Memref sig .tc .vmem S2x1x128x128 .f32)

/-- A load of a rectangle right after a write of the whole rectangle through its squeezed view reads the payload,
    re-indexed along the row-major order. -/
theorem load_written (r : Rect S2x1x128x128) (hr : ∀ a, r.stride a = 1) (S' : Shape) (hq : r.shape.Squeezes S')
    (g : arg3.view.ty.Contents (Elt F)) (a : S'.Idx → Elt F .f32) :
    arg3.view.readAt (Elt F) r.toLoadRect (View.write (Elt F) ((arg3.slice r hr).squeeze S' hq).view g a Finset.univ)
      = fun x => a ((Shape.reshapeEquiv hq.numel_eq).symm x) := by
  show (arg3.view.slice r).read (Elt F) (View.write (Elt F) ((arg3.view.slice r).reshape S' hq.numel_eq) g a Finset.univ) = _
  rw [View.write_reshape_univ, View.read_write_univ]

/-- A write through the squeezed view of a rectangle is not seen by a load of a rectangle disjoint from it. -/
theorem load_beside (r r' : Rect S2x1x128x128) (hr' : ∀ a, r'.stride a = 1) (S' : Shape) (hq : r'.shape.Squeezes S')
    (hd : Disjoint r.set r'.set) (f : arg3.view.ty.Contents (Elt F)) (b : S'.Idx → Elt F .f32) :
    arg3.view.readAt (Elt F) r.toLoadRect (View.write (Elt F) ((arg3.slice r' hr').squeeze S' hq).view f b Finset.univ)
      = arg3.view.readAt (Elt F) r.toLoadRect f := by
  show (arg3.view.slice r).read (Elt F) (View.write (Elt F) ((arg3.view.slice r').reshape S' hq.numel_eq) f b Finset.univ)
    = (arg3.view.slice r).read (Elt F) f
  rw [View.write_reshape_univ]
  exact View.read_slice_write_slice_of_disjoint r r' f _ Finset.univ (by
    rw [View.setOn_univ, View.set_slice, View.set_slice]
    exact (Finset.disjoint_map _).mpr hd)

/-- The two slots. -/
abbrev slot0 : Rect S2x1x128x128 := Rect.unit (s := S2x1x128x128) ![0, 0, 0, 0] S1x1x128x128.size inb_S2x1x128x128_S1x1x128x128_0_0_0_0
abbrev slot1 : Rect S2x1x128x128 := Rect.unit (s := S2x1x128x128) ![1, 0, 0, 0] S1x1x128x128.size inb_S2x1x128x128_S1x1x128x128_1_0_0_0

theorem slots_disjoint : Disjoint slot0.set slot1.set := Rect.unit_disjoint 0 (Or.inl (by decide))

/-- The body's two shape casts undo the re-indexing of the load. -/
theorem casts_cancel (a : S1x128x128.Idx → Elt F .f32) (hq : S1x1x128x128.Squeezes S1x128x128)
    (h1 : S1x1x128x128.ShapeCasts S128x128) (h2 : S128x128.ShapeCasts S1x128x128) :
    shapeCast S1x128x128 (shapeCast S128x128 (fun x : S1x1x128x128.Idx => a ((Shape.reshapeEquiv hq.numel_eq).symm x)) h1) h2 = a := by
  funext j
  unfold shapeCast
  refine congrArg a ?_
  rw [Shape.reshapeEquiv_symm, Shape.reshapeEquiv_reshapeEquiv, Shape.reshapeEquiv_reshapeEquiv, Shape.reshapeEquiv_self]

/-- What is stored from slot 0 while the next block has already landed in slot 1: the block that landed in slot 0. -/
theorem stored_even (g : arg3.view.ty.Contents (Elt F)) (a b : S1x128x128.Idx → Elt F .f32)
    (h1 : S1x1x128x128.ShapeCasts S128x128) (h2 : S128x128.ShapeCasts S1x128x128) :
    shapeCast S1x128x128 (shapeCast S128x128 (arg3.view.readAt (Elt F) slot0.toLoadRect
      (View.write (Elt F) ((arg3.slice slot1 (fun _ => rfl)).squeeze S1x128x128 squeezes_S1x1x128x128_S1x128x128).view
        (View.write (Elt F) ((arg3.slice slot0 (fun _ => rfl)).squeeze S1x128x128 squeezes_S1x1x128x128_S1x128x128).view g a Finset.univ)
        b Finset.univ)) h1) h2 = a := by
  rw [load_beside arg3 slot0 slot1 _ _ _ slots_disjoint, load_written]
  exact casts_cancel a squeezes_S1x1x128x128_S1x128x128 h1 h2

/-- What is stored from slot 1 while the next block has already landed in slot 0: the block that landed in slot 1. -/
theorem stored_odd (g : arg3.view.ty.Contents (Elt F)) (a b : S1x128x128.Idx → Elt F .f32)
    (h1 : S1x1x128x128.ShapeCasts S128x128) (h2 : S128x128.ShapeCasts S1x128x128) :
    shapeCast S1x128x128 (shapeCast S128x128 (arg3.view.readAt (Elt F) slot1.toLoadRect
      (View.write (Elt F) ((arg3.slice slot0 (fun _ => rfl)).squeeze S1x128x128 squeezes_S1x1x128x128_S1x128x128).view
        (View.write (Elt F) ((arg3.slice slot1 (fun _ => rfl)).squeeze S1x128x128 squeezes_S1x1x128x128_S1x128x128).view g a Finset.univ)
        b Finset.univ)) h1) h2 = a := by
  rw [load_beside arg3 slot1 slot0 _ _ _ slots_disjoint.symm, load_written]
  exact casts_cancel a squeezes_S1x1x128x128_S1x128x128 h1 h2

/-- What is stored from slot 0 after the last block landed there: that block. -/
theorem stored_last (g : arg3.view.ty.Contents (Elt F)) (a : S1x128x128.Idx → Elt F .f32)
    (h1 : S1x1x128x128.ShapeCasts S128x128) (h2 : S128x128.ShapeCasts S1x128x128) :
    shapeCast S1x128x128 (shapeCast S128x128 (arg3.view.readAt (Elt F) slot0.toLoadRect
      (View.write (Elt F) ((arg3.slice slot0 (fun _ => rfl)).squeeze S1x128x128 squeezes_S1x1x128x128_S1x128x128).view g a Finset.univ)) h1) h2 = a := by
  rw [load_written]
  exact casts_cancel a squeezes_S1x1x128x128_S1x128x128 h1 h2

/-- The block a transfer delivers: the patches array read through the slice at (k, channel, 0, 0) with the unit axis
    dropped is patch `k`, channel `cc`, entry by entry. -/
theorem payload_eq (c : Dev nD) (fh0 : HeldBuf (F := F) c patchesM) (off : Fin 4 → Nat) (inb) (hr) (k cc : Nat) (hk : k < 81) (hc : cc < 64)
    (hoff : off = ![k, cc, 0, 0]) :
    (ReadAs.same.apply (View.read (Elt F) ((patchesM.slice (Rect.unit (s := S81x64x128x128) off S1x1x128x128.size inb) hr).squeeze S1x128x128 squeezes_S1x1x128x128_S1x128x128).view fh0) : S1x128x128.Idx → Elt F .f32)
      = fun x => patchesM.view.read (Elt F) fh0 (ix4 (⟨k, hk⟩ : Fin 81) (⟨cc, hc⟩ : Fin 64) (x 1) (x 2)) := by
  subst hoff
  funext x
  obtain ⟨z, p, q, rfl⟩ : ∃ (z : Fin 1) (p q : Fin 128), x = ix3 z p q := ⟨x 0, x 1, x 2, eq_ix3 x⟩
  rw [ReadAs.apply_same, View.read_apply, View.read_apply]
  have hre : Shape.reshapeEquiv (s := S1x1x128x128) (s' := S1x128x128) squeezes_S1x1x128x128_S1x128x128.numel_eq (ix3 z p q) = ix4 (0 : Fin 1) (0 : Fin 1) p q :=
    Shape.reshapeEquiv_eq_of_rowMajor _ (by
      refine (Shape.rowMajor_val_four (d := ![1, 1, 128, 128]) (ix4 (0 : Fin 1) (0 : Fin 1) p q)).trans ?_
      refine Eq.trans ?_ (Shape.rowMajor_val_three (d := ![1, 128, 128]) (ix3 z p q)).symm
      show ((0 * 1 + 0) * 128 + p.val) * 128 + q.val = (z.val * 128 + p.val) * 128 + q.val
      have := z.isLt; omega)
  have e : ((patchesM.slice (Rect.unit (s := S81x64x128x128) ![k, cc, 0, 0] S1x1x128x128.size inb) hr).squeeze S1x128x128 squeezes_S1x1x128x128_S1x128x128).view.emb (ix3 z p q)
      = patchesM.view.emb (ix4 (⟨k, hk⟩ : Fin 81) (⟨cc, hc⟩ : Fin 64) p q) := by
    show patchesM.view.emb ((Rect.unit (s := S81x64x128x128) ![k, cc, 0, 0] S1x1x128x128.size inb).emb (Shape.reshapeEquiv squeezes_S1x1x128x128_S1x128x128.numel_eq (ix3 z p q))) = _
    refine congrArg _ ((congrArg _ hre).trans (funext fun a => Fin.ext ?_))
    match a with
    | ⟨0, _⟩ => show k + 1 * 0 = k; omega
    | ⟨1, _⟩ => show cc + 1 * 0 = cc; omega
    | ⟨2, _⟩ => show 0 + 1 * p.val = p.val; omega
    | ⟨3, _⟩ => show 0 + 1 * q.val = q.val; omega
  rw [e]

end Cert.Kernel.Scatter

end
-- ==== Proof.LastPatch.lean ====
/-
  The overlap scatter as one function of the patches.

  Eighty-one patches of 128 x 128 pixels (a 9 x 9 grid, row-major) are laid over a plane of 1136 x 1136 pixels at
  stride 126, patch (p, q) with its corner at (126 p, 126 q); a later patch overwrites an earlier one where they
  overlap. Patch (p, q) covers rows 126 p .. 126 p + 127, so a row y is covered by every p with 126 p ≤ y < 126 p + 128
  and the LAST such p (at most 8) is min (y / 126) 8: the patch that wrote the pixel (y, w) last is
  (min (y / 126) 8, min (w / 126) 8), and the pixel holds that patch's entry at (y - 126 p, w - 126 q). On the
  cropped image (y, w < 1024) the minimum is y / 126 itself (1023 / 126 = 8) and the offset is y % 126.
-/
import Idealize.ShloMosaic.PureOps.Ideal
import Idealize.ShloMosaic.Lib.ValueIdx

namespace Cert.PatchScatter

open Idealize.ShloMosaic Idealize.ShloMosaic.ValueIdx

/-- The patches, [patch, channel, row, column]. -/
abbrev Patches : Shape := ⟨4, ![81, 64, 128, 128]⟩
/-- One channel's padded plane, [1, row, column]. -/
abbrev Plane : Shape := ⟨3, ![1, 1136, 1136]⟩
/-- The padded planes of all channels. -/
abbrev Padded : Shape := ⟨3, ![64, 1136, 1136]⟩
/-- The cropped image, [channel, row, column]. -/
abbrev Image : Shape := ⟨3, ![64, 1024, 1024]⟩

/-- The last patch row (or column) that covers the coordinate `y` of the padded plane. -/
def lastPatch (y : Nat) : Nat := min (y / 126) 8

theorem lastPatch_lt (y : Nat) : lastPatch y < 9 := by unfold lastPatch; omega

theorem lastPatch_le (y : Nat) : 126 * lastPatch y ≤ y := by unfold lastPatch; omega

theorem lastPatch_off_lt {y : Nat} (h : y < 1136) : y - 126 * lastPatch y < 128 := by unfold lastPatch; omega

theorem lastPatch_of_lt {y : Nat} (h : y < 1024) : lastPatch y = y / 126 := by unfold lastPatch; omega

theorem lastPatch_off_of_lt {y : Nat} (h : y < 1024) : y - 126 * lastPatch y = y % 126 := by
  rw [lastPatch_of_lt h]; omega

/-- The padded plane of channel `c` at (y, w): the entry of the last covering patch. -/
def paddedAt {α : Type} (x : Patches.Idx → α) (c : Fin 64) (y w : Fin 1136) : α :=
  x (ix4 (⟨lastPatch y.val * 9 + lastPatch w.val, by
        have := lastPatch_lt y.val; have := lastPatch_lt w.val; omega⟩ : Fin 81) c
      (⟨y.val - 126 * lastPatch y.val, lastPatch_off_lt y.isLt⟩ : Fin 128)
      (⟨w.val - 126 * lastPatch w.val, lastPatch_off_lt w.isLt⟩ : Fin 128))

/-- All padded planes, index by index. -/
def padded {α : Type} (x : Patches.Idx → α) : Padded.Idx → α := fun i => paddedAt x (i 0) (i 1) (i 2)

/-- The cropped image at (c, y, w): patch (y / 126, w / 126) at (y % 126, w % 126). -/
def imageAt {α : Type} (x : Patches.Idx → α) (c : Fin 64) (y w : Fin 1024) : α :=
  x (ix4 (⟨y.val / 126 * 9 + w.val / 126, by have := y.isLt; have := w.isLt; omega⟩ : Fin 81) c
      (⟨y.val % 126, by omega⟩ : Fin 128) (⟨w.val % 126, by omega⟩ : Fin 128))

/-- The cropped image, index by index. -/
def image {α : Type} (x : Patches.Idx → α) : Image.Idx → α := fun i => imageAt x (i 0) (i 1) (i 2)

/-- Cropping the padded planes to 1024 x 1024 gives the image: below 1024 the last covering patch is y / 126. -/
theorem paddedAt_crop {α : Type} (x : Patches.Idx → α) (c : Fin 64) (y w : Fin 1024) :
    paddedAt x c ⟨y.val, by omega⟩ ⟨w.val, by omega⟩ = imageAt x c y w := by
  unfold paddedAt imageAt
  congr 1
  funext d
  match d with
  | ⟨0, _⟩ => exact Fin.ext (by simp only [lastPatch_of_lt y.isLt, lastPatch_of_lt w.isLt])
  | ⟨1, _⟩ => rfl
  | ⟨2, _⟩ => exact Fin.ext (lastPatch_off_of_lt y.isLt)
  | ⟨3, _⟩ => exact Fin.ext (lastPatch_off_of_lt w.isLt)

/-- Inside the square of patch (p, q), on the part that neither the square below nor the square to the right
    covers, the padded plane reads patch 9 p + q at the pixel's offset in the square. -/
theorem paddedAt_square {α : Type} (x : Patches.Idx → α) (c : Fin 64) (p q : Nat) (hp : p < 9) (hq : q < 9)
    (y w : Fin 1136) (a b : Fin 128) (hy : y.val = 126 * p + a.val) (hw : w.val = 126 * q + b.val)
    (hrow : p = 8 ∨ y.val < 126 * p + 126) (hcol : q = 8 ∨ w.val < 126 * q + 126) :
    paddedAt x c y w = x (ix4 (⟨p * 9 + q, by omega⟩ : Fin 81) c a b) := by
  have ha := a.isLt
  have hb := b.isLt
  have e1 : lastPatch y.val = p := by unfold lastPatch; omega
  have e2 : lastPatch w.val = q := by unfold lastPatch; omega
  unfold paddedAt
  refine congrArg x (funext fun d => ?_)
  match d with
  | ⟨0, _⟩ => exact Fin.ext (show lastPatch y.val * 9 + lastPatch w.val = p * 9 + q by rw [e1, e2])
  | ⟨1, _⟩ => rfl
  | ⟨2, _⟩ => exact Fin.ext (show y.val - 126 * lastPatch y.val = a.val by rw [e1]; omega)
  | ⟨3, _⟩ => exact Fin.ext (show w.val - 126 * lastPatch w.val = b.val by rw [e2]; omega)

/-- Every pixel of the padded plane lies in some patch's square: the squares' corners are 126 apart, the squares
    128 wide, and the last square ends at 1136. -/
theorem covered (y w : Fin 1136)
    (h : ∀ p q : Nat, p < 9 → q < 9 → ¬ (126 * p ≤ y.val ∧ y.val < 126 * p + 128 ∧ 126 * q ≤ w.val ∧ w.val < 126 * q + 128)) : False := by
  have hy := y.isLt
  have hw := w.isLt
  refine h (lastPatch y.val) (lastPatch w.val) (lastPatch_lt _) (lastPatch_lt _) ?_
  unfold lastPatch
  omega

/-- A pixel of the square with corner (r0, c0) that the square with corner (r0 + 126, c0) does not hold lies above
    that square's first row. -/
theorem above_next {y w r0 c0 a b : Nat}
    (hn : ¬ (r0 + 126 ≤ y ∧ y < r0 + 126 + 128 ∧ c0 ≤ w ∧ w < c0 + 128))
    (hy : y = r0 + a) (hw : w = c0 + b) (ha : a < 128) (hb : b < 128) : y < r0 + 126 := by omega

/-- A pixel of the square with corner (r0, c0) that the square with corner (r0, c0 + 126) does not hold lies left of
    that square's first column. -/
theorem left_of_next {y w r0 c0 a b : Nat}
    (hn : ¬ (r0 ≤ y ∧ y < r0 + 128 ∧ c0 + 126 ≤ w ∧ w < c0 + 126 + 128))
    (hy : y = r0 + a) (hw : w = c0 + b) (ha : a < 128) (hb : b < 128) : w < c0 + 126 := by omega

end Cert.PatchScatter
-- ==== Proof.LibLastWrite.lean ====
/-
  A list of stores read at one index: the store that decides.

  `View.writes f L` is the contents after the stores `L` through rectangles of one view, the LAST store first in
  the list. Read at an index `y`, the stores after the last one whose rectangle holds `y` do not matter, and that
  store's payload is what is read: going down the list, the first rectangle that holds `y` decides. Rectangles
  may overlap; nothing is asked of the stores below the deciding one, nor of the contents before the stores.
-/
import Idealize.ShloMosaic.Lib.Writes

namespace Cert.LastWrite

open Idealize.ShloMosaic

variable {sig : RefSig} {κ : Kind} {sp : Space} {s : Shape} {e : EltTy} {Val : EltTy → Type}

/-- `Decides G y L`: going down the list of stores (the last store first), the first store whose rectangle holds
    the index `y` stores `G y` there; and some store's rectangle does hold `y`. -/
def Decides (G : s.Idx → Val e) (y : s.Idx) : List (View.Piece Val s e) → Prop
  | [] => False
  | p :: L => (y ∈ p.1.set → ∀ x : p.1.shape.Idx, p.1.emb x = y → p.2 x = G y) ∧ (y ∉ p.1.set → Decides G y L)

/-- After the stores, the index reads what the deciding store put there, whatever the buffer held before. -/
theorem read_writes_of_decides (v : View sig κ sp s e) (f : v.ty.Contents Val) (G : s.Idx → Val e) (y : s.Idx) :
    ∀ L : List (View.Piece Val s e), Decides G y L → v.read Val (v.writes Val f L) y = G y
  | [], h => h.elim
  | p :: L, h => by
    by_cases hy : y ∈ p.1.set
    · obtain ⟨x, rfl⟩ : ∃ x, p.1.emb x = y := p.1.exists_idx_of_mem hy
      obtain ⟨r, w⟩ := p
      rw [View.read_writes_cons_emb]
      exact h.1 hy x rfl
    · have hy' : y ∉ Finset.univ.map p.1.emb := by rwa [Rect.map_emb_univ]
      rw [View.writes_cons, View.read_slice_write_of_not_mem p.1 _ _ _ hy']
      exact read_writes_of_decides v f G y L (h.2 hy)

end Cert.LastWrite
-- ==== Proof.BitsPlane.lean ====
/-
  What the body leaves in a channel's padded plane.

  The plane holds the eighty-one stores of the body in order; a pixel (y, w) of the plane is decided by the last
  store whose 128 x 128 square holds it, the square of patch (min (y / 126) 8, min (w / 126) 8), and reads that
  patch's entry at the pixel's offset inside the square: the plane of channel c is the padded plane of the
  overlap scatter, as one function of the patches array.
-/
import proofs.«114181_j72378788872306_2_alg».proof.Proof.BitsBody
import proofs.«114181_j72378788872306_2_alg».proof.Proof.BitsSlots
import proofs.«114181_j72378788872306_2_alg».proof.Proof.LastPatch
import proofs.«114181_j72378788872306_2_alg».proof.Proof.LibLastWrite
import Idealize.ShloMosaic.Lib.ValueIdx

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

/-- The patches array as the specification reads it. -/
abbrev patchesOf (c : Dev nD) (fh0 : HeldBuf (F := F) c patchesM) : Cert.PatchScatter.Patches.Idx → Elt F .f32 :=
  patchesM.view.read (Elt F) fh0

/-- The channel a grid point works on. -/
def chan (i : grid0.Coords) : Fin 64 := ⟨(i 0).val, (i 0).isLt⟩

/-- The padded plane of the grid point's channel. -/
def planeOf (c : Dev nD) (fh0 : HeldBuf (F := F) c patchesM) (i : grid0.Coords) : S1x1136x1136.Idx → Elt F .f32 :=
  fun y => Cert.PatchScatter.paddedAt (patchesOf c fh0) (chan i) (y 1) (y 2)

/-- A pixel lies in the 128 x 128 square with corner (r0, c0) when its row and its column do. -/
theorem mem_square {r0 c0 : Nat} {inb} {z : Fin 1} {yy ww : Fin 1136} :
    ix3 z yy ww ∈ (Rect.unit (s := S1x1136x1136) ![0, r0, c0] S1x128x128.size inb).set
      ↔ (r0 ≤ yy.val ∧ yy.val < r0 + 128 ∧ c0 ≤ ww.val ∧ ww.val < c0 + 128) := by
  rw [Rect.mem_set_unit]
  constructor
  · intro h
    have h1 := h 1
    have h2 := h 2
    exact ⟨h1.1, h1.2, h2.1, h2.2⟩
  · rintro ⟨h1, h2, h3, h4⟩ a
    match a with
    | ⟨0, _⟩ => exact ⟨Nat.zero_le _, by show z.val < 0 + 1; omega⟩
    | ⟨1, _⟩ => exact ⟨h1, h2⟩
    | ⟨2, _⟩ => exact ⟨h3, h4⟩

/-- One store of the list decides its visible part: the store of patch (p, q), whose payload is the patch's channel
    block, agrees with the padded plane wherever neither the square below nor the square to the right — both stored
    later — holds the pixel; off its square the earlier stores decide. -/
theorem square_decides (c : Dev nD) (fh0 : HeldBuf (F := F) c patchesM) (i : grid0.Coords) (p q : Nat) (hp : p < 9) (hq : q < 9)
    (inb) (v : S1x128x128.Idx → Elt F .f32)
    (hv : v = fun x => patchesOf c fh0 (ix4 (⟨p * 9 + q, by omega⟩ : Fin 81) (chan i) (x 1) (x 2)))
    (z : Fin 1) (yy ww : Fin 1136)
    (hrow : p = 8 ∨ ¬ (126 * p + 126 ≤ yy.val ∧ yy.val < 126 * p + 126 + 128 ∧ 126 * q ≤ ww.val ∧ ww.val < 126 * q + 128))
    (hcol : q = 8 ∨ ¬ (126 * p ≤ yy.val ∧ yy.val < 126 * p + 128 ∧ 126 * q + 126 ≤ ww.val ∧ ww.val < 126 * q + 126 + 128))
    (L : List (View.Piece (Elt F) S1x1136x1136 .f32))
    (hL : ¬ (126 * p ≤ yy.val ∧ yy.val < 126 * p + 128 ∧ 126 * q ≤ ww.val ∧ ww.val < 126 * q + 128) →
      Cert.LastWrite.Decides (planeOf c fh0 i) (ix3 z yy ww) L) :
    Cert.LastWrite.Decides (planeOf c fh0 i) (ix3 z yy ww)
      (⟨Rect.unit (s := S1x1136x1136) ![0, 126 * p, 126 * q] S1x128x128.size inb, v⟩ :: L) := by
  refine ⟨fun hy x hx => ?_, fun hn => hL (fun h => hn ((mem_square (inb := inb)).mpr h))⟩
  obtain ⟨z', a, b, rfl⟩ : ∃ (z' : Fin 1) (a b : Fin 128), x = ix3 z' a b := ⟨x 0, x 1, x 2, eq_ix3 x⟩
  have h1 : yy.val = 126 * p + a.val := by
    have e := congrArg (fun j : S1x1136x1136.Idx => (j 1).val) hx
    change 126 * p + 1 * a.val = yy.val at e
    omega
  have h2 : ww.val = 126 * q + b.val := by
    have e := congrArg (fun j : S1x1136x1136.Idx => (j 2).val) hx
    change 126 * q + 1 * b.val = ww.val at e
    omega
  subst hv
  show patchesOf c fh0 (ix4 (⟨p * 9 + q, by omega⟩ : Fin 81) (chan i) a b) = planeOf c fh0 i (ix3 z yy ww)
  unfold planeOf
  exact (Cert.PatchScatter.paddedAt_square _ (chan i) p q hp hq yy ww a b h1 h2
    (hrow.imp id fun hn => Cert.PatchScatter.above_next hn h1 h2 a.isLt b.isLt)
    (hcol.imp id fun hn => Cert.PatchScatter.left_of_next hn h1 h2 a.isLt b.isLt)).symm

set_option maxHeartbeats 4000000 in
/-- The plane after the body's stores is the padded plane of the point's channel: going down the stores from the
    last, patch 80 = (8, 8) first, each square's visible part is decided by its own store, and every pixel lies in
    some square. -/
theorem plane_value (c : Dev nD) (i : grid0.Coords) (arg2 : Memref sig .tc .vmem S1x1136x1136 .f32) (harg2 : arg2.IsWhole)
    (arg3 : Memref sig .tc .vmem S2x1x128x128 .f32) (harg3 : arg3.IsWhole) (fh0 : HeldBuf (F := F) c patchesM) (s0 : Vec F S2x1x128x128 .f32)
    (f : arg2.view.ty.Contents (Elt F)) :
    arg2.view.read (Elt F) (arg2.view.writes (Elt F) f (bodyRun c i arg2 harg2 arg3 harg3 fh0 s0).1) = planeOf c fh0 i := by
  funext y
  obtain ⟨z, yy, ww, rfl⟩ : ∃ (z : Fin 1) (yy ww : Fin 1136), y = ix3 z yy ww := ⟨y 0, y 1, y 2, eq_ix3 y⟩
  refine Cert.LastWrite.read_writes_of_decides arg2.view f (planeOf c fh0 i) (ix3 z yy ww) _ ?_
  refine square_decides c fh0 i 8 8 (by decide) (by decide) _ _
    ((stored_last arg3 _ _ _ _).trans (payload_eq c fh0 _ _ _ 80 (i 0).val (by decide) (i 0).isLt (k0_off81_eq i)))
    z yy ww (Or.inl rfl) (Or.inl rfl) _ (fun a80 => ?_)
  refine square_decides c fh0 i 8 7 (by decide) (by decide) _ _
    ((stored_odd arg3 _ _ _ _ _).trans (payload_eq c fh0 _ _ _ 79 (i 0).val (by decide) (i 0).isLt (k0_off80_eq i)))
    z yy ww (Or.inl rfl) (Or.inr a80) _ (fun a79 => ?_)
  refine square_decides c fh0 i 8 6 (by decide) (by decide) _ _
    ((stored_even arg3 _ _ _ _ _).trans (payload_eq c fh0 _ _ _ 78 (i 0).val (by decide) (i 0).isLt (k0_off79_eq i)))
    z yy ww (Or.inl rfl) (Or.inr a79) _ (fun a78 => ?_)
  refine square_decides c fh0 i 8 5 (by decide) (by decide) _ _
    ((stored_odd arg3 _ _ _ _ _).trans (payload_eq c fh0 _ _ _ 77 (i 0).val (by decide) (i 0).isLt (k0_off78_eq i)))
    z yy ww (Or.inl rfl) (Or.inr a78) _ (fun a77 => ?_)
  refine square_decides c fh0 i 8 4 (by decide) (by decide) _ _
    ((stored_even arg3 _ _ _ _ _).trans (payload_eq c fh0 _ _ _ 76 (i 0).val (by decide) (i 0).isLt (k0_off77_eq i)))
    z yy ww (Or.inl rfl) (Or.inr a77) _ (fun a76 => ?_)
  refine square_decides c fh0 i 8 3 (by decide) (by decide) _ _
    ((stored_odd arg3 _ _ _ _ _).trans (payload_eq c fh0 _ _ _ 75 (i 0).val (by decide) (i 0).isLt (k0_off76_eq i)))
    z yy ww (Or.inl rfl) (Or.inr a76) _ (fun a75 => ?_)
  refine square_decides c fh0 i 8 2 (by decide) (by decide) _ _
    ((stored_even arg3 _ _ _ _ _).trans (payload_eq c fh0 _ _ _ 74 (i 0).val (by decide) (i 0).isLt (k0_off75_eq i)))
    z yy ww (Or.inl rfl) (Or.inr a75) _ (fun a74 => ?_)
  refine square_decides c fh0 i 8 1 (by decide) (by decide) _ _
    ((stored_odd arg3 _ _ _ _ _).trans (payload_eq c fh0 _ _ _ 73 (i 0).val (by decide) (i 0).isLt (k0_off74_eq i)))
    z yy ww (Or.inl rfl) (Or.inr a74) _ (fun a73 => ?_)
  refine square_decides c fh0 i 8 0 (by decide) (by decide) _ _
    ((stored_even arg3 _ _ _ _ _).trans (payload_eq c fh0 _ _ _ 72 (i 0).val (by decide) (i 0).isLt (k0_off73_eq i)))
    z yy ww (Or.inl rfl) (Or.inr a73) _ (fun a72 => ?_)
  refine square_decides c fh0 i 7 8 (by decide) (by decide) _ _
    ((stored_odd arg3 _ _ _ _ _).trans (payload_eq c fh0 _ _ _ 71 (i 0).val (by decide) (i 0).isLt (k0_off72_eq i)))
    z yy ww (Or.inr a80) (Or.inl rfl) _ (fun a71 => ?_)
  refine square_decides c fh0 i 7 7 (by decide) (by decide) _ _
    ((stored_even arg3 _ _ _ _ _).trans (payload_eq c fh0 _ _ _ 70 (i 0).val (by decide) (i 0).isLt (k0_off71_eq i)))
    z yy ww (Or.inr a79) (Or.inr a71) _ (fun a70 => ?_)
  refine square_decides c fh0 i 7 6 (by decide) (by decide) _ _
    ((stored_odd arg3 _ _ _ _ _).trans (payload_eq c fh0 _ _ _ 69 (i 0).val (by decide) (i 0).isLt (k0_off70_eq i)))
    z yy ww (Or.inr a78) (Or.inr a70) _ (fun a69 => ?_)
  refine square_decides c fh0 i 7 5 (by decide) (by decide) _ _
    ((stored_even arg3 _ _ _ _ _).trans (payload_eq c fh0 _ _ _ 68 (i 0).val (by decide) (i 0).isLt (k0_off69_eq i)))
    z yy ww (Or.inr a77) (Or.inr a69) _ (fun a68 => ?_)
  refine square_decides c fh0 i 7 4 (by decide) (by decide) _ _
    ((stored_odd arg3 _ _ _ _ _).trans (payload_eq c fh0 _ _ _ 67 (i 0).val (by decide) (i 0).isLt (k0_off68_eq i)))
    z yy ww (Or.inr a76) (Or.inr a68) _ (fun a67 => ?_)
  refine square_decides c fh0 i 7 3 (by decide) (by decide) _ _
    ((stored_even arg3 _ _ _ _ _).trans (payload_eq c fh0 _ _ _ 66 (i 0).val (by decide) (i 0).isLt (k0_off67_eq i)))
    z yy ww (Or.inr a75) (Or.inr a67) _ (fun a66 => ?_)
  refine square_decides c fh0 i 7 2 (by decide) (by decide) _ _
    ((stored_odd arg3 _ _ _ _ _).trans (payload_eq c fh0 _ _ _ 65 (i 0).val (by decide) (i 0).isLt (k0_off66_eq i)))
    z yy ww (Or.inr a74) (Or.inr a66) _ (fun a65 => ?_)
  refine square_decides c fh0 i 7 1 (by decide) (by decide) _ _
    ((stored_even arg3 _ _ _ _ _).trans (payload_eq c fh0 _ _ _ 64 (i 0).val (by decide) (i 0).isLt (k0_off65_eq i)))
    z yy ww (Or.inr a73) (Or.inr a65) _ (fun a64 => ?_)
  refine square_decides c fh0 i 7 0 (by decide) (by decide) _ _
    ((stored_odd arg3 _ _ _ _ _).trans (payload_eq c fh0 _ _ _ 63 (i 0).val (by decide) (i 0).isLt (k0_off64_eq i)))
    z yy ww (Or.inr a72) (Or.inr a64) _ (fun a63 => ?_)
  refine square_decides c fh0 i 6 8 (by decide) (by decide) _ _
    ((stored_even arg3 _ _ _ _ _).trans (payload_eq c fh0 _ _ _ 62 (i 0).val (by decide) (i 0).isLt (k0_off63_eq i)))
    z yy ww (Or.inr a71) (Or.inl rfl) _ (fun a62 => ?_)
  refine square_decides c fh0 i 6 7 (by decide) (by decide) _ _
    ((stored_odd arg3 _ _ _ _ _).trans (payload_eq c fh0 _ _ _ 61 (i 0).val (by decide) (i 0).isLt (k0_off62_eq i)))
    z yy ww (Or.inr a70) (Or.inr a62) _ (fun a61 => ?_)
  refine square_decides c fh0 i 6 6 (by decide) (by decide) _ _
    ((stored_even arg3 _ _ _ _ _).trans (payload_eq c fh0 _ _ _ 60 (i 0).val (by decide) (i 0).isLt (k0_off61_eq i)))
    z yy ww (Or.inr a69) (Or.inr a61) _ (fun a60 => ?_)
  refine square_decides c fh0 i 6 5 (by decide) (by decide) _ _
    ((stored_odd arg3 _ _ _ _ _).trans (payload_eq c fh0 _ _ _ 59 (i 0).val (by decide) (i 0).isLt (k0_off60_eq i)))
    z yy ww (Or.inr a68) (Or.inr a60) _ (fun a59 => ?_)
  refine square_decides c fh0 i 6 4 (by decide) (by decide) _ _
    ((stored_even arg3 _ _ _ _ _).trans (payload_eq c fh0 _ _ _ 58 (i 0).val (by decide) (i 0).isLt (k0_off59_eq i)))
    z yy ww (Or.inr a67) (Or.inr a59) _ (fun a58 => ?_)
  refine square_decides c fh0 i 6 3 (by decide) (by decide) _ _
    ((stored_odd arg3 _ _ _ _ _).trans (payload_eq c fh0 _ _ _ 57 (i 0).val (by decide) (i 0).isLt (k0_off58_eq i)))
    z yy ww (Or.inr a66) (Or.inr a58) _ (fun a57 => ?_)
  refine square_decides c fh0 i 6 2 (by decide) (by decide) _ _
    ((stored_even arg3 _ _ _ _ _).trans (payload_eq c fh0 _ _ _ 56 (i 0).val (by decide) (i 0).isLt (k0_off57_eq i)))
    z yy ww (Or.inr a65) (Or.inr a57) _ (fun a56 => ?_)
  refine square_decides c fh0 i 6 1 (by decide) (by decide) _ _
    ((stored_odd arg3 _ _ _ _ _).trans (payload_eq c fh0 _ _ _ 55 (i 0).val (by decide) (i 0).isLt (k0_off56_eq i)))
    z yy ww (Or.inr a64) (Or.inr a56) _ (fun a55 => ?_)
  refine square_decides c fh0 i 6 0 (by decide) (by decide) _ _
    ((stored_even arg3 _ _ _ _ _).trans (payload_eq c fh0 _ _ _ 54 (i 0).val (by decide) (i 0).isLt (k0_off55_eq i)))
    z yy ww (Or.inr a63) (Or.inr a55) _ (fun a54 => ?_)
  refine square_decides c fh0 i 5 8 (by decide) (by decide) _ _
    ((stored_odd arg3 _ _ _ _ _).trans (payload_eq c fh0 _ _ _ 53 (i 0).val (by decide) (i 0).isLt (k0_off54_eq i)))
    z yy ww (Or.inr a62) (Or.inl rfl) _ (fun a53 => ?_)
  refine square_decides c fh0 i 5 7 (by decide) (by decide) _ _
    ((stored_even arg3 _ _ _ _ _).trans (payload_eq c fh0 _ _ _ 52 (i 0).val (by decide) (i 0).isLt (k0_off53_eq i)))
    z yy ww (Or.inr a61) (Or.inr a53) _ (fun a52 => ?_)
  refine square_decides c fh0 i 5 6 (by decide) (by decide) _ _
    ((stored_odd arg3 _ _ _ _ _).trans (payload_eq c fh0 _ _ _ 51 (i 0).val (by decide) (i 0).isLt (k0_off52_eq i)))
    z yy ww (Or.inr a60) (Or.inr a52) _ (fun a51 => ?_)
  refine square_decides c fh0 i 5 5 (by decide) (by decide) _ _
    ((stored_even arg3 _ _ _ _ _).trans (payload_eq c fh0 _ _ _ 50 (i 0).val (by decide) (i 0).isLt (k0_off51_eq i)))
    z yy ww (Or.inr a59) (Or.inr a51) _ (fun a50 => ?_)
  refine square_decides c fh0 i 5 4 (by decide) (by decide) _ _
    ((stored_odd arg3 _ _ _ _ _).trans (payload_eq c fh0 _ _ _ 49 (i 0).val (by decide) (i 0).isLt (k0_off50_eq i)))
    z yy ww (Or.inr a58) (Or.inr a50) _ (fun a49 => ?_)
  refine square_decides c fh0 i 5 3 (by decide) (by decide) _ _
    ((stored_even arg3 _ _ _ _ _).trans (payload_eq c fh0 _ _ _ 48 (i 0).val (by decide) (i 0).isLt (k0_off49_eq i)))
    z yy ww (Or.inr a57) (Or.inr a49) _ (fun a48 => ?_)
  refine square_decides c fh0 i 5 2 (by decide) (by decide) _ _
    ((stored_odd arg3 _ _ _ _ _).trans (payload_eq c fh0 _ _ _ 47 (i 0).val (by decide) (i 0).isLt (k0_off48_eq i)))
    z yy ww (Or.inr a56) (Or.inr a48) _ (fun a47 => ?_)
  refine square_decides c fh0 i 5 1 (by decide) (by decide) _ _
    ((stored_even arg3 _ _ _ _ _).trans (payload_eq c fh0 _ _ _ 46 (i 0).val (by decide) (i 0).isLt (k0_off47_eq i)))
    z yy ww (Or.inr a55) (Or.inr a47) _ (fun a46 => ?_)
  refine square_decides c fh0 i 5 0 (by decide) (by decide) _ _
    ((stored_odd arg3 _ _ _ _ _).trans (payload_eq c fh0 _ _ _ 45 (i 0).val (by decide) (i 0).isLt (k0_off46_eq i)))
    z yy ww (Or.inr a54) (Or.inr a46) _ (fun a45 => ?_)
  refine square_decides c fh0 i 4 8 (by decide) (by decide) _ _
    ((stored_even arg3 _ _ _ _ _).trans (payload_eq c fh0 _ _ _ 44 (i 0).val (by decide) (i 0).isLt (k0_off45_eq i)))
    z yy ww (Or.inr a53) (Or.inl rfl) _ (fun a44 => ?_)
  refine square_decides c fh0 i 4 7 (by decide) (by decide) _ _
    ((stored_odd arg3 _ _ _ _ _).trans (payload_eq c fh0 _ _ _ 43 (i 0).val (by decide) (i 0).isLt (k0_off44_eq i)))
    z yy ww (Or.inr a52) (Or.inr a44) _ (fun a43 => ?_)
  refine square_decides c fh0 i 4 6 (by decide) (by decide) _ _
    ((stored_even arg3 _ _ _ _ _).trans (payload_eq c fh0 _ _ _ 42 (i 0).val (by decide) (i 0).isLt (k0_off43_eq i)))
    z yy ww (Or.inr a51) (Or.inr a43) _ (fun a42 => ?_)
  refine square_decides c fh0 i 4 5 (by decide) (by decide) _ _
    ((stored_odd arg3 _ _ _ _ _).trans (payload_eq c fh0 _ _ _ 41 (i 0).val (by decide) (i 0).isLt (k0_off42_eq i)))
    z yy ww (Or.inr a50) (Or.inr a42) _ (fun a41 => ?_)
  refine square_decides c fh0 i 4 4 (by decide) (by decide) _ _
    ((stored_even arg3 _ _ _ _ _).trans (payload_eq c fh0 _ _ _ 40 (i 0).val (by decide) (i 0).isLt (k0_off41_eq i)))
    z yy ww (Or.inr a49) (Or.inr a41) _ (fun a40 => ?_)
  refine square_decides c fh0 i 4 3 (by decide) (by decide) _ _
    ((stored_odd arg3 _ _ _ _ _).trans (payload_eq c fh0 _ _ _ 39 (i 0).val (by decide) (i 0).isLt (k0_off40_eq i)))
    z yy ww (Or.inr a48) (Or.inr a40) _ (fun a39 => ?_)
  refine square_decides c fh0 i 4 2 (by decide) (by decide) _ _
    ((stored_even arg3 _ _ _ _ _).trans (payload_eq c fh0 _ _ _ 38 (i 0).val (by decide) (i 0).isLt (k0_off39_eq i)))
    z yy ww (Or.inr a47) (Or.inr a39) _ (fun a38 => ?_)
  refine square_decides c fh0 i 4 1 (by decide) (by decide) _ _
    ((stored_odd arg3 _ _ _ _ _).trans (payload_eq c fh0 _ _ _ 37 (i 0).val (by decide) (i 0).isLt (k0_off38_eq i)))
    z yy ww (Or.inr a46) (Or.inr a38) _ (fun a37 => ?_)
  refine square_decides c fh0 i 4 0 (by decide) (by decide) _ _
    ((stored_even arg3 _ _ _ _ _).trans (payload_eq c fh0 _ _ _ 36 (i 0).val (by decide) (i 0).isLt (k0_off37_eq i)))
    z yy ww (Or.inr a45) (Or.inr a37) _ (fun a36 => ?_)
  refine square_decides c fh0 i 3 8 (by decide) (by decide) _ _
    ((stored_odd arg3 _ _ _ _ _).trans (payload_eq c fh0 _ _ _ 35 (i 0).val (by decide) (i 0).isLt (k0_off36_eq i)))
    z yy ww (Or.inr a44) (Or.inl rfl) _ (fun a35 => ?_)
  refine square_decides c fh0 i 3 7 (by decide) (by decide) _ _
    ((stored_even arg3 _ _ _ _ _).trans (payload_eq c fh0 _ _ _ 34 (i 0).val (by decide) (i 0).isLt (k0_off35_eq i)))
    z yy ww (Or.inr a43) (Or.inr a35) _ (fun a34 => ?_)
  refine square_decides c fh0 i 3 6 (by decide) (by decide) _ _
    ((stored_odd arg3 _ _ _ _ _).trans (payload_eq c fh0 _ _ _ 33 (i 0).val (by decide) (i 0).isLt (k0_off34_eq i)))
    z yy ww (Or.inr a42) (Or.inr a34) _ (fun a33 => ?_)
  refine square_decides c fh0 i 3 5 (by decide) (by decide) _ _
    ((stored_even arg3 _ _ _ _ _).trans (payload_eq c fh0 _ _ _ 32 (i 0).val (by decide) (i 0).isLt (k0_off33_eq i)))
    z yy ww (Or.inr a41) (Or.inr a33) _ (fun a32 => ?_)
  refine square_decides c fh0 i 3 4 (by decide) (by decide) _ _
    ((stored_odd arg3 _ _ _ _ _).trans (payload_eq c fh0 _ _ _ 31 (i 0).val (by decide) (i 0).isLt (k0_off32_eq i)))
    z yy ww (Or.inr a40) (Or.inr a32) _ (fun a31 => ?_)
  refine square_decides c fh0 i 3 3 (by decide) (by decide) _ _
    ((stored_even arg3 _ _ _ _ _).trans (payload_eq c fh0 _ _ _ 30 (i 0).val (by decide) (i 0).isLt (k0_off31_eq i)))
    z yy ww (Or.inr a39) (Or.inr a31) _ (fun a30 => ?_)
  refine square_decides c fh0 i 3 2 (by decide) (by decide) _ _
    ((stored_odd arg3 _ _ _ _ _).trans (payload_eq c fh0 _ _ _ 29 (i 0).val (by decide) (i 0).isLt (k0_off30_eq i)))
    z yy ww (Or.inr a38) (Or.inr a30) _ (fun a29 => ?_)
  refine square_decides c fh0 i 3 1 (by decide) (by decide) _ _
    ((stored_even arg3 _ _ _ _ _).trans (payload_eq c fh0 _ _ _ 28 (i 0).val (by decide) (i 0).isLt (k0_off29_eq i)))
    z yy ww (Or.inr a37) (Or.inr a29) _ (fun a28 => ?_)
  refine square_decides c fh0 i 3 0 (by decide) (by decide) _ _
    ((stored_odd arg3 _ _ _ _ _).trans (payload_eq c fh0 _ _ _ 27 (i 0).val (by decide) (i 0).isLt (k0_off28_eq i)))
    z yy ww (Or.inr a36) (Or.inr a28) _ (fun a27 => ?_)
  refine square_decides c fh0 i 2 8 (by decide) (by decide) _ _
    ((stored_even arg3 _ _ _ _ _).trans (payload_eq c fh0 _ _ _ 26 (i 0).val (by decide) (i 0).isLt (k0_off27_eq i)))
    z yy ww (Or.inr a35) (Or.inl rfl) _ (fun a26 => ?_)
  refine square_decides c fh0 i 2 7 (by decide) (by decide) _ _
    ((stored_odd arg3 _ _ _ _ _).trans (payload_eq c fh0 _ _ _ 25 (i 0).val (by decide) (i 0).isLt (k0_off26_eq i)))
    z yy ww (Or.inr a34) (Or.inr a26) _ (fun a25 => ?_)
  refine square_decides c fh0 i 2 6 (by decide) (by decide) _ _
    ((stored_even arg3 _ _ _ _ _).trans (payload_eq c fh0 _ _ _ 24 (i 0).val (by decide) (i 0).isLt (k0_off25_eq i)))
    z yy ww (Or.inr a33) (Or.inr a25) _ (fun a24 => ?_)
  refine square_decides c fh0 i 2 5 (by decide) (by decide) _ _
    ((stored_odd arg3 _ _ _ _ _).trans (payload_eq c fh0 _ _ _ 23 (i 0).val (by decide) (i 0).isLt (k0_off24_eq i)))
    z yy ww (Or.inr a32) (Or.inr a24) _ (fun a23 => ?_)
  refine square_decides c fh0 i 2 4 (by decide) (by decide) _ _
    ((stored_even arg3 _ _ _ _ _).trans (payload_eq c fh0 _ _ _ 22 (i 0).val (by decide) (i 0).isLt (k0_off23_eq i)))
    z yy ww (Or.inr a31) (Or.inr a23) _ (fun a22 => ?_)
  refine square_decides c fh0 i 2 3 (by decide) (by decide) _ _
    ((stored_odd arg3 _ _ _ _ _).trans (payload_eq c fh0 _ _ _ 21 (i 0).val (by decide) (i 0).isLt (k0_off22_eq i)))
    z yy ww (Or.inr a30) (Or.inr a22) _ (fun a21 => ?_)
  refine square_decides c fh0 i 2 2 (by decide) (by decide) _ _
    ((stored_even arg3 _ _ _ _ _).trans (payload_eq c fh0 _ _ _ 20 (i 0).val (by decide) (i 0).isLt (k0_off21_eq i)))
    z yy ww (Or.inr a29) (Or.inr a21) _ (fun a20 => ?_)
  refine square_decides c fh0 i 2 1 (by decide) (by decide) _ _
    ((stored_odd arg3 _ _ _ _ _).trans (payload_eq c fh0 _ _ _ 19 (i 0).val (by decide) (i 0).isLt (k0_off20_eq i)))
    z yy ww (Or.inr a28) (Or.inr a20) _ (fun a19 => ?_)
  refine square_decides c fh0 i 2 0 (by decide) (by decide) _ _
    ((stored_even arg3 _ _ _ _ _).trans (payload_eq c fh0 _ _ _ 18 (i 0).val (by decide) (i 0).isLt (k0_off19_eq i)))
    z yy ww (Or.inr a27) (Or.inr a19) _ (fun a18 => ?_)
  refine square_decides c fh0 i 1 8 (by decide) (by decide) _ _
    ((stored_odd arg3 _ _ _ _ _).trans (payload_eq c fh0 _ _ _ 17 (i 0).val (by decide) (i 0).isLt (k0_off18_eq i)))
    z yy ww (Or.inr a26) (Or.inl rfl) _ (fun a17 => ?_)
  refine square_decides c fh0 i 1 7 (by decide) (by decide) _ _
    ((stored_even arg3 _ _ _ _ _).trans (payload_eq c fh0 _ _ _ 16 (i 0).val (by decide) (i 0).isLt (k0_off17_eq i)))
    z yy ww (Or.inr a25) (Or.inr a17) _ (fun a16 => ?_)
  refine square_decides c fh0 i 1 6 (by decide) (by decide) _ _
    ((stored_odd arg3 _ _ _ _ _).trans (payload_eq c fh0 _ _ _ 15 (i 0).val (by decide) (i 0).isLt (k0_off16_eq i)))
    z yy ww (Or.inr a24) (Or.inr a16) _ (fun a15 => ?_)
  refine square_decides c fh0 i 1 5 (by decide) (by decide) _ _
    ((stored_even arg3 _ _ _ _ _).trans (payload_eq c fh0 _ _ _ 14 (i 0).val (by decide) (i 0).isLt (k0_off15_eq i)))
    z yy ww (Or.inr a23) (Or.inr a15) _ (fun a14 => ?_)
  refine square_decides c fh0 i 1 4 (by decide) (by decide) _ _
    ((stored_odd arg3 _ _ _ _ _).trans (payload_eq c fh0 _ _ _ 13 (i 0).val (by decide) (i 0).isLt (k0_off14_eq i)))
    z yy ww (Or.inr a22) (Or.inr a14) _ (fun a13 => ?_)
  refine square_decides c fh0 i 1 3 (by decide) (by decide) _ _
    ((stored_even arg3 _ _ _ _ _).trans (payload_eq c fh0 _ _ _ 12 (i 0).val (by decide) (i 0).isLt (k0_off13_eq i)))
    z yy ww (Or.inr a21) (Or.inr a13) _ (fun a12 => ?_)
  refine square_decides c fh0 i 1 2 (by decide) (by decide) _ _
    ((stored_odd arg3 _ _ _ _ _).trans (payload_eq c fh0 _ _ _ 11 (i 0).val (by decide) (i 0).isLt (k0_off12_eq i)))
    z yy ww (Or.inr a20) (Or.inr a12) _ (fun a11 => ?_)
  refine square_decides c fh0 i 1 1 (by decide) (by decide) _ _
    ((stored_even arg3 _ _ _ _ _).trans (payload_eq c fh0 _ _ _ 10 (i 0).val (by decide) (i 0).isLt (k0_off11_eq i)))
    z yy ww (Or.inr a19) (Or.inr a11) _ (fun a10 => ?_)
  refine square_decides c fh0 i 1 0 (by decide) (by decide) _ _
    ((stored_odd arg3 _ _ _ _ _).trans (payload_eq c fh0 _ _ _ 9 (i 0).val (by decide) (i 0).isLt (k0_off10_eq i)))
    z yy ww (Or.inr a18) (Or.inr a10) _ (fun a9 => ?_)
  refine square_decides c fh0 i 0 8 (by decide) (by decide) _ _
    ((stored_even arg3 _ _ _ _ _).trans (payload_eq c fh0 _ _ _ 8 (i 0).val (by decide) (i 0).isLt (k0_off9_eq i)))
    z yy ww (Or.inr a17) (Or.inl rfl) _ (fun a8 => ?_)
  refine square_decides c fh0 i 0 7 (by decide) (by decide) _ _
    ((stored_odd arg3 _ _ _ _ _).trans (payload_eq c fh0 _ _ _ 7 (i 0).val (by decide) (i 0).isLt (k0_off8_eq i)))
    z yy ww (Or.inr a16) (Or.inr a8) _ (fun a7 => ?_)
  refine square_decides c fh0 i 0 6 (by decide) (by decide) _ _
    ((stored_even arg3 _ _ _ _ _).trans (payload_eq c fh0 _ _ _ 6 (i 0).val (by decide) (i 0).isLt (k0_off7_eq i)))
    z yy ww (Or.inr a15) (Or.inr a7) _ (fun a6 => ?_)
  refine square_decides c fh0 i 0 5 (by decide) (by decide) _ _
    ((stored_odd arg3 _ _ _ _ _).trans (payload_eq c fh0 _ _ _ 5 (i 0).val (by decide) (i 0).isLt (k0_off6_eq i)))
    z yy ww (Or.inr a14) (Or.inr a6) _ (fun a5 => ?_)
  refine square_decides c fh0 i 0 4 (by decide) (by decide) _ _
    ((stored_even arg3 _ _ _ _ _).trans (payload_eq c fh0 _ _ _ 4 (i 0).val (by decide) (i 0).isLt (k0_off5_eq i)))
    z yy ww (Or.inr a13) (Or.inr a5) _ (fun a4 => ?_)
  refine square_decides c fh0 i 0 3 (by decide) (by decide) _ _
    ((stored_odd arg3 _ _ _ _ _).trans (payload_eq c fh0 _ _ _ 3 (i 0).val (by decide) (i 0).isLt (k0_off4_eq i)))
    z yy ww (Or.inr a12) (Or.inr a4) _ (fun a3 => ?_)
  refine square_decides c fh0 i 0 2 (by decide) (by decide) _ _
    ((stored_even arg3 _ _ _ _ _).trans (payload_eq c fh0 _ _ _ 2 (i 0).val (by decide) (i 0).isLt (k0_off3_eq i)))
    z yy ww (Or.inr a11) (Or.inr a3) _ (fun a2 => ?_)
  refine square_decides c fh0 i 0 1 (by decide) (by decide) _ _
    ((stored_odd arg3 _ _ _ _ _).trans (payload_eq c fh0 _ _ _ 1 (i 0).val (by decide) (i 0).isLt (k0_off2_eq i)))
    z yy ww (Or.inr a10) (Or.inr a2) _ (fun a1 => ?_)
  refine square_decides c fh0 i 0 0 (by decide) (by decide) _ _
    ((stored_even arg3 _ _ _ _ _).trans (payload_eq c fh0 _ _ _ 0 (i 0).val (by decide) (i 0).isLt (k0_off1_eq i)))
    z yy ww (Or.inr a9) (Or.inr a1) _ (fun a0 => ?_)
  refine Cert.PatchScatter.covered yy ww (fun p q hp hq => ?_)
  interval_cases p <;> interval_cases q <;> assumption

end Cert.Kernel.Scatter

end
-- ==== Proof.BitsFrame.lean ====
/-
  The frame run of the overlap-scatter kernel.

  The proof data: the arrays as the region finds them; after the body at a grid point the output's staging buffer
  holds the padded plane of the point's channel; the region invariant is the scratch buffer and the generator
  register at anything, the body's two cells at zero and the patches array whole at its launch contents; nothing
  is owed. The body obligation at a point is the body's run with the stores it leaves read as that plane.
-/
import proofs.«114181_j72378788872306_2_alg».proof.Proof.BitsPlane

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output's current staging memref at a grid point, and its wholeness. -/
abbrev stageAt (t : Fin cfg0.N) : Memref sig .tc .vmem S1x1136x1136 .f32 := win0_0.stage (cfg0.slots t 0)
abbrev stageAt_whole (t : Fin cfg0.N) : (stageAt t).IsWhole := hstage0_0 ((cfg0.slots t 0).cast nbuf0_0)

/-- The plane the body leaves at grid point `t`: the padded plane of channel `t` of the launch patches. -/
def planeAt (c : Dev nD) (t : Fin cfg0.N) : S1x1136x1136.Idx → Elt F .f32 :=
  planeOf c (V m c main_arg0) (grid0.coords t)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => planeAt m c t
  Φ _ := Pipeline.ΦD ownCells spec0 moved (V m) c
  q _ := fullShare
  owed _ := 0

theorem A_eq (c : Dev nD) (w : Fin cfg0.W) : (dats m 0 c).A w = V m c (Pipeline.arrRef spec0 w) := by
  dsimp only [dats]

theorem after_plane (c : Dev nD) (t : Fin cfg0.N) : (dats m 0 c).after 0 t = planeAt m c t := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stageAt t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (stageAt t) fullShare ((dats m 0 c).after 0 t))

/-- The body at any point: the invariant hands it the scratch buffer, the register, its two cells at zero and the
    patches array, and takes them back as they were; the staging buffer comes back holding the channel's plane. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_plane]
  rw [show (dats m 0 c).Φ t.castSucc = Pipeline.ΦD ownCells spec0 moved (V m) c from rfl, inv_eq]
  unfold Dat.owesAt Pipeline.owesWithin
  rw [show (dats m 0 c).owed t.castSucc = 0 from rfl, show (dats m 0 c).owed t.succ = 0 from rfl]
  iintro ⟨⟨⟨%s0, HS0⟩, Hg, ⟨Hq0, Hq1⟩, Hh0⟩, ⟨%W, -, HW⟩, ⟨%d1, H1⟩⟩
  iapply ((bodyRun c (grid0.coords t) (stageAt t) (stageAt_whole t) slotsM (Memref.isWhole_whole _) (V m c main_arg0) s0).2 W _)
  isplitl [H1]; · iexists _; iexact H1
  isplitl [HS0]; · iexact HS0
  isplitl [Hq0]; · iexact Hq0
  isplitl [Hq1]; · iexact Hq1
  isplitl [Hh0]; · iexact Hh0
  isplitl [HW]; · iexact HW
  iintro ⟨⟨%e1, H1⟩, HS0, Hq0, Hq1, Hh0, ⟨%W', HW'⟩⟩
  isplitl [HS0 Hg Hq0 Hq1 Hh0]
  · isplitl [HS0]; · iexact HS0
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  unfold owns; iexists _; isplitr
  swap; · iexact H1
  ipureintro
  exact plane_value c (grid0.coords t) (stageAt t) (stageAt_whole t) slotsM (Memref.isWhole_whole _) (V m c main_arg0) s0 e1

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates with the output array at what the proof data says and every
    other unscoped buffer as the crop leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V₀ := V0 m) (opss := [hostOps1]) (hsub := crop_sub) (hfresh := sfx_fresh) (hkeep := sfx_keeps)
    (hmain := mainAround m Variants.none) (hA := A_eq m) (hin := fun _ => .rfl) (hout := fun _ => .rfl)

/-- The frame: the program runs and leaves the patches array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_run m ρ (dats m) (run_main m ρ)

end Cert.Kernel.Scatter

end
-- ==== Proof.IdealKit.lean ====
/-
  The launch side of the overlap-scatter kernel at the algebra of a body with transfers of its own.

  The kernel leaves the patches array in HBM and copies one patch's channel block at a time into a two-slot
  scratch buffer by its own DMA, on two semaphore cells of its own, each copy waited for within the grid
  point. The region invariant is therefore: the scratch buffer and the generator register at anything, the two
  cells at zero, the patches array whole at its launch contents. After the region the host crops the padded
  planes; that line reads the region's output array and writes the result, and touches neither the patches nor
  any array of the pipeline's other than by reading.
-/
import proofs.«114181_j72378788872306_2_alg».proof.Proof.Gen.KernelIdeal.Frame
import proofs.«114181_j72378788872306_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The patches array, left in HBM, as the whole memref the body slices. -/
abbrev patchesM : Memref sig .tc .hbm S81x64x128x128 .f32 := Memref.whole main_arg0
/-- A memref's buffer on core `c`: its contents type, and the buffer held whole at `f`. -/
abbrev HeldBuf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : HeldBuf (F := F) c M) : sProp 𝕄 :=
  M.view.loc (c : Thread nD τ) ↦{fullShare} f
/-- The two-slot scratch buffer. -/
abbrev slotsM : Memref sig .tc .vmem S2x1x128x128 .f32 := Memref.whole cc0_scratch0

/-- The body's two DMA cells, by their numbers in the pool. -/
abbrev ownCells : Fin 2 → SemLoc sig := fun j => (![SemLoc.dma 2, SemLoc.dma 3] : Fin 2 → SemLoc sig) j
theorem ownCells_facts : Pipeline.OwnSemFacts spec0 ownCells := by decide
theorem ownCells_zero (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 2) 0 ∗ semVal ((c : Thread nD τ), SemLoc.dma 3) 0) := by
  rw [Pipeline.ownSems0_eq_of_list c ownCells [0, 1] (by decide) (by decide)]; rfl

/-- The array the body copies from: unscoped, and no window's array. -/
def moved : Finset (Ref sig .tc) := {main_arg0}
theorem moved_sub : moved ⊆ Pipeline.restRefs sig spec0 := by decide
theorem moved_pts (c : Dev nD) :
    (bigSep moved (fun b => ((c : Thread nD τ).loc b) ↦{fullShare} V m c b) : sProp 𝕄) = iprop(heldAt c patchesM (V m c main_arg0)) := by
  rw [BI.bigSep_eq_bigSepL_of_eq [main_arg0] (by decide) (by decide)]; rfl

/-- The region invariant, conjunct by conjunct. -/
theorem inv_eq (c : Dev nD) :
    (Pipeline.ΦD ownCells spec0 moved (V m) c : sProp 𝕄)
      = iprop(iprop((∃ d, owns (c : Thread nD τ) slotsM fullShare d)) ∗ (∃ r, prngReg c r)
          ∗ iprop(semVal ((c : Thread nD τ), SemLoc.dma 2) 0 ∗ semVal ((c : Thread nD τ), SemLoc.dma 3) 0) ∗ iprop(heldAt c patchesM (V m c main_arg0))) := by
  rw [Pipeline.ΦD_eq, scopedRest0_eq, ownCells_zero, moved_pts]; simp only [slotsM, owns_whole]; try rfl

/-- @main around the region: the region, then the crop. -/
theorem mainAround (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The crop touches the pipeline's arrays and the bypassing buffers other than the patches. -/
theorem crop_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut Pipeline.Prefetch.none spec0 moved op ((List.forall_iff_forall_mem.mp hostOps1_sub) op hop) (fun k => k.elim0) ?_
  simp only [hostOps1, List.mem_cons, List.mem_nil_iff, or_false] at hop
  rcases hop with rfl
  intro b hb
  simp only [moved, Finset.mem_singleton] at hb
  subst hb
  simp only [StableHlo.unary_bufs, Finset.mem_insert, Finset.mem_singleton, not_or]
  exact ⟨StableHlo.devRef_ne_of_ne (by decide), StableHlo.devRef_ne_of_ne (by decide)⟩

/-- The crop leaves the patches as launched, for proof data at the transfer algebra. -/
theorem patches_after (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame claim's post from a frame run at the transfer algebra. -/
theorem frame_of_run (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (patches_after m dats c))) h

end Cert.KernelIdeal.Scatter

end
-- ==== Proof.IdealBody.lean ====
/-
  The kernel body, run once on whole memrefs.

  At a grid point (one channel) the body starts the copy of patch 0 into slot 0 of the scratch buffer, and then,
  for patch k = 0 .. 80 in row-major order: waits for patch k's copy (slot k mod 2), starts the copy of patch
  k + 1 into the other slot, loads slot k mod 2 and stores it, whole, into the channel's padded plane at the
  patch's corner (126 (k / 9), 126 (k mod 9)). Every copy is drained at the point where it was issued, so the
  two cells are at zero again at the end, the patches array is whole again, and the plane holds the eighty-one
  stores in order, the last store first in the list.
-/
import proofs.«114181_j72378788872306_2_alg».proof.Proof.IdealKit

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (Pipeline.UD sig nD τ) ℕ

-- the two slots of the scratch buffer share no element: a copy into one slot leaves the other slot's contents as
-- they are, so the other slot is read while the copy is in flight
set_option sl_exec.dmaWindow true in
set_option sl_exec.dmaWindowSet true in
set_option maxHeartbeats 16000000 in
/-- The stores the body leaves in the plane's staging memref, the last first, with the proof that the body runs
    from the plane at anything, the scratch at `s0`, the two cells at zero and the patches whole at `fh0` to the
    plane with those stores written, the scratch at something, the cells at zero and the patches whole at `fh0`. -/
noncomputable def bodyRun (c : Dev nD) (i : grid0.Coords) (arg2 : Memref sig .tc .vmem S1x1136x1136 .f32) (harg2 : arg2.IsWhole)
    (arg3 : Memref sig .tc .vmem S2x1x128x128 .f32) (harg3 : arg3.IsWhole) (fh0 : HeldBuf (F := F) c patchesM) (s0 : Vec F S2x1x128x128 .f32) :
    { L : List (View.Piece (Elt F) S1x1136x1136 .f32) //
      ∀ (W : Waits sig Unit) (K : PUnit → sProp 𝕄),
        iprop((∃ d, owns (c : Thread nD τ) arg2 fullShare d) ∗ owns (c : Thread nD τ) arg3 fullShare s0
            ∗ semVal ((c : Thread nD τ), SemLoc.dma 2) 0 ∗ semVal ((c : Thread nD τ), SemLoc.dma 3) 0 ∗ heldAt c patchesM fh0 ∗ owes (c : Thread nD τ) 0 W
            ∗ (iprop((∃ f, arg2.view.loc (c : Thread nD τ) ↦[arg2.view.set]{fullShare} arg2.view.writes (Elt F) f L) ∗ (∃ d, owns (c : Thread nD τ) arg3 fullShare d)
                ∗ semVal ((c : Thread nD τ), SemLoc.dma 2) 0 ∗ semVal ((c : Thread nD τ), SemLoc.dma 3) 0 ∗ heldAt c patchesM fh0 ∗ (∃ W', owes (c : Thread nD τ) 0 W')) -∗ K ⟨⟩))
          ⊢ wp frame (wpE (defs₀ (F := F)) Variants.none c none) Set.univ (cc0__scatter_kernel i (Memref.whole main_arg0) (Memref.isWhole_whole _) arg2 harg2 arg3 harg3 cc0_scratch1) K } := by
  refine ⟨?_, fun W K => ?run⟩
  case run =>
    simp only [cc0__scatter_kernel_eq_skeleton]; unfold cc0__scatter_kernel_skel
    unfold owns
    iintro ⟨⟨%d1, %f1, -, H1⟩, ⟨%fs0, %hfs0, HS0⟩, Hq0, Hq1, Hh0, HW, Hk⟩
    obtain rfl := harg3.eq_unread hfs0
    sl_exec_parts
    sl_step
    iapply Hk
    isplitl [H1]; · iexists _; iexact H1
    isplitl [HS0]
    · iexists _, _; isplitr; swap; · iexact HS0
      ipureintro; rfl
    isplitl [Hq0]; · iexact Hq0
    isplitl [Hq1]; · iexact Hq1
    isplitl [Hh0]; · iexact Hh0
    iexists _; iexact HW

end Cert.KernelIdeal.Scatter

end
-- ==== Proof.IdealSlots.lean ====
/-
  The two-slot scratch buffer read at a slot.

  A patch's channel block lands in slot k mod 2 of the scratch buffer through the slot's view with the unit
  axis dropped, and is loaded back through the slot's rectangle of the whole buffer; in between, the next
  patch's block may land in the OTHER slot. The two slots share no element, so the load reads the block that
  landed in its own slot, re-indexed along the row-major order from [1, 128, 128] to [1, 1, 128, 128]; the
  body's two shape casts ([1, 1, 128, 128] to [128, 128] to [1, 128, 128]) re-index it back, and the three
  re-indexings compose to the identity: what is stored into the plane is the block that landed.
-/
import proofs.«114181_j72378788872306_2_alg».proof.Proof.IdealKit
import Idealize.ShloMosaic.Lib.ValueIdx

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]
variable (arg3 : Memref sig .tc .vmem S2x1x128x128 .f32)

/-- A load of a rectangle right after a write of the whole rectangle through its squeezed view reads the payload,
    re-indexed along the row-major order. -/
theorem load_written (r : Rect S2x1x128x128) (hr : ∀ a, r.stride a = 1) (S' : Shape) (hq : r.shape.Squeezes S')
    (g : arg3.view.ty.Contents (Elt F)) (a : S'.Idx → Elt F .f32) :
    arg3.view.readAt (Elt F) r.toLoadRect (View.write (Elt F) ((arg3.slice r hr).squeeze S' hq).view g a Finset.univ)
      = fun x => a ((Shape.reshapeEquiv hq.numel_eq).symm x) := by
  show (arg3.view.slice r).read (Elt F) (View.write (Elt F) ((arg3.view.slice r).reshape S' hq.numel_eq) g a Finset.univ) = _
  rw [View.write_reshape_univ, View.read_write_univ]

/-- A write through the squeezed view of a rectangle is not seen by a load of a rectangle disjoint from it. -/
theorem load_beside (r r' : Rect S2x1x128x128) (hr' : ∀ a, r'.stride a = 1) (S' : Shape) (hq : r'.shape.Squeezes S')
    (hd : Disjoint r.set r'.set) (f : arg3.view.ty.Contents (Elt F)) (b : S'.Idx → Elt F .f32) :
    arg3.view.readAt (Elt F) r.toLoadRect (View.write (Elt F) ((arg3.slice r' hr').squeeze S' hq).view f b Finset.univ)
      = arg3.view.readAt (Elt F) r.toLoadRect f := by
  show (arg3.view.slice r).read (Elt F) (View.write (Elt F) ((arg3.view.slice r').reshape S' hq.numel_eq) f b Finset.univ)
    = (arg3.view.slice r).read (Elt F) f
  rw [View.write_reshape_univ]
  exact View.read_slice_write_slice_of_disjoint r r' f _ Finset.univ (by
    rw [View.setOn_univ, View.set_slice, View.set_slice]
    exact (Finset.disjoint_map _).mpr hd)

/-- The two slots. -/
abbrev slot0 : Rect S2x1x128x128 := Rect.unit (s := S2x1x128x128) ![0, 0, 0, 0] S1x1x128x128.size inb_S2x1x128x128_S1x1x128x128_0_0_0_0
abbrev slot1 : Rect S2x1x128x128 := Rect.unit (s := S2x1x128x128) ![1, 0, 0, 0] S1x1x128x128.size inb_S2x1x128x128_S1x1x128x128_1_0_0_0

theorem slots_disjoint : Disjoint slot0.set slot1.set := Rect.unit_disjoint 0 (Or.inl (by decide))

/-- The body's two shape casts undo the re-indexing of the load. -/
theorem casts_cancel (a : S1x128x128.Idx → Elt F .f32) (hq : S1x1x128x128.Squeezes S1x128x128)
    (h1 : S1x1x128x128.ShapeCasts S128x128) (h2 : S128x128.ShapeCasts S1x128x128) :
    shapeCast S1x128x128 (shapeCast S128x128 (fun x : S1x1x128x128.Idx => a ((Shape.reshapeEquiv hq.numel_eq).symm x)) h1) h2 = a := by
  funext j
  unfold shapeCast
  refine congrArg a ?_
  rw [Shape.reshapeEquiv_symm, Shape.reshapeEquiv_reshapeEquiv, Shape.reshapeEquiv_reshapeEquiv, Shape.reshapeEquiv_self]

/-- What is stored from slot 0 while the next block has already landed in slot 1: the block that landed in slot 0. -/
theorem stored_even (g : arg3.view.ty.Contents (Elt F)) (a b : S1x128x128.Idx → Elt F .f32)
    (h1 : S1x1x128x128.ShapeCasts S128x128) (h2 : S128x128.ShapeCasts S1x128x128) :
    shapeCast S1x128x128 (shapeCast S128x128 (arg3.view.readAt (Elt F) slot0.toLoadRect
      (View.write (Elt F) ((arg3.slice slot1 (fun _ => rfl)).squeeze S1x128x128 squeezes_S1x1x128x128_S1x128x128).view
        (View.write (Elt F) ((arg3.slice slot0 (fun _ => rfl)).squeeze S1x128x128 squeezes_S1x1x128x128_S1x128x128).view g a Finset.univ)
        b Finset.univ)) h1) h2 = a := by
  rw [load_beside arg3 slot0 slot1 _ _ _ slots_disjoint, load_written]
  exact casts_cancel a squeezes_S1x1x128x128_S1x128x128 h1 h2

/-- What is stored from slot 1 while the next block has already landed in slot 0: the block that landed in slot 1. -/
theorem stored_odd (g : arg3.view.ty.Contents (Elt F)) (a b : S1x128x128.Idx → Elt F .f32)
    (h1 : S1x1x128x128.ShapeCasts S128x128) (h2 : S128x128.ShapeCasts S1x128x128) :
    shapeCast S1x128x128 (shapeCast S128x128 (arg3.view.readAt (Elt F) slot1.toLoadRect
      (View.write (Elt F) ((arg3.slice slot0 (fun _ => rfl)).squeeze S1x128x128 squeezes_S1x1x128x128_S1x128x128).view
        (View.write (Elt F) ((arg3.slice slot1 (fun _ => rfl)).squeeze S1x128x128 squeezes_S1x1x128x128_S1x128x128).view g a Finset.univ)
        b Finset.univ)) h1) h2 = a := by
  rw [load_beside arg3 slot1 slot0 _ _ _ slots_disjoint.symm, load_written]
  exact casts_cancel a squeezes_S1x1x128x128_S1x128x128 h1 h2

/-- What is stored from slot 0 after the last block landed there: that block. -/
theorem stored_last (g : arg3.view.ty.Contents (Elt F)) (a : S1x128x128.Idx → Elt F .f32)
    (h1 : S1x1x128x128.ShapeCasts S128x128) (h2 : S128x128.ShapeCasts S1x128x128) :
    shapeCast S1x128x128 (shapeCast S128x128 (arg3.view.readAt (Elt F) slot0.toLoadRect
      (View.write (Elt F) ((arg3.slice slot0 (fun _ => rfl)).squeeze S1x128x128 squeezes_S1x1x128x128_S1x128x128).view g a Finset.univ)) h1) h2 = a := by
  rw [load_written]
  exact casts_cancel a squeezes_S1x1x128x128_S1x128x128 h1 h2

/-- The block a transfer delivers: the patches array read through the slice at (k, channel, 0, 0) with the unit axis
    dropped is patch `k`, channel `cc`, entry by entry. -/
theorem payload_eq (c : Dev nD) (fh0 : HeldBuf (F := F) c patchesM) (off : Fin 4 → Nat) (inb) (hr) (k cc : Nat) (hk : k < 81) (hc : cc < 64)
    (hoff : off = ![k, cc, 0, 0]) :
    (ReadAs.same.apply (View.read (Elt F) ((patchesM.slice (Rect.unit (s := S81x64x128x128) off S1x1x128x128.size inb) hr).squeeze S1x128x128 squeezes_S1x1x128x128_S1x128x128).view fh0) : S1x128x128.Idx → Elt F .f32)
      = fun x => patchesM.view.read (Elt F) fh0 (ix4 (⟨k, hk⟩ : Fin 81) (⟨cc, hc⟩ : Fin 64) (x 1) (x 2)) := by
  subst hoff
  funext x
  obtain ⟨z, p, q, rfl⟩ : ∃ (z : Fin 1) (p q : Fin 128), x = ix3 z p q := ⟨x 0, x 1, x 2, eq_ix3 x⟩
  rw [ReadAs.apply_same, View.read_apply, View.read_apply]
  have hre : Shape.reshapeEquiv (s := S1x1x128x128) (s' := S1x128x128) squeezes_S1x1x128x128_S1x128x128.numel_eq (ix3 z p q) = ix4 (0 : Fin 1) (0 : Fin 1) p q :=
    Shape.reshapeEquiv_eq_of_rowMajor _ (by
      refine (Shape.rowMajor_val_four (d := ![1, 1, 128, 128]) (ix4 (0 : Fin 1) (0 : Fin 1) p q)).trans ?_
      refine Eq.trans ?_ (Shape.rowMajor_val_three (d := ![1, 128, 128]) (ix3 z p q)).symm
      show ((0 * 1 + 0) * 128 + p.val) * 128 + q.val = (z.val * 128 + p.val) * 128 + q.val
      have := z.isLt; omega)
  have e : ((patchesM.slice (Rect.unit (s := S81x64x128x128) ![k, cc, 0, 0] S1x1x128x128.size inb) hr).squeeze S1x128x128 squeezes_S1x1x128x128_S1x128x128).view.emb (ix3 z p q)
      = patchesM.view.emb (ix4 (⟨k, hk⟩ : Fin 81) (⟨cc, hc⟩ : Fin 64) p q) := by
    show patchesM.view.emb ((Rect.unit (s := S81x64x128x128) ![k, cc, 0, 0] S1x1x128x128.size inb).emb (Shape.reshapeEquiv squeezes_S1x1x128x128_S1x128x128.numel_eq (ix3 z p q))) = _
    refine congrArg _ ((congrArg _ hre).trans (funext fun a => Fin.ext ?_))
    match a with
    | ⟨0, _⟩ => show k + 1 * 0 = k; omega
    | ⟨1, _⟩ => show cc + 1 * 0 = cc; omega
    | ⟨2, _⟩ => show 0 + 1 * p.val = p.val; omega
    | ⟨3, _⟩ => show 0 + 1 * q.val = q.val; omega
  rw [e]

end Cert.KernelIdeal.Scatter

end
-- ==== Proof.IdealPlane.lean ====
/-
  What the body leaves in a channel's padded plane.

  The plane holds the eighty-one stores of the body in order; a pixel (y, w) of the plane is decided by the last
  store whose 128 x 128 square holds it, the square of patch (min (y / 126) 8, min (w / 126) 8), and reads that
  patch's entry at the pixel's offset inside the square: the plane of channel c is the padded plane of the
  overlap scatter, as one function of the patches array.
-/
import proofs.«114181_j72378788872306_2_alg».proof.Proof.IdealBody
import proofs.«114181_j72378788872306_2_alg».proof.Proof.IdealSlots
import proofs.«114181_j72378788872306_2_alg».proof.Proof.LastPatch
import proofs.«114181_j72378788872306_2_alg».proof.Proof.LibLastWrite
import Idealize.ShloMosaic.Lib.ValueIdx

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

/-- The patches array as the specification reads it. -/
abbrev patchesOf (c : Dev nD) (fh0 : HeldBuf (F := F) c patchesM) : Cert.PatchScatter.Patches.Idx → Elt F .f32 :=
  patchesM.view.read (Elt F) fh0

/-- The channel a grid point works on. -/
def chan (i : grid0.Coords) : Fin 64 := ⟨(i 0).val, (i 0).isLt⟩

/-- The padded plane of the grid point's channel. -/
def planeOf (c : Dev nD) (fh0 : HeldBuf (F := F) c patchesM) (i : grid0.Coords) : S1x1136x1136.Idx → Elt F .f32 :=
  fun y => Cert.PatchScatter.paddedAt (patchesOf c fh0) (chan i) (y 1) (y 2)

/-- A pixel lies in the 128 x 128 square with corner (r0, c0) when its row and its column do. -/
theorem mem_square {r0 c0 : Nat} {inb} {z : Fin 1} {yy ww : Fin 1136} :
    ix3 z yy ww ∈ (Rect.unit (s := S1x1136x1136) ![0, r0, c0] S1x128x128.size inb).set
      ↔ (r0 ≤ yy.val ∧ yy.val < r0 + 128 ∧ c0 ≤ ww.val ∧ ww.val < c0 + 128) := by
  rw [Rect.mem_set_unit]
  constructor
  · intro h
    have h1 := h 1
    have h2 := h 2
    exact ⟨h1.1, h1.2, h2.1, h2.2⟩
  · rintro ⟨h1, h2, h3, h4⟩ a
    match a with
    | ⟨0, _⟩ => exact ⟨Nat.zero_le _, by show z.val < 0 + 1; omega⟩
    | ⟨1, _⟩ => exact ⟨h1, h2⟩
    | ⟨2, _⟩ => exact ⟨h3, h4⟩

/-- One store of the list decides its visible part: the store of patch (p, q), whose payload is the patch's channel
    block, agrees with the padded plane wherever neither the square below nor the square to the right — both stored
    later — holds the pixel; off its square the earlier stores decide. -/
theorem square_decides (c : Dev nD) (fh0 : HeldBuf (F := F) c patchesM) (i : grid0.Coords) (p q : Nat) (hp : p < 9) (hq : q < 9)
    (inb) (v : S1x128x128.Idx → Elt F .f32)
    (hv : v = fun x => patchesOf c fh0 (ix4 (⟨p * 9 + q, by omega⟩ : Fin 81) (chan i) (x 1) (x 2)))
    (z : Fin 1) (yy ww : Fin 1136)
    (hrow : p = 8 ∨ ¬ (126 * p + 126 ≤ yy.val ∧ yy.val < 126 * p + 126 + 128 ∧ 126 * q ≤ ww.val ∧ ww.val < 126 * q + 128))
    (hcol : q = 8 ∨ ¬ (126 * p ≤ yy.val ∧ yy.val < 126 * p + 128 ∧ 126 * q + 126 ≤ ww.val ∧ ww.val < 126 * q + 126 + 128))
    (L : List (View.Piece (Elt F) S1x1136x1136 .f32))
    (hL : ¬ (126 * p ≤ yy.val ∧ yy.val < 126 * p + 128 ∧ 126 * q ≤ ww.val ∧ ww.val < 126 * q + 128) →
      Cert.LastWrite.Decides (planeOf c fh0 i) (ix3 z yy ww) L) :
    Cert.LastWrite.Decides (planeOf c fh0 i) (ix3 z yy ww)
      (⟨Rect.unit (s := S1x1136x1136) ![0, 126 * p, 126 * q] S1x128x128.size inb, v⟩ :: L) := by
  refine ⟨fun hy x hx => ?_, fun hn => hL (fun h => hn ((mem_square (inb := inb)).mpr h))⟩
  obtain ⟨z', a, b, rfl⟩ : ∃ (z' : Fin 1) (a b : Fin 128), x = ix3 z' a b := ⟨x 0, x 1, x 2, eq_ix3 x⟩
  have h1 : yy.val = 126 * p + a.val := by
    have e := congrArg (fun j : S1x1136x1136.Idx => (j 1).val) hx
    change 126 * p + 1 * a.val = yy.val at e
    omega
  have h2 : ww.val = 126 * q + b.val := by
    have e := congrArg (fun j : S1x1136x1136.Idx => (j 2).val) hx
    change 126 * q + 1 * b.val = ww.val at e
    omega
  subst hv
  show patchesOf c fh0 (ix4 (⟨p * 9 + q, by omega⟩ : Fin 81) (chan i) a b) = planeOf c fh0 i (ix3 z yy ww)
  unfold planeOf
  exact (Cert.PatchScatter.paddedAt_square _ (chan i) p q hp hq yy ww a b h1 h2
    (hrow.imp id fun hn => Cert.PatchScatter.above_next hn h1 h2 a.isLt b.isLt)
    (hcol.imp id fun hn => Cert.PatchScatter.left_of_next hn h1 h2 a.isLt b.isLt)).symm

set_option maxHeartbeats 4000000 in
/-- The plane after the body's stores is the padded plane of the point's channel: going down the stores from the
    last, patch 80 = (8, 8) first, each square's visible part is decided by its own store, and every pixel lies in
    some square. -/
theorem plane_value (c : Dev nD) (i : grid0.Coords) (arg2 : Memref sig .tc .vmem S1x1136x1136 .f32) (harg2 : arg2.IsWhole)
    (arg3 : Memref sig .tc .vmem S2x1x128x128 .f32) (harg3 : arg3.IsWhole) (fh0 : HeldBuf (F := F) c patchesM) (s0 : Vec F S2x1x128x128 .f32)
    (f : arg2.view.ty.Contents (Elt F)) :
    arg2.view.read (Elt F) (arg2.view.writes (Elt F) f (bodyRun c i arg2 harg2 arg3 harg3 fh0 s0).1) = planeOf c fh0 i := by
  funext y
  obtain ⟨z, yy, ww, rfl⟩ : ∃ (z : Fin 1) (yy ww : Fin 1136), y = ix3 z yy ww := ⟨y 0, y 1, y 2, eq_ix3 y⟩
  refine Cert.LastWrite.read_writes_of_decides arg2.view f (planeOf c fh0 i) (ix3 z yy ww) _ ?_
  refine square_decides c fh0 i 8 8 (by decide) (by decide) _ _
    ((stored_last arg3 _ _ _ _).trans (payload_eq c fh0 _ _ _ 80 (i 0).val (by decide) (i 0).isLt (k0_off81_eq i)))
    z yy ww (Or.inl rfl) (Or.inl rfl) _ (fun a80 => ?_)
  refine square_decides c fh0 i 8 7 (by decide) (by decide) _ _
    ((stored_odd arg3 _ _ _ _ _).trans (payload_eq c fh0 _ _ _ 79 (i 0).val (by decide) (i 0).isLt (k0_off80_eq i)))
    z yy ww (Or.inl rfl) (Or.inr a80) _ (fun a79 => ?_)
  refine square_decides c fh0 i 8 6 (by decide) (by decide) _ _
    ((stored_even arg3 _ _ _ _ _).trans (payload_eq c fh0 _ _ _ 78 (i 0).val (by decide) (i 0).isLt (k0_off79_eq i)))
    z yy ww (Or.inl rfl) (Or.inr a79) _ (fun a78 => ?_)
  refine square_decides c fh0 i 8 5 (by decide) (by decide) _ _
    ((stored_odd arg3 _ _ _ _ _).trans (payload_eq c fh0 _ _ _ 77 (i 0).val (by decide) (i 0).isLt (k0_off78_eq i)))
    z yy ww (Or.inl rfl) (Or.inr a78) _ (fun a77 => ?_)
  refine square_decides c fh0 i 8 4 (by decide) (by decide) _ _
    ((stored_even arg3 _ _ _ _ _).trans (payload_eq c fh0 _ _ _ 76 (i 0).val (by decide) (i 0).isLt (k0_off77_eq i)))
    z yy ww (Or.inl rfl) (Or.inr a77) _ (fun a76 => ?_)
  refine square_decides c fh0 i 8 3 (by decide) (by decide) _ _
    ((stored_odd arg3 _ _ _ _ _).trans (payload_eq c fh0 _ _ _ 75 (i 0).val (by decide) (i 0).isLt (k0_off76_eq i)))
    z yy ww (Or.inl rfl) (Or.inr a76) _ (fun a75 => ?_)
  refine square_decides c fh0 i 8 2 (by decide) (by decide) _ _
    ((stored_even arg3 _ _ _ _ _).trans (payload_eq c fh0 _ _ _ 74 (i 0).val (by decide) (i 0).isLt (k0_off75_eq i)))
    z yy ww (Or.inl rfl) (Or.inr a75) _ (fun a74 => ?_)
  refine square_decides c fh0 i 8 1 (by decide) (by decide) _ _
    ((stored_odd arg3 _ _ _ _ _).trans (payload_eq c fh0 _ _ _ 73 (i 0).val (by decide) (i 0).isLt (k0_off74_eq i)))
    z yy ww (Or.inl rfl) (Or.inr a74) _ (fun a73 => ?_)
  refine square_decides c fh0 i 8 0 (by decide) (by decide) _ _
    ((stored_even arg3 _ _ _ _ _).trans (payload_eq c fh0 _ _ _ 72 (i 0).val (by decide) (i 0).isLt (k0_off73_eq i)))
    z yy ww (Or.inl rfl) (Or.inr a73) _ (fun a72 => ?_)
  refine square_decides c fh0 i 7 8 (by decide) (by decide) _ _
    ((stored_odd arg3 _ _ _ _ _).trans (payload_eq c fh0 _ _ _ 71 (i 0).val (by decide) (i 0).isLt (k0_off72_eq i)))
    z yy ww (Or.inr a80) (Or.inl rfl) _ (fun a71 => ?_)
  refine square_decides c fh0 i 7 7 (by decide) (by decide) _ _
    ((stored_even arg3 _ _ _ _ _).trans (payload_eq c fh0 _ _ _ 70 (i 0).val (by decide) (i 0).isLt (k0_off71_eq i)))
    z yy ww (Or.inr a79) (Or.inr a71) _ (fun a70 => ?_)
  refine square_decides c fh0 i 7 6 (by decide) (by decide) _ _
    ((stored_odd arg3 _ _ _ _ _).trans (payload_eq c fh0 _ _ _ 69 (i 0).val (by decide) (i 0).isLt (k0_off70_eq i)))
    z yy ww (Or.inr a78) (Or.inr a70) _ (fun a69 => ?_)
  refine square_decides c fh0 i 7 5 (by decide) (by decide) _ _
    ((stored_even arg3 _ _ _ _ _).trans (payload_eq c fh0 _ _ _ 68 (i 0).val (by decide) (i 0).isLt (k0_off69_eq i)))
    z yy ww (Or.inr a77) (Or.inr a69) _ (fun a68 => ?_)
  refine square_decides c fh0 i 7 4 (by decide) (by decide) _ _
    ((stored_odd arg3 _ _ _ _ _).trans (payload_eq c fh0 _ _ _ 67 (i 0).val (by decide) (i 0).isLt (k0_off68_eq i)))
    z yy ww (Or.inr a76) (Or.inr a68) _ (fun a67 => ?_)
  refine square_decides c fh0 i 7 3 (by decide) (by decide) _ _
    ((stored_even arg3 _ _ _ _ _).trans (payload_eq c fh0 _ _ _ 66 (i 0).val (by decide) (i 0).isLt (k0_off67_eq i)))
    z yy ww (Or.inr a75) (Or.inr a67) _ (fun a66 => ?_)
  refine square_decides c fh0 i 7 2 (by decide) (by decide) _ _
    ((stored_odd arg3 _ _ _ _ _).trans (payload_eq c fh0 _ _ _ 65 (i 0).val (by decide) (i 0).isLt (k0_off66_eq i)))
    z yy ww (Or.inr a74) (Or.inr a66) _ (fun a65 => ?_)
  refine square_decides c fh0 i 7 1 (by decide) (by decide) _ _
    ((stored_even arg3 _ _ _ _ _).trans (payload_eq c fh0 _ _ _ 64 (i 0).val (by decide) (i 0).isLt (k0_off65_eq i)))
    z yy ww (Or.inr a73) (Or.inr a65) _ (fun a64 => ?_)
  refine square_decides c fh0 i 7 0 (by decide) (by decide) _ _
    ((stored_odd arg3 _ _ _ _ _).trans (payload_eq c fh0 _ _ _ 63 (i 0).val (by decide) (i 0).isLt (k0_off64_eq i)))
    z yy ww (Or.inr a72) (Or.inr a64) _ (fun a63 => ?_)
  refine square_decides c fh0 i 6 8 (by decide) (by decide) _ _
    ((stored_even arg3 _ _ _ _ _).trans (payload_eq c fh0 _ _ _ 62 (i 0).val (by decide) (i 0).isLt (k0_off63_eq i)))
    z yy ww (Or.inr a71) (Or.inl rfl) _ (fun a62 => ?_)
  refine square_decides c fh0 i 6 7 (by decide) (by decide) _ _
    ((stored_odd arg3 _ _ _ _ _).trans (payload_eq c fh0 _ _ _ 61 (i 0).val (by decide) (i 0).isLt (k0_off62_eq i)))
    z yy ww (Or.inr a70) (Or.inr a62) _ (fun a61 => ?_)
  refine square_decides c fh0 i 6 6 (by decide) (by decide) _ _
    ((stored_even arg3 _ _ _ _ _).trans (payload_eq c fh0 _ _ _ 60 (i 0).val (by decide) (i 0).isLt (k0_off61_eq i)))
    z yy ww (Or.inr a69) (Or.inr a61) _ (fun a60 => ?_)
  refine square_decides c fh0 i 6 5 (by decide) (by decide) _ _
    ((stored_odd arg3 _ _ _ _ _).trans (payload_eq c fh0 _ _ _ 59 (i 0).val (by decide) (i 0).isLt (k0_off60_eq i)))
    z yy ww (Or.inr a68) (Or.inr a60) _ (fun a59 => ?_)
  refine square_decides c fh0 i 6 4 (by decide) (by decide) _ _
    ((stored_even arg3 _ _ _ _ _).trans (payload_eq c fh0 _ _ _ 58 (i 0).val (by decide) (i 0).isLt (k0_off59_eq i)))
    z yy ww (Or.inr a67) (Or.inr a59) _ (fun a58 => ?_)
  refine square_decides c fh0 i 6 3 (by decide) (by decide) _ _
    ((stored_odd arg3 _ _ _ _ _).trans (payload_eq c fh0 _ _ _ 57 (i 0).val (by decide) (i 0).isLt (k0_off58_eq i)))
    z yy ww (Or.inr a66) (Or.inr a58) _ (fun a57 => ?_)
  refine square_decides c fh0 i 6 2 (by decide) (by decide) _ _
    ((stored_even arg3 _ _ _ _ _).trans (payload_eq c fh0 _ _ _ 56 (i 0).val (by decide) (i 0).isLt (k0_off57_eq i)))
    z yy ww (Or.inr a65) (Or.inr a57) _ (fun a56 => ?_)
  refine square_decides c fh0 i 6 1 (by decide) (by decide) _ _
    ((stored_odd arg3 _ _ _ _ _).trans (payload_eq c fh0 _ _ _ 55 (i 0).val (by decide) (i 0).isLt (k0_off56_eq i)))
    z yy ww (Or.inr a64) (Or.inr a56) _ (fun a55 => ?_)
  refine square_decides c fh0 i 6 0 (by decide) (by decide) _ _
    ((stored_even arg3 _ _ _ _ _).trans (payload_eq c fh0 _ _ _ 54 (i 0).val (by decide) (i 0).isLt (k0_off55_eq i)))
    z yy ww (Or.inr a63) (Or.inr a55) _ (fun a54 => ?_)
  refine square_decides c fh0 i 5 8 (by decide) (by decide) _ _
    ((stored_odd arg3 _ _ _ _ _).trans (payload_eq c fh0 _ _ _ 53 (i 0).val (by decide) (i 0).isLt (k0_off54_eq i)))
    z yy ww (Or.inr a62) (Or.inl rfl) _ (fun a53 => ?_)
  refine square_decides c fh0 i 5 7 (by decide) (by decide) _ _
    ((stored_even arg3 _ _ _ _ _).trans (payload_eq c fh0 _ _ _ 52 (i 0).val (by decide) (i 0).isLt (k0_off53_eq i)))
    z yy ww (Or.inr a61) (Or.inr a53) _ (fun a52 => ?_)
  refine square_decides c fh0 i 5 6 (by decide) (by decide) _ _
    ((stored_odd arg3 _ _ _ _ _).trans (payload_eq c fh0 _ _ _ 51 (i 0).val (by decide) (i 0).isLt (k0_off52_eq i)))
    z yy ww (Or.inr a60) (Or.inr a52) _ (fun a51 => ?_)
  refine square_decides c fh0 i 5 5 (by decide) (by decide) _ _
    ((stored_even arg3 _ _ _ _ _).trans (payload_eq c fh0 _ _ _ 50 (i 0).val (by decide) (i 0).isLt (k0_off51_eq i)))
    z yy ww (Or.inr a59) (Or.inr a51) _ (fun a50 => ?_)
  refine square_decides c fh0 i 5 4 (by decide) (by decide) _ _
    ((stored_odd arg3 _ _ _ _ _).trans (payload_eq c fh0 _ _ _ 49 (i 0).val (by decide) (i 0).isLt (k0_off50_eq i)))
    z yy ww (Or.inr a58) (Or.inr a50) _ (fun a49 => ?_)
  refine square_decides c fh0 i 5 3 (by decide) (by decide) _ _
    ((stored_even arg3 _ _ _ _ _).trans (payload_eq c fh0 _ _ _ 48 (i 0).val (by decide) (i 0).isLt (k0_off49_eq i)))
    z yy ww (Or.inr a57) (Or.inr a49) _ (fun a48 => ?_)
  refine square_decides c fh0 i 5 2 (by decide) (by decide) _ _
    ((stored_odd arg3 _ _ _ _ _).trans (payload_eq c fh0 _ _ _ 47 (i 0).val (by decide) (i 0).isLt (k0_off48_eq i)))
    z yy ww (Or.inr a56) (Or.inr a48) _ (fun a47 => ?_)
  refine square_decides c fh0 i 5 1 (by decide) (by decide) _ _
    ((stored_even arg3 _ _ _ _ _).trans (payload_eq c fh0 _ _ _ 46 (i 0).val (by decide) (i 0).isLt (k0_off47_eq i)))
    z yy ww (Or.inr a55) (Or.inr a47) _ (fun a46 => ?_)
  refine square_decides c fh0 i 5 0 (by decide) (by decide) _ _
    ((stored_odd arg3 _ _ _ _ _).trans (payload_eq c fh0 _ _ _ 45 (i 0).val (by decide) (i 0).isLt (k0_off46_eq i)))
    z yy ww (Or.inr a54) (Or.inr a46) _ (fun a45 => ?_)
  refine square_decides c fh0 i 4 8 (by decide) (by decide) _ _
    ((stored_even arg3 _ _ _ _ _).trans (payload_eq c fh0 _ _ _ 44 (i 0).val (by decide) (i 0).isLt (k0_off45_eq i)))
    z yy ww (Or.inr a53) (Or.inl rfl) _ (fun a44 => ?_)
  refine square_decides c fh0 i 4 7 (by decide) (by decide) _ _
    ((stored_odd arg3 _ _ _ _ _).trans (payload_eq c fh0 _ _ _ 43 (i 0).val (by decide) (i 0).isLt (k0_off44_eq i)))
    z yy ww (Or.inr a52) (Or.inr a44) _ (fun a43 => ?_)
  refine square_decides c fh0 i 4 6 (by decide) (by decide) _ _
    ((stored_even arg3 _ _ _ _ _).trans (payload_eq c fh0 _ _ _ 42 (i 0).val (by decide) (i 0).isLt (k0_off43_eq i)))
    z yy ww (Or.inr a51) (Or.inr a43) _ (fun a42 => ?_)
  refine square_decides c fh0 i 4 5 (by decide) (by decide) _ _
    ((stored_odd arg3 _ _ _ _ _).trans (payload_eq c fh0 _ _ _ 41 (i 0).val (by decide) (i 0).isLt (k0_off42_eq i)))
    z yy ww (Or.inr a50) (Or.inr a42) _ (fun a41 => ?_)
  refine square_decides c fh0 i 4 4 (by decide) (by decide) _ _
    ((stored_even arg3 _ _ _ _ _).trans (payload_eq c fh0 _ _ _ 40 (i 0).val (by decide) (i 0).isLt (k0_off41_eq i)))
    z yy ww (Or.inr a49) (Or.inr a41) _ (fun a40 => ?_)
  refine square_decides c fh0 i 4 3 (by decide) (by decide) _ _
    ((stored_odd arg3 _ _ _ _ _).trans (payload_eq c fh0 _ _ _ 39 (i 0).val (by decide) (i 0).isLt (k0_off40_eq i)))
    z yy ww (Or.inr a48) (Or.inr a40) _ (fun a39 => ?_)
  refine square_decides c fh0 i 4 2 (by decide) (by decide) _ _
    ((stored_even arg3 _ _ _ _ _).trans (payload_eq c fh0 _ _ _ 38 (i 0).val (by decide) (i 0).isLt (k0_off39_eq i)))
    z yy ww (Or.inr a47) (Or.inr a39) _ (fun a38 => ?_)
  refine square_decides c fh0 i 4 1 (by decide) (by decide) _ _
    ((stored_odd arg3 _ _ _ _ _).trans (payload_eq c fh0 _ _ _ 37 (i 0).val (by decide) (i 0).isLt (k0_off38_eq i)))
    z yy ww (Or.inr a46) (Or.inr a38) _ (fun a37 => ?_)
  refine square_decides c fh0 i 4 0 (by decide) (by decide) _ _
    ((stored_even arg3 _ _ _ _ _).trans (payload_eq c fh0 _ _ _ 36 (i 0).val (by decide) (i 0).isLt (k0_off37_eq i)))
    z yy ww (Or.inr a45) (Or.inr a37) _ (fun a36 => ?_)
  refine square_decides c fh0 i 3 8 (by decide) (by decide) _ _
    ((stored_odd arg3 _ _ _ _ _).trans (payload_eq c fh0 _ _ _ 35 (i 0).val (by decide) (i 0).isLt (k0_off36_eq i)))
    z yy ww (Or.inr a44) (Or.inl rfl) _ (fun a35 => ?_)
  refine square_decides c fh0 i 3 7 (by decide) (by decide) _ _
    ((stored_even arg3 _ _ _ _ _).trans (payload_eq c fh0 _ _ _ 34 (i 0).val (by decide) (i 0).isLt (k0_off35_eq i)))
    z yy ww (Or.inr a43) (Or.inr a35) _ (fun a34 => ?_)
  refine square_decides c fh0 i 3 6 (by decide) (by decide) _ _
    ((stored_odd arg3 _ _ _ _ _).trans (payload_eq c fh0 _ _ _ 33 (i 0).val (by decide) (i 0).isLt (k0_off34_eq i)))
    z yy ww (Or.inr a42) (Or.inr a34) _ (fun a33 => ?_)
  refine square_decides c fh0 i 3 5 (by decide) (by decide) _ _
    ((stored_even arg3 _ _ _ _ _).trans (payload_eq c fh0 _ _ _ 32 (i 0).val (by decide) (i 0).isLt (k0_off33_eq i)))
    z yy ww (Or.inr a41) (Or.inr a33) _ (fun a32 => ?_)
  refine square_decides c fh0 i 3 4 (by decide) (by decide) _ _
    ((stored_odd arg3 _ _ _ _ _).trans (payload_eq c fh0 _ _ _ 31 (i 0).val (by decide) (i 0).isLt (k0_off32_eq i)))
    z yy ww (Or.inr a40) (Or.inr a32) _ (fun a31 => ?_)
  refine square_decides c fh0 i 3 3 (by decide) (by decide) _ _
    ((stored_even arg3 _ _ _ _ _).trans (payload_eq c fh0 _ _ _ 30 (i 0).val (by decide) (i 0).isLt (k0_off31_eq i)))
    z yy ww (Or.inr a39) (Or.inr a31) _ (fun a30 => ?_)
  refine square_decides c fh0 i 3 2 (by decide) (by decide) _ _
    ((stored_odd arg3 _ _ _ _ _).trans (payload_eq c fh0 _ _ _ 29 (i 0).val (by decide) (i 0).isLt (k0_off30_eq i)))
    z yy ww (Or.inr a38) (Or.inr a30) _ (fun a29 => ?_)
  refine square_decides c fh0 i 3 1 (by decide) (by decide) _ _
    ((stored_even arg3 _ _ _ _ _).trans (payload_eq c fh0 _ _ _ 28 (i 0).val (by decide) (i 0).isLt (k0_off29_eq i)))
    z yy ww (Or.inr a37) (Or.inr a29) _ (fun a28 => ?_)
  refine square_decides c fh0 i 3 0 (by decide) (by decide) _ _
    ((stored_odd arg3 _ _ _ _ _).trans (payload_eq c fh0 _ _ _ 27 (i 0).val (by decide) (i 0).isLt (k0_off28_eq i)))
    z yy ww (Or.inr a36) (Or.inr a28) _ (fun a27 => ?_)
  refine square_decides c fh0 i 2 8 (by decide) (by decide) _ _
    ((stored_even arg3 _ _ _ _ _).trans (payload_eq c fh0 _ _ _ 26 (i 0).val (by decide) (i 0).isLt (k0_off27_eq i)))
    z yy ww (Or.inr a35) (Or.inl rfl) _ (fun a26 => ?_)
  refine square_decides c fh0 i 2 7 (by decide) (by decide) _ _
    ((stored_odd arg3 _ _ _ _ _).trans (payload_eq c fh0 _ _ _ 25 (i 0).val (by decide) (i 0).isLt (k0_off26_eq i)))
    z yy ww (Or.inr a34) (Or.inr a26) _ (fun a25 => ?_)
  refine square_decides c fh0 i 2 6 (by decide) (by decide) _ _
    ((stored_even arg3 _ _ _ _ _).trans (payload_eq c fh0 _ _ _ 24 (i 0).val (by decide) (i 0).isLt (k0_off25_eq i)))
    z yy ww (Or.inr a33) (Or.inr a25) _ (fun a24 => ?_)
  refine square_decides c fh0 i 2 5 (by decide) (by decide) _ _
    ((stored_odd arg3 _ _ _ _ _).trans (payload_eq c fh0 _ _ _ 23 (i 0).val (by decide) (i 0).isLt (k0_off24_eq i)))
    z yy ww (Or.inr a32) (Or.inr a24) _ (fun a23 => ?_)
  refine square_decides c fh0 i 2 4 (by decide) (by decide) _ _
    ((stored_even arg3 _ _ _ _ _).trans (payload_eq c fh0 _ _ _ 22 (i 0).val (by decide) (i 0).isLt (k0_off23_eq i)))
    z yy ww (Or.inr a31) (Or.inr a23) _ (fun a22 => ?_)
  refine square_decides c fh0 i 2 3 (by decide) (by decide) _ _
    ((stored_odd arg3 _ _ _ _ _).trans (payload_eq c fh0 _ _ _ 21 (i 0).val (by decide) (i 0).isLt (k0_off22_eq i)))
    z yy ww (Or.inr a30) (Or.inr a22) _ (fun a21 => ?_)
  refine square_decides c fh0 i 2 2 (by decide) (by decide) _ _
    ((stored_even arg3 _ _ _ _ _).trans (payload_eq c fh0 _ _ _ 20 (i 0).val (by decide) (i 0).isLt (k0_off21_eq i)))
    z yy ww (Or.inr a29) (Or.inr a21) _ (fun a20 => ?_)
  refine square_decides c fh0 i 2 1 (by decide) (by decide) _ _
    ((stored_odd arg3 _ _ _ _ _).trans (payload_eq c fh0 _ _ _ 19 (i 0).val (by decide) (i 0).isLt (k0_off20_eq i)))
    z yy ww (Or.inr a28) (Or.inr a20) _ (fun a19 => ?_)
  refine square_decides c fh0 i 2 0 (by decide) (by decide) _ _
    ((stored_even arg3 _ _ _ _ _).trans (payload_eq c fh0 _ _ _ 18 (i 0).val (by decide) (i 0).isLt (k0_off19_eq i)))
    z yy ww (Or.inr a27) (Or.inr a19) _ (fun a18 => ?_)
  refine square_decides c fh0 i 1 8 (by decide) (by decide) _ _
    ((stored_odd arg3 _ _ _ _ _).trans (payload_eq c fh0 _ _ _ 17 (i 0).val (by decide) (i 0).isLt (k0_off18_eq i)))
    z yy ww (Or.inr a26) (Or.inl rfl) _ (fun a17 => ?_)
  refine square_decides c fh0 i 1 7 (by decide) (by decide) _ _
    ((stored_even arg3 _ _ _ _ _).trans (payload_eq c fh0 _ _ _ 16 (i 0).val (by decide) (i 0).isLt (k0_off17_eq i)))
    z yy ww (Or.inr a25) (Or.inr a17) _ (fun a16 => ?_)
  refine square_decides c fh0 i 1 6 (by decide) (by decide) _ _
    ((stored_odd arg3 _ _ _ _ _).trans (payload_eq c fh0 _ _ _ 15 (i 0).val (by decide) (i 0).isLt (k0_off16_eq i)))
    z yy ww (Or.inr a24) (Or.inr a16) _ (fun a15 => ?_)
  refine square_decides c fh0 i 1 5 (by decide) (by decide) _ _
    ((stored_even arg3 _ _ _ _ _).trans (payload_eq c fh0 _ _ _ 14 (i 0).val (by decide) (i 0).isLt (k0_off15_eq i)))
    z yy ww (Or.inr a23) (Or.inr a15) _ (fun a14 => ?_)
  refine square_decides c fh0 i 1 4 (by decide) (by decide) _ _
    ((stored_odd arg3 _ _ _ _ _).trans (payload_eq c fh0 _ _ _ 13 (i 0).val (by decide) (i 0).isLt (k0_off14_eq i)))
    z yy ww (Or.inr a22) (Or.inr a14) _ (fun a13 => ?_)
  refine square_decides c fh0 i 1 3 (by decide) (by decide) _ _
    ((stored_even arg3 _ _ _ _ _).trans (payload_eq c fh0 _ _ _ 12 (i 0).val (by decide) (i 0).isLt (k0_off13_eq i)))
    z yy ww (Or.inr a21) (Or.inr a13) _ (fun a12 => ?_)
  refine square_decides c fh0 i 1 2 (by decide) (by decide) _ _
    ((stored_odd arg3 _ _ _ _ _).trans (payload_eq c fh0 _ _ _ 11 (i 0).val (by decide) (i 0).isLt (k0_off12_eq i)))
    z yy ww (Or.inr a20) (Or.inr a12) _ (fun a11 => ?_)
  refine square_decides c fh0 i 1 1 (by decide) (by decide) _ _
    ((stored_even arg3 _ _ _ _ _).trans (payload_eq c fh0 _ _ _ 10 (i 0).val (by decide) (i 0).isLt (k0_off11_eq i)))
    z yy ww (Or.inr a19) (Or.inr a11) _ (fun a10 => ?_)
  refine square_decides c fh0 i 1 0 (by decide) (by decide) _ _
    ((stored_odd arg3 _ _ _ _ _).trans (payload_eq c fh0 _ _ _ 9 (i 0).val (by decide) (i 0).isLt (k0_off10_eq i)))
    z yy ww (Or.inr a18) (Or.inr a10) _ (fun a9 => ?_)
  refine square_decides c fh0 i 0 8 (by decide) (by decide) _ _
    ((stored_even arg3 _ _ _ _ _).trans (payload_eq c fh0 _ _ _ 8 (i 0).val (by decide) (i 0).isLt (k0_off9_eq i)))
    z yy ww (Or.inr a17) (Or.inl rfl) _ (fun a8 => ?_)
  refine square_decides c fh0 i 0 7 (by decide) (by decide) _ _
    ((stored_odd arg3 _ _ _ _ _).trans (payload_eq c fh0 _ _ _ 7 (i 0).val (by decide) (i 0).isLt (k0_off8_eq i)))
    z yy ww (Or.inr a16) (Or.inr a8) _ (fun a7 => ?_)
  refine square_decides c fh0 i 0 6 (by decide) (by decide) _ _
    ((stored_even arg3 _ _ _ _ _).trans (payload_eq c fh0 _ _ _ 6 (i 0).val (by decide) (i 0).isLt (k0_off7_eq i)))
    z yy ww (Or.inr a15) (Or.inr a7) _ (fun a6 => ?_)
  refine square_decides c fh0 i 0 5 (by decide) (by decide) _ _
    ((stored_odd arg3 _ _ _ _ _).trans (payload_eq c fh0 _ _ _ 5 (i 0).val (by decide) (i 0).isLt (k0_off6_eq i)))
    z yy ww (Or.inr a14) (Or.inr a6) _ (fun a5 => ?_)
  refine square_decides c fh0 i 0 4 (by decide) (by decide) _ _
    ((stored_even arg3 _ _ _ _ _).trans (payload_eq c fh0 _ _ _ 4 (i 0).val (by decide) (i 0).isLt (k0_off5_eq i)))
    z yy ww (Or.inr a13) (Or.inr a5) _ (fun a4 => ?_)
  refine square_decides c fh0 i 0 3 (by decide) (by decide) _ _
    ((stored_odd arg3 _ _ _ _ _).trans (payload_eq c fh0 _ _ _ 3 (i 0).val (by decide) (i 0).isLt (k0_off4_eq i)))
    z yy ww (Or.inr a12) (Or.inr a4) _ (fun a3 => ?_)
  refine square_decides c fh0 i 0 2 (by decide) (by decide) _ _
    ((stored_even arg3 _ _ _ _ _).trans (payload_eq c fh0 _ _ _ 2 (i 0).val (by decide) (i 0).isLt (k0_off3_eq i)))
    z yy ww (Or.inr a11) (Or.inr a3) _ (fun a2 => ?_)
  refine square_decides c fh0 i 0 1 (by decide) (by decide) _ _
    ((stored_odd arg3 _ _ _ _ _).trans (payload_eq c fh0 _ _ _ 1 (i 0).val (by decide) (i 0).isLt (k0_off2_eq i)))
    z yy ww (Or.inr a10) (Or.inr a2) _ (fun a1 => ?_)
  refine square_decides c fh0 i 0 0 (by decide) (by decide) _ _
    ((stored_even arg3 _ _ _ _ _).trans (payload_eq c fh0 _ _ _ 0 (i 0).val (by decide) (i 0).isLt (k0_off1_eq i)))
    z yy ww (Or.inr a9) (Or.inr a1) _ (fun a0 => ?_)
  refine Cert.PatchScatter.covered yy ww (fun p q hp hq => ?_)
  interval_cases p <;> interval_cases q <;> assumption

end Cert.KernelIdeal.Scatter

end
-- ==== Proof.IdealFrame.lean ====
/-
  The frame run of the overlap-scatter kernel.

  The proof data: the arrays as the region finds them; after the body at a grid point the output's staging buffer
  holds the padded plane of the point's channel; the region invariant is the scratch buffer and the generator
  register at anything, the body's two cells at zero and the patches array whole at its launch contents; nothing
  is owed. The body obligation at a point is the body's run with the stores it leaves read as that plane.
-/
import proofs.«114181_j72378788872306_2_alg».proof.Proof.IdealPlane

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output's current staging memref at a grid point, and its wholeness. -/
abbrev stageAt (t : Fin cfg0.N) : Memref sig .tc .vmem S1x1136x1136 .f32 := win0_0.stage (cfg0.slots t 0)
abbrev stageAt_whole (t : Fin cfg0.N) : (stageAt t).IsWhole := hstage0_0 ((cfg0.slots t 0).cast nbuf0_0)

/-- The plane the body leaves at grid point `t`: the padded plane of channel `t` of the launch patches. -/
def planeAt (c : Dev nD) (t : Fin cfg0.N) : S1x1136x1136.Idx → Elt F .f32 :=
  planeOf c (V m c main_arg0) (grid0.coords t)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => planeAt m c t
  Φ _ := Pipeline.ΦD ownCells spec0 moved (V m) c
  q _ := fullShare
  owed _ := 0

theorem A_eq (c : Dev nD) (w : Fin cfg0.W) : (dats m 0 c).A w = V m c (Pipeline.arrRef spec0 w) := by
  dsimp only [dats]

theorem after_plane (c : Dev nD) (t : Fin cfg0.N) : (dats m 0 c).after 0 t = planeAt m c t := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stageAt t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (stageAt t) fullShare ((dats m 0 c).after 0 t))

/-- The body at any point: the invariant hands it the scratch buffer, the register, its two cells at zero and the
    patches array, and takes them back as they were; the staging buffer comes back holding the channel's plane. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_plane]
  rw [show (dats m 0 c).Φ t.castSucc = Pipeline.ΦD ownCells spec0 moved (V m) c from rfl, inv_eq]
  unfold Dat.owesAt Pipeline.owesWithin
  rw [show (dats m 0 c).owed t.castSucc = 0 from rfl, show (dats m 0 c).owed t.succ = 0 from rfl]
  iintro ⟨⟨⟨%s0, HS0⟩, Hg, ⟨Hq0, Hq1⟩, Hh0⟩, ⟨%W, -, HW⟩, ⟨%d1, H1⟩⟩
  iapply ((bodyRun c (grid0.coords t) (stageAt t) (stageAt_whole t) slotsM (Memref.isWhole_whole _) (V m c main_arg0) s0).2 W _)
  isplitl [H1]; · iexists _; iexact H1
  isplitl [HS0]; · iexact HS0
  isplitl [Hq0]; · iexact Hq0
  isplitl [Hq1]; · iexact Hq1
  isplitl [Hh0]; · iexact Hh0
  isplitl [HW]; · iexact HW
  iintro ⟨⟨%e1, H1⟩, HS0, Hq0, Hq1, Hh0, ⟨%W', HW'⟩⟩
  isplitl [HS0 Hg Hq0 Hq1 Hh0]
  · isplitl [HS0]; · iexact HS0
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  unfold owns; iexists _; isplitr
  swap; · iexact H1
  ipureintro
  exact plane_value c (grid0.coords t) (stageAt t) (stageAt_whole t) slotsM (Memref.isWhole_whole _) (V m c main_arg0) s0 e1

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates with the output array at what the proof data says and every
    other unscoped buffer as the crop leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V₀ := V0 m) (opss := [hostOps1]) (hsub := crop_sub) (hfresh := sfx_fresh) (hkeep := sfx_keeps)
    (hmain := mainAround m Variants.none) (hA := A_eq m) (hin := fun _ => .rfl) (hout := fun _ => .rfl)

/-- The frame: the program runs and leaves the patches array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_run m ρ (dats m) (run_main m ρ)

end Cert.KernelIdeal.Scatter

end
-- ==== Proof.IdealValue.lean ====
/-
  The result of the overlap-scatter program as one function of the patches.

  Grid point t writes back the padded plane of channel t as block t of the output array, whole; the sixty-four
  blocks tile the array, so it ends holding all the padded planes. The host then crops every plane to its first
  1024 rows and columns, where the last patch covering a pixel is patch (y / 126, w / 126): the result is the
  image of the specification.
-/
import proofs.«114181_j72378788872306_2_alg».proof.Proof.IdealFrame
import Idealize.ShloMosaic.Lib.Pipeline.Value
import Idealize.ShloMosaic.Lib.StableHlo.Run

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- All padded planes of the launch patches: what the output array ends holding. -/
def paddedOf (c : Dev nD) : S64x1136x1136.Idx → Elt F .f32 :=
  Cert.PatchScatter.padded (patchesOf c (V m c main_arg0))

/-- The output's index map over the grid: point t's block is block (channel of t, 0, 0), and every channel is some
    point's. -/
theorem index_facts : ∀ t : Fin cfg0.N, win0_0.index t (0 : Fin 3) = (grid0.coords t 0).val
    ∧ win0_0.index t (1 : Fin 3) = 0 ∧ win0_0.index t (2 : Fin 3) = 0 :=
  (by decide +kernel : ∀ t : Fin grid0.N, _)

theorem index_onto : ∀ q : Fin 64, ∃ t : Fin cfg0.N, win0_0.index t = ![q.val, 0, 0] :=
  (by decide +kernel : ∀ q : Fin 64, ∃ t : Fin grid0.N, win0_0.index t = ![q.val, 0, 0])

/-- What point t writes back is block t of the padded planes. -/
theorem flushed_plane (c : Dev nD) (t : Fin cfg0.N) :
    (dats m 0 c).flushed 0 t = ((cfg0.win 0).blk t).view.read (Elt F) (paddedOf m c) := by
  show (cfg0.win 0).cut (grid0.coords t) ((dats m 0 c).after 0 t) = _
  rw [after_plane]
  obtain ⟨e0, e1, e2⟩ := index_facts t
  funext j
  show planeAt m c t j = paddedOf m c (((cfg0.win 0).blk t).view.emb j)
  unfold planeAt planeOf paddedOf Cert.PatchScatter.padded
  have h0 : (((cfg0.win 0).blk t).view.emb j) 0 = chan (grid0.coords t) := Fin.ext (by
    show win0_0.index t (0 : Fin 3) * 1 + 1 * (j 0).val = (grid0.coords t 0).val
    have hj : (j 0).val < 1 := (j 0).isLt
    omega)
  have h1 : (((cfg0.win 0).blk t).view.emb j) 1 = j 1 := Fin.ext (by
    show win0_0.index t (1 : Fin 3) * 1136 + 1 * (j 1).val = (j 1).val
    omega)
  have h2 : (((cfg0.win 0).blk t).view.emb j) 2 = j 2 := Fin.ext (by
    show win0_0.index t (2 : Fin 3) * 1136 + 1 * (j 2).val = (j 2).val
    omega)
  rw [h0, h1, h2]

/-- An index of the array is in point t's block when each coordinate is in the block's range on its axis. -/
theorem mem_block (t : Fin cfg0.N) (i : S64x1136x1136.Idx) :
    i ∈ ((cfg0.win 0).blk t).view.set ↔ ∀ a : Fin 3, win0_0.index t a * S1x1136x1136.size a ≤ (i a).val ∧ (i a).val < win0_0.index t a * S1x1136x1136.size a + S1x1136x1136.size a := by
  show i ∈ ((View.whole main_v0).slice (win0_0.rect t)).set ↔ _
  rw [View.set_slice_whole, Rect.mem_set_unit]
  exact Iff.rfl

/-- The blocks tile the array: index (q, y, w) is in the block of the point whose channel is q. -/
theorem blocks_cover (i : S64x1136x1136.Idx) :
    ∃ t : Fin cfg0.N, (cfg0.win 0).flush t = true ∧ i ∈ ((cfg0.win 0).blk t).view.set := by
  obtain ⟨t, ht⟩ := index_onto (i 0)
  have q0 : win0_0.index t (0 : Fin 3) = (i 0).val := congrFun ht 0
  have q1 : win0_0.index t (1 : Fin 3) = 0 := congrFun ht 1
  have q2 : win0_0.index t (2 : Fin 3) = 0 := congrFun ht 2
  have hi1 : (i 1).val < 1136 := (i 1).isLt
  have hi2 : (i 2).val < 1136 := (i 2).isLt
  refine ⟨t, flush0_0 t, ?_⟩
  rw [mem_block]
  intro a
  match a with
  | ⟨0, _⟩ => show win0_0.index t (0 : Fin 3) * 1 ≤ (i 0).val ∧ (i 0).val < win0_0.index t (0 : Fin 3) * 1 + 1; omega
  | ⟨1, _⟩ => show win0_0.index t (1 : Fin 3) * 1136 ≤ (i 1).val ∧ (i 1).val < win0_0.index t (1 : Fin 3) * 1136 + 1136; omega
  | ⟨2, _⟩ => show win0_0.index t (2 : Fin 3) * 1136 ≤ (i 2).val ∧ (i 2).val < win0_0.index t (2 : Fin 3) * 1136 + 1136; omega

/-- The output array after the region: all padded planes. -/
theorem padded_final (c : Dev nD) : (dats m 0 c).arrAt 0 cfg0.N = paddedOf m c :=
  (dats m 0 c).arrAt_eq_of_cover 0 (paddedOf m c) (fun t _ => flushed_plane m c t) blocks_cover

/-- The crop of the padded planes is the image of the specification. -/
theorem crop_padded (c : Dev nD) :
    extractStridedSlice S64x1024x1024 ![0, 0, 0] (paddedOf m c) slices_S64x1136x1136_S64x1024x1024_0_0_0
      = Cert.PatchScatter.image (patchesOf c (V m c main_arg0)) := by
  funext j
  obtain ⟨q, y, w, rfl⟩ : ∃ (q : Fin 64) (y w : Fin 1024), j = ix3 q y w := ⟨j 0, j 1, j 2, eq_ix3 j⟩
  refine Eq.trans ?_ (Cert.PatchScatter.paddedAt_crop (patchesOf c (V m c main_arg0)) q y w)
  show Cert.PatchScatter.paddedAt (patchesOf c (V m c main_arg0)) _ _ _ = _
  congr 1 <;> exact Fin.ext (Nat.zero_add _)

/-- The result buffer after the crop. -/
theorem result_after (c : Dev nD) :
    Pipeline.afterTail₀ cfgs (dats m) 0 (V0 m) [hostOps1] c main_v1 = Cert.PatchScatter.image (patchesOf c (V m c main_arg0)) := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_v0) = paddedOf m c from
    (Pipeline.withArrays_arr spec0 launch0.win.arr_inj c _ _ 0).trans (padded_final m c)]
  exact crop_padded m c

/-- The run, read: every weakly fair execution terminates with the result at the image of the launch patches and
    the patches unchanged. -/
theorem run : θ_run defs (onTc (τ := τ) (main (F := F))) ⟨m, fun _ => 0, ρ⟩ (fun r => ∀ c : Dev nD,
      r.2.mem ((c.tc : Thread nD τ).loc main_v1) = Cert.PatchScatter.image (patchesOf c (V m c main_arg0))
      ∧ r.2.mem ((c.tc : Thread nD τ).loc main_arg0) = m ((c.tc : Thread nD τ).loc main_arg0)) :=
  (θ_run defs _ _).mono (fun _ h c =>
    ⟨((h c).2 main_v1 (Pipeline.mem_restRefs_of main_v1 (by decide) (by decide))).trans (result_after m c),
     ((h c).2 main_arg0 (Pipeline.mem_restRefs_of main_arg0 (by decide) (by decide))).trans (patches_after m (dats m) c)⟩)
    (run_main m ρ)

end Cert.KernelIdeal.Scatter

end
-- ==== Proof.RefTerm.lean ====
/-
  The reference as one pure term of its argument.

  The reference computes, for the patches x : [81, 64, 128, 128], the image out[c, y, w] =
  x[patch(y, w), c, off(y), off(w)] with one gather: the start indices [1024, 1024, 3] hold, at (y, w), the
  triple (patch(y, w), off(y), off(w)), where for a coordinate y below 1024
      q(y)        = min (floor (y / 126)) 8          (the patch row or column),
      off(y)      = y - q(y) * 126                    (the offset inside the patch),
      patch(y, w) = q(y) * 9 + q(w),
  each followed by the wrap of a negative index (add the extent when below zero). The start indices do not
  depend on x. `floorDivide` is the program's floor division (its function floor_divide) of a vector of 32-bit
  integers by a scalar, operation by operation: the truncating quotient, less one where the signs differ and the
  remainder is not zero.
-/
import proofs.«114181_j72378788872306_2_alg».proof.Proof.Gen.ReferenceIdeal

noncomputable section

namespace Cert.ReferenceIdeal.RefValue

open Cert.ReferenceIdeal Cert.ReferenceIdeal.Gen Idealize.ShloMosaic

/-- Floor division of a vector by a scalar, operation by operation: the truncating quotient `a / b`, less one
    where sign a ≠ sign b and the remainder a rem b is not zero. -/
def floorDivide (a : IVec S1024 32) (b : IVec S_ 32) : IVec S1024 32 :=
  let v0 : IVec S_ 32 := id b
  let v1 : IVec S1024 32 := broadcastInDim S1024 ![] bcast_S_S1024 v0
  let v2 : IVec S1024 32 := Host.divsi a v1
  let v3 : IVec S1024 32 := signi a
  let v4 : IVec S_ 32 := signi v0
  let v5 : IVec S1024 32 := broadcastInDim S1024 ![] bcast_S_S1024 v4
  let v6 : IVec S1024 1 := cmpi .ne v3 v5
  let v7 : IVec S1024 32 := broadcastInDim S1024 ![] bcast_S_S1024 v0
  let v8 : IVec S1024 32 := Host.remsi a v7
  let c : IVec S_ 32 := constantI S_ 32 0#32
  let v9 : IVec S1024 32 := broadcastInDim S1024 ![] bcast_S_S1024 c
  let v10 : IVec S1024 1 := cmpi .ne v8 v9
  let v11 : IVec S1024 1 := andi v6 v10
  let c_0 : IVec S_ 32 := constantI S_ 32 1#32
  let v12 : IVec S1024 32 := broadcastInDim S1024 ![] bcast_S_S1024 c_0
  let v13 : IVec S1024 32 := subi v2 v12
  select v11 v13 v2

/-- The coordinates 0 … 1023. -/
def coords : IVec S1024 32 := iotaInDim S1024 32 0

/-- q(y) = min (floor (y / 126)) 8 at every coordinate: the patch row (or column). -/
def patchCoord : IVec S1024 32 :=
  minsi (floorDivide coords (constantI S_ 32 126#32)) (broadcastInDim S1024 ![] bcast_S_S1024 (constantI S_ 32 8#32))

/-- off(y) = y - q(y) * 126 at every coordinate: the offset inside the patch. -/
def patchOffset : IVec S1024 32 :=
  subi coords (muli patchCoord (broadcastInDim S1024 ![] bcast_S_S1024 (constantI S_ 32 126#32)))

/-- patch(y, w) = q(y) * 9 + q(w) over the plane, then the wrap of a negative index by 81. -/
def patchIndex : IVec S1024x1024 32 :=
  let v14 : IVec S1024x1 32 := broadcastInDim S1024x1 ![0] bcast_S1024_S1024x1_0 patchCoord
  let v15 : IVec S1024x1 32 := broadcastInDim S1024x1 ![] bcast_S_S1024x1 (constantI S_ 32 9#32)
  let v16 : IVec S1024x1 32 := muli v14 v15
  let v17 : IVec S1x1024 32 := broadcastInDim S1x1024 ![1] bcast_S1024_S1x1024_1 patchCoord
  let v18 : IVec S1024x1024 32 := broadcastInDim S1024x1024 ![0, 1] bcast_S1024x1_S1024x1024_0_1 v16
  let v19 : IVec S1024x1024 32 := broadcastInDim S1024x1024 ![0, 1] bcast_S1x1024_S1024x1024_0_1 v17
  let v20 : IVec S1024x1024 32 := addi v18 v19
  let v23 : IVec S1024x1024 32 := broadcastInDim S1024x1024 ![] bcast_S_S1024x1024 (constantI S_ 32 0#32)
  let v24 : IVec S1024x1024 1 := cmpi .slt v20 v23
  let v25 : IVec S1024x1024 32 := broadcastInDim S1024x1024 ![] bcast_S_S1024x1024 (constantI S_ 32 81#32)
  let v26 : IVec S1024x1024 32 := addi v20 v25
  select v24 v26 v20

/-- off(y) as a column [1024, 1], the wrap of a negative index by 128, spread over the plane. -/
def rowOffset : IVec S1024x1024 32 :=
  let v21 : IVec S1024x1 32 := broadcastInDim S1024x1 ![0] bcast_S1024_S1024x1_0 patchOffset
  let v28 : IVec S1024x1 32 := broadcastInDim S1024x1 ![] bcast_S_S1024x1 (constantI S_ 32 0#32)
  let v29 : IVec S1024x1 1 := cmpi .slt v21 v28
  let v30 : IVec S1024x1 32 := broadcastInDim S1024x1 ![] bcast_S_S1024x1 (constantI S_ 32 128#32)
  let v31 : IVec S1024x1 32 := addi v21 v30
  let v32 : IVec S1024x1 32 := select v29 v31 v21
  broadcastInDim S1024x1024 ![0, 1] bcast_S1024x1_S1024x1024_0_1 v32

/-- off(w) as a row [1, 1024], the wrap of a negative index by 128, spread over the plane. -/
def colOffset : IVec S1024x1024 32 :=
  let v22 : IVec S1x1024 32 := broadcastInDim S1x1024 ![1] bcast_S1024_S1x1024_1 patchOffset
  let v33 : IVec S1x1024 32 := broadcastInDim S1x1024 ![] bcast_S_S1x1024 (constantI S_ 32 0#32)
  let v34 : IVec S1x1024 1 := cmpi .slt v22 v33
  let v35 : IVec S1x1024 32 := broadcastInDim S1x1024 ![] bcast_S_S1x1024 (constantI S_ 32 128#32)
  let v36 : IVec S1x1024 32 := addi v22 v35
  let v37 : IVec S1x1024 32 := select v34 v36 v22
  broadcastInDim S1024x1024 ![0, 1] bcast_S1x1024_S1024x1024_0_1 v37

/-- The start indices [1024, 1024, 3]: at (y, w) the triple (patch(y, w), off(y), off(w)). -/
def startIndices : IVec S1024x1024x3 32 :=
  concatenate S1024x1024x3 2
    [⟨S1024x1024x1, broadcastInDim S1024x1024x1 ![0, 1] bcast_S1024x1024_S1024x1024x1_0_1 patchIndex⟩,
     ⟨S1024x1024x1, broadcastInDim S1024x1024x1 ![0, 1] bcast_S1024x1024_S1024x1024x1_0_1 rowOffset⟩,
     ⟨S1024x1024x1, broadcastInDim S1024x1024x1 ![0, 1] bcast_S1024x1024_S1024x1024x1_0_1 colOffset⟩]
    concatenates_S1024x1024x1_S1024x1024x1_S1024x1024x1_S1024x1024x3_d2

variable {F : FTy → Type}

/-- What the reference returns from the patches `x`: the gather of x at the start indices, [1024, 1024, 64] with the
    channel last, transposed to [64, 1024, 1024]. -/
def refResult (x : FVec F S81x64x128x128 .f32) : FVec F S64x1024x1024 .f32 :=
  transpose S64x1024x1024 [2, 0, 1]
    (Host.gather gather_S81x64x128x128_S1024x1024x3_S1024x1024x64_2_023_n_n_023_2_16411 x startIndices)
    transposes_S1024x1024x64_S64x1024x1024_2_0_1

end Cert.ReferenceIdeal.RefValue

end
-- ==== Proof.RefRun.lean ====
/-
  The run of the reference: a straight line of ninety-one host operations.

  The reference has no kernel: its @main is the two coordinate vectors and their floor divisions by 126 (the
  function floor_divide, seventeen operations, called twice, each operation written into the buffers of its
  call), the minimum with 8, the offsets, the flat patch index, the wraps of negative indices, the concatenation into
  the start indices, ONE gather and the transposition. Listed in order, the calls unfolded at their sites, it is
  `seq ops`; every weakly fair execution then terminates with each buffer at the fold of the operations' results
  over the launch contents, and at the result buffer that fold is `refResult` of the argument (the same operations
  composed as one term), the argument unchanged.
-/
import proofs.«114181_j72378788872306_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One call of floor_divide as a line: its sixteen operations and the select of its inner call, over the
    operands' buffers `a`, `b` and the call's own buffers `φ`. -/
abbrev floorDivideOps (a : TRef sig ⟨S1024, .i32⟩) (b : TRef sig ⟨S_, .i32⟩) (φ : fn_floor_divide.Bufs) :
    List (HloOp τ sig (Elt F)) :=
  [ TRef.unary b φ.v0 id,
    TRef.unary φ.v0 φ.v1 (broadcastInDim S1024 ![] bcast_S_S1024),
    TRef.binary a φ.v1 φ.v2 Host.divsi,
    TRef.unary a φ.v3 signi,
    TRef.unary φ.v0 φ.v4 signi,
    TRef.unary φ.v4 φ.v5 (broadcastInDim S1024 ![] bcast_S_S1024),
    TRef.binary φ.v3 φ.v5 φ.v6 (cmpi .ne),
    TRef.unary φ.v0 φ.v7 (broadcastInDim S1024 ![] bcast_S_S1024),
    TRef.binary a φ.v7 φ.v8 Host.remsi,
    TRef.nullary φ.c (constantI S_ 32 0#32),
    TRef.unary φ.c φ.v9 (broadcastInDim S1024 ![] bcast_S_S1024),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S1024 ![] bcast_S_S1024),
    TRef.binary φ.v2 φ.v12 φ.v13 subi,
    TRef.ternary φ.v11 φ.v13 φ.v2 φ.call0.v0 select ]

/-- The function's body is that line: the inner call unfolded, the sequencing re-associated. -/
theorem floorDivide_body_eq (a : TRef sig ⟨S1024, .i32⟩) (b : TRef sig ⟨S_, .i32⟩) (φ : fn_floor_divide.Bufs) :
    fn_floor_divide.body (F := F) a b φ = seq (floorDivideOps a b φ) := by
  simp only [fn_floor_divide.body, fn_where.body, seq, bind_assoc, pure_bind]

/-- @main's operations in order, the two calls of floor_divide unfolded (seventeen operations each, over the
    call's own buffers). -/
abbrev ops : List (HloOp τ sig (Elt F)) :=
  [ nullary main_v0 (iotaInDim S1024 32 0),
    nullary main_v1 (iotaInDim S1024 32 0),
    nullary main_c (constantI S_ 32 126#32),
    TRef.unary (.of main_c) main_call0.v0 id,
    TRef.unary main_call0.v0 main_call0.v1 (broadcastInDim S1024 ![] bcast_S_S1024),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v0) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select,
    nullary main_c_0 (constantI S_ 32 8#32),
    unary main_c_0 main_v3 (broadcastInDim S1024 ![] bcast_S_S1024 : (⟨S_, .i32⟩ : BufTy).Contents (Elt F) → (⟨S1024, .i32⟩ : BufTy).Contents (Elt F)),
    binary main_v2 main_v3 main_v4 (minsi : (⟨S1024, .i32⟩ : BufTy).Contents (Elt F) → (⟨S1024, .i32⟩ : BufTy).Contents (Elt F) → (⟨S1024, .i32⟩ : BufTy).Contents (Elt F)),
    nullary main_c_1 (constantI S_ 32 126#32),
    TRef.unary (.of main_c_1) main_call1.v0 id,
    TRef.unary main_call1.v0 main_call1.v1 (broadcastInDim S1024 ![] bcast_S_S1024),
    TRef.binary (.of main_v1) main_call1.v1 main_call1.v2 Host.divsi,
    TRef.unary (.of main_v1) main_call1.v3 signi,
    TRef.unary main_call1.v0 main_call1.v4 signi,
    TRef.unary main_call1.v4 main_call1.v5 (broadcastInDim S1024 ![] bcast_S_S1024),
    TRef.binary main_call1.v3 main_call1.v5 main_call1.v6 (cmpi .ne),
    TRef.unary main_call1.v0 main_call1.v7 (broadcastInDim S1024 ![] bcast_S_S1024),
    TRef.binary (.of main_v1) main_call1.v7 main_call1.v8 Host.remsi,
    TRef.nullary main_call1.c (constantI S_ 32 0#32),
    TRef.unary main_call1.c main_call1.v9 (broadcastInDim S1024 ![] bcast_S_S1024),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S1024 ![] bcast_S_S1024),
    TRef.binary main_call1.v2 main_call1.v12 main_call1.v13 subi,
    TRef.ternary main_call1.v11 main_call1.v13 main_call1.v2 main_call1.call0.v0 select,
    nullary main_c_2 (constantI S_ 32 8#32),
    unary main_c_2 main_v6 (broadcastInDim S1024 ![] bcast_S_S1024 : (⟨S_, .i32⟩ : BufTy).Contents (Elt F) → (⟨S1024, .i32⟩ : BufTy).Contents (Elt F)),
    binary main_v5 main_v6 main_v7 (minsi : (⟨S1024, .i32⟩ : BufTy).Contents (Elt F) → (⟨S1024, .i32⟩ : BufTy).Contents (Elt F) → (⟨S1024, .i32⟩ : BufTy).Contents (Elt F)),
    nullary main_c_3 (constantI S_ 32 126#32),
    unary main_c_3 main_v8 (broadcastInDim S1024 ![] bcast_S_S1024 : (⟨S_, .i32⟩ : BufTy).Contents (Elt F) → (⟨S1024, .i32⟩ : BufTy).Contents (Elt F)),
    binary main_v4 main_v8 main_v9 (muli : (⟨S1024, .i32⟩ : BufTy).Contents (Elt F) → (⟨S1024, .i32⟩ : BufTy).Contents (Elt F) → (⟨S1024, .i32⟩ : BufTy).Contents (Elt F)),
    binary main_v0 main_v9 main_v10 (subi : (⟨S1024, .i32⟩ : BufTy).Contents (Elt F) → (⟨S1024, .i32⟩ : BufTy).Contents (Elt F) → (⟨S1024, .i32⟩ : BufTy).Contents (Elt F)),
    nullary main_c_4 (constantI S_ 32 126#32),
    unary main_c_4 main_v11 (broadcastInDim S1024 ![] bcast_S_S1024 : (⟨S_, .i32⟩ : BufTy).Contents (Elt F) → (⟨S1024, .i32⟩ : BufTy).Contents (Elt F)),
    binary main_v7 main_v11 main_v12 (muli : (⟨S1024, .i32⟩ : BufTy).Contents (Elt F) → (⟨S1024, .i32⟩ : BufTy).Contents (Elt F) → (⟨S1024, .i32⟩ : BufTy).Contents (Elt F)),
    binary main_v1 main_v12 main_v13 (subi : (⟨S1024, .i32⟩ : BufTy).Contents (Elt F) → (⟨S1024, .i32⟩ : BufTy).Contents (Elt F) → (⟨S1024, .i32⟩ : BufTy).Contents (Elt F)),
    unary main_v4 main_v14 (broadcastInDim S1024x1 ![0] bcast_S1024_S1024x1_0 : (⟨S1024, .i32⟩ : BufTy).Contents (Elt F) → (⟨S1024x1, .i32⟩ : BufTy).Contents (Elt F)),
    nullary main_c_5 (constantI S_ 32 9#32),
    unary main_c_5 main_v15 (broadcastInDim S1024x1 ![] bcast_S_S1024x1 : (⟨S_, .i32⟩ : BufTy).Contents (Elt F) → (⟨S1024x1, .i32⟩ : BufTy).Contents (Elt F)),
    binary main_v14 main_v15 main_v16 (muli : (⟨S1024x1, .i32⟩ : BufTy).Contents (Elt F) → (⟨S1024x1, .i32⟩ : BufTy).Contents (Elt F) → (⟨S1024x1, .i32⟩ : BufTy).Contents (Elt F)),
    unary main_v7 main_v17 (broadcastInDim S1x1024 ![1] bcast_S1024_S1x1024_1 : (⟨S1024, .i32⟩ : BufTy).Contents (Elt F) → (⟨S1x1024, .i32⟩ : BufTy).Contents (Elt F)),
    unary main_v16 main_v18 (broadcastInDim S1024x1024 ![0, 1] bcast_S1024x1_S1024x1024_0_1 : (⟨S1024x1, .i32⟩ : BufTy).Contents (Elt F) → (⟨S1024x1024, .i32⟩ : BufTy).Contents (Elt F)),
    unary main_v17 main_v19 (broadcastInDim S1024x1024 ![0, 1] bcast_S1x1024_S1024x1024_0_1 : (⟨S1x1024, .i32⟩ : BufTy).Contents (Elt F) → (⟨S1024x1024, .i32⟩ : BufTy).Contents (Elt F)),
    binary main_v18 main_v19 main_v20 (addi : (⟨S1024x1024, .i32⟩ : BufTy).Contents (Elt F) → (⟨S1024x1024, .i32⟩ : BufTy).Contents (Elt F) → (⟨S1024x1024, .i32⟩ : BufTy).Contents (Elt F)),
    unary main_v10 main_v21 (broadcastInDim S1024x1 ![0] bcast_S1024_S1024x1_0 : (⟨S1024, .i32⟩ : BufTy).Contents (Elt F) → (⟨S1024x1, .i32⟩ : BufTy).Contents (Elt F)),
    unary main_v13 main_v22 (broadcastInDim S1x1024 ![1] bcast_S1024_S1x1024_1 : (⟨S1024, .i32⟩ : BufTy).Contents (Elt F) → (⟨S1x1024, .i32⟩ : BufTy).Contents (Elt F)),
    nullary main_c_6 (constantI S_ 32 0#32),
    unary main_c_6 main_v23 (broadcastInDim S1024x1024 ![] bcast_S_S1024x1024 : (⟨S_, .i32⟩ : BufTy).Contents (Elt F) → (⟨S1024x1024, .i32⟩ : BufTy).Contents (Elt F)),
    binary main_v20 main_v23 main_v24 (cmpi .slt : (⟨S1024x1024, .i32⟩ : BufTy).Contents (Elt F) → (⟨S1024x1024, .i32⟩ : BufTy).Contents (Elt F) → (⟨S1024x1024, .i1⟩ : BufTy).Contents (Elt F)),
    nullary main_c_7 (constantI S_ 32 81#32),
    unary main_c_7 main_v25 (broadcastInDim S1024x1024 ![] bcast_S_S1024x1024 : (⟨S_, .i32⟩ : BufTy).Contents (Elt F) → (⟨S1024x1024, .i32⟩ : BufTy).Contents (Elt F)),
    binary main_v20 main_v25 main_v26 (addi : (⟨S1024x1024, .i32⟩ : BufTy).Contents (Elt F) → (⟨S1024x1024, .i32⟩ : BufTy).Contents (Elt F) → (⟨S1024x1024, .i32⟩ : BufTy).Contents (Elt F)),
    ternary main_v24 main_v26 main_v20 main_v27 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    nullary main_c_8 (constantI S_ 32 0#32),
    unary main_c_8 main_v28 (broadcastInDim S1024x1 ![] bcast_S_S1024x1 : (⟨S_, .i32⟩ : BufTy).Contents (Elt F) → (⟨S1024x1, .i32⟩ : BufTy).Contents (Elt F)),
    binary main_v21 main_v28 main_v29 (cmpi .slt : (⟨S1024x1, .i32⟩ : BufTy).Contents (Elt F) → (⟨S1024x1, .i32⟩ : BufTy).Contents (Elt F) → (⟨S1024x1, .i1⟩ : BufTy).Contents (Elt F)),
    nullary main_c_9 (constantI S_ 32 128#32),
    unary main_c_9 main_v30 (broadcastInDim S1024x1 ![] bcast_S_S1024x1 : (⟨S_, .i32⟩ : BufTy).Contents (Elt F) → (⟨S1024x1, .i32⟩ : BufTy).Contents (Elt F)),
    binary main_v21 main_v30 main_v31 (addi : (⟨S1024x1, .i32⟩ : BufTy).Contents (Elt F) → (⟨S1024x1, .i32⟩ : BufTy).Contents (Elt F) → (⟨S1024x1, .i32⟩ : BufTy).Contents (Elt F)),
    ternary main_v29 main_v31 main_v21 main_v32 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_10 (constantI S_ 32 0#32),
    unary main_c_10 main_v33 (broadcastInDim S1x1024 ![] bcast_S_S1x1024 : (⟨S_, .i32⟩ : BufTy).Contents (Elt F) → (⟨S1x1024, .i32⟩ : BufTy).Contents (Elt F)),
    binary main_v22 main_v33 main_v34 (cmpi .slt : (⟨S1x1024, .i32⟩ : BufTy).Contents (Elt F) → (⟨S1x1024, .i32⟩ : BufTy).Contents (Elt F) → (⟨S1x1024, .i1⟩ : BufTy).Contents (Elt F)),
    nullary main_c_11 (constantI S_ 32 128#32),
    unary main_c_11 main_v35 (broadcastInDim S1x1024 ![] bcast_S_S1x1024 : (⟨S_, .i32⟩ : BufTy).Contents (Elt F) → (⟨S1x1024, .i32⟩ : BufTy).Contents (Elt F)),
    binary main_v22 main_v35 main_v36 (addi : (⟨S1x1024, .i32⟩ : BufTy).Contents (Elt F) → (⟨S1x1024, .i32⟩ : BufTy).Contents (Elt F) → (⟨S1x1024, .i32⟩ : BufTy).Contents (Elt F)),
    ternary main_v34 main_v36 main_v22 main_v37 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    unary main_v32 main_v38 (broadcastInDim S1024x1024 ![0, 1] bcast_S1024x1_S1024x1024_0_1 : (⟨S1024x1, .i32⟩ : BufTy).Contents (Elt F) → (⟨S1024x1024, .i32⟩ : BufTy).Contents (Elt F)),
    unary main_v37 main_v39 (broadcastInDim S1024x1024 ![0, 1] bcast_S1x1024_S1024x1024_0_1 : (⟨S1x1024, .i32⟩ : BufTy).Contents (Elt F) → (⟨S1024x1024, .i32⟩ : BufTy).Contents (Elt F)),
    unary main_v27 main_v40 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v38 main_v41 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v39 main_v42 (broadcastInDim S1024x1024x1 ![0, 1] bcast_S1024x1024_S1024x1024x1_0_1 : (⟨S1024x1024, .i32⟩ : BufTy).Contents (Elt F) → (⟨S1024x1024x1, .i32⟩ : BufTy).Contents (Elt F)),
    nary ![main_v40, main_v41, main_v42] main_v43 (fun u => concatenate S1024x1024x3 2 [⟨S1024x1024x1, u 0⟩, ⟨S1024x1024x1, u 1⟩, ⟨S1024x1024x1, u 2⟩] concatenates_S1024x1024x1_S1024x1024x1_S1024x1024x1_S1024x1024x3_d2),
    binary main_arg0 main_v43 main_v44 ((fun x i => Host.gather gather_S81x64x128x128_S1024x1024x3_S1024x1024x64_2_023_n_n_023_2_16411 x i) : (⟨S81x64x128x128, .f32⟩ : BufTy).Contents (Elt F) → (⟨S1024x1024x3, .i32⟩ : BufTy).Contents (Elt F) → (⟨S1024x1024x64, .f32⟩ : BufTy).Contents (Elt F)),
    unary main_v44 main_v45 ((transpose S64x1024x1024 [2, 0, 1] · transposes_S1024x1024x64_S64x1024x1024_2_0_1) : (⟨S1024x1024x64, .f32⟩ : BufTy).Contents (Elt F) → (⟨S64x1024x1024, .f32⟩ : BufTy).Contents (Elt F)) ]

/-- @main's own operations before the first call, between the calls, and after the second. -/
abbrev opsHead : List (HloOp τ sig (Elt F)) :=
  [ nullary main_v0 (iotaInDim S1024 32 0),
    nullary main_v1 (iotaInDim S1024 32 0),
    nullary main_c (constantI S_ 32 126#32) ]
abbrev opsMid : List (HloOp τ sig (Elt F)) :=
  [ nullary main_c_0 (constantI S_ 32 8#32),
    unary main_c_0 main_v3 (broadcastInDim S1024 ![] bcast_S_S1024 : (⟨S_, .i32⟩ : BufTy).Contents (Elt F) → (⟨S1024, .i32⟩ : BufTy).Contents (Elt F)),
    binary main_v2 main_v3 main_v4 (minsi : (⟨S1024, .i32⟩ : BufTy).Contents (Elt F) → (⟨S1024, .i32⟩ : BufTy).Contents (Elt F) → (⟨S1024, .i32⟩ : BufTy).Contents (Elt F)),
    nullary main_c_1 (constantI S_ 32 126#32) ]
abbrev opsTail : List (HloOp τ sig (Elt F)) :=
  [ nullary main_c_2 (constantI S_ 32 8#32),
    unary main_c_2 main_v6 (broadcastInDim S1024 ![] bcast_S_S1024 : (⟨S_, .i32⟩ : BufTy).Contents (Elt F) → (⟨S1024, .i32⟩ : BufTy).Contents (Elt F)),
    binary main_v5 main_v6 main_v7 (minsi : (⟨S1024, .i32⟩ : BufTy).Contents (Elt F) → (⟨S1024, .i32⟩ : BufTy).Contents (Elt F) → (⟨S1024, .i32⟩ : BufTy).Contents (Elt F)),
    nullary main_c_3 (constantI S_ 32 126#32),
    unary main_c_3 main_v8 (broadcastInDim S1024 ![] bcast_S_S1024 : (⟨S_, .i32⟩ : BufTy).Contents (Elt F) → (⟨S1024, .i32⟩ : BufTy).Contents (Elt F)),
    binary main_v4 main_v8 main_v9 (muli : (⟨S1024, .i32⟩ : BufTy).Contents (Elt F) → (⟨S1024, .i32⟩ : BufTy).Contents (Elt F) → (⟨S1024, .i32⟩ : BufTy).Contents (Elt F)),
    binary main_v0 main_v9 main_v10 (subi : (⟨S1024, .i32⟩ : BufTy).Contents (Elt F) → (⟨S1024, .i32⟩ : BufTy).Contents (Elt F) → (⟨S1024, .i32⟩ : BufTy).Contents (Elt F)),
    nullary main_c_4 (constantI S_ 32 126#32),
    unary main_c_4 main_v11 (broadcastInDim S1024 ![] bcast_S_S1024 : (⟨S_, .i32⟩ : BufTy).Contents (Elt F) → (⟨S1024, .i32⟩ : BufTy).Contents (Elt F)),
    binary main_v7 main_v11 main_v12 (muli : (⟨S1024, .i32⟩ : BufTy).Contents (Elt F) → (⟨S1024, .i32⟩ : BufTy).Contents (Elt F) → (⟨S1024, .i32⟩ : BufTy).Contents (Elt F)),
    binary main_v1 main_v12 main_v13 (subi : (⟨S1024, .i32⟩ : BufTy).Contents (Elt F) → (⟨S1024, .i32⟩ : BufTy).Contents (Elt F) → (⟨S1024, .i32⟩ : BufTy).Contents (Elt F)),
    unary main_v4 main_v14 (broadcastInDim S1024x1 ![0] bcast_S1024_S1024x1_0 : (⟨S1024, .i32⟩ : BufTy).Contents (Elt F) → (⟨S1024x1, .i32⟩ : BufTy).Contents (Elt F)),
    nullary main_c_5 (constantI S_ 32 9#32),
    unary main_c_5 main_v15 (broadcastInDim S1024x1 ![] bcast_S_S1024x1 : (⟨S_, .i32⟩ : BufTy).Contents (Elt F) → (⟨S1024x1, .i32⟩ : BufTy).Contents (Elt F)),
    binary main_v14 main_v15 main_v16 (muli : (⟨S1024x1, .i32⟩ : BufTy).Contents (Elt F) → (⟨S1024x1, .i32⟩ : BufTy).Contents (Elt F) → (⟨S1024x1, .i32⟩ : BufTy).Contents (Elt F)),
    unary main_v7 main_v17 (broadcastInDim S1x1024 ![1] bcast_S1024_S1x1024_1 : (⟨S1024, .i32⟩ : BufTy).Contents (Elt F) → (⟨S1x1024, .i32⟩ : BufTy).Contents (Elt F)),
    unary main_v16 main_v18 (broadcastInDim S1024x1024 ![0, 1] bcast_S1024x1_S1024x1024_0_1 : (⟨S1024x1, .i32⟩ : BufTy).Contents (Elt F) → (⟨S1024x1024, .i32⟩ : BufTy).Contents (Elt F)),
    unary main_v17 main_v19 (broadcastInDim S1024x1024 ![0, 1] bcast_S1x1024_S1024x1024_0_1 : (⟨S1x1024, .i32⟩ : BufTy).Contents (Elt F) → (⟨S1024x1024, .i32⟩ : BufTy).Contents (Elt F)),
    binary main_v18 main_v19 main_v20 (addi : (⟨S1024x1024, .i32⟩ : BufTy).Contents (Elt F) → (⟨S1024x1024, .i32⟩ : BufTy).Contents (Elt F) → (⟨S1024x1024, .i32⟩ : BufTy).Contents (Elt F)),
    unary main_v10 main_v21 (broadcastInDim S1024x1 ![0] bcast_S1024_S1024x1_0 : (⟨S1024, .i32⟩ : BufTy).Contents (Elt F) → (⟨S1024x1, .i32⟩ : BufTy).Contents (Elt F)),
    unary main_v13 main_v22 (broadcastInDim S1x1024 ![1] bcast_S1024_S1x1024_1 : (⟨S1024, .i32⟩ : BufTy).Contents (Elt F) → (⟨S1x1024, .i32⟩ : BufTy).Contents (Elt F)),
    nullary main_c_6 (constantI S_ 32 0#32),
    unary main_c_6 main_v23 (broadcastInDim S1024x1024 ![] bcast_S_S1024x1024 : (⟨S_, .i32⟩ : BufTy).Contents (Elt F) → (⟨S1024x1024, .i32⟩ : BufTy).Contents (Elt F)),
    binary main_v20 main_v23 main_v24 (cmpi .slt : (⟨S1024x1024, .i32⟩ : BufTy).Contents (Elt F) → (⟨S1024x1024, .i32⟩ : BufTy).Contents (Elt F) → (⟨S1024x1024, .i1⟩ : BufTy).Contents (Elt F)),
    nullary main_c_7 (constantI S_ 32 81#32),
    unary main_c_7 main_v25 (broadcastInDim S1024x1024 ![] bcast_S_S1024x1024 : (⟨S_, .i32⟩ : BufTy).Contents (Elt F) → (⟨S1024x1024, .i32⟩ : BufTy).Contents (Elt F)),
    binary main_v20 main_v25 main_v26 (addi : (⟨S1024x1024, .i32⟩ : BufTy).Contents (Elt F) → (⟨S1024x1024, .i32⟩ : BufTy).Contents (Elt F) → (⟨S1024x1024, .i32⟩ : BufTy).Contents (Elt F)),
    ternary main_v24 main_v26 main_v20 main_v27 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    nullary main_c_8 (constantI S_ 32 0#32),
    unary main_c_8 main_v28 (broadcastInDim S1024x1 ![] bcast_S_S1024x1 : (⟨S_, .i32⟩ : BufTy).Contents (Elt F) → (⟨S1024x1, .i32⟩ : BufTy).Contents (Elt F)),
    binary main_v21 main_v28 main_v29 (cmpi .slt : (⟨S1024x1, .i32⟩ : BufTy).Contents (Elt F) → (⟨S1024x1, .i32⟩ : BufTy).Contents (Elt F) → (⟨S1024x1, .i1⟩ : BufTy).Contents (Elt F)),
    nullary main_c_9 (constantI S_ 32 128#32),
    unary main_c_9 main_v30 (broadcastInDim S1024x1 ![] bcast_S_S1024x1 : (⟨S_, .i32⟩ : BufTy).Contents (Elt F) → (⟨S1024x1, .i32⟩ : BufTy).Contents (Elt F)),
    binary main_v21 main_v30 main_v31 (addi : (⟨S1024x1, .i32⟩ : BufTy).Contents (Elt F) → (⟨S1024x1, .i32⟩ : BufTy).Contents (Elt F) → (⟨S1024x1, .i32⟩ : BufTy).Contents (Elt F)),
    ternary main_v29 main_v31 main_v21 main_v32 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_10 (constantI S_ 32 0#32),
    unary main_c_10 main_v33 (broadcastInDim S1x1024 ![] bcast_S_S1x1024 : (⟨S_, .i32⟩ : BufTy).Contents (Elt F) → (⟨S1x1024, .i32⟩ : BufTy).Contents (Elt F)),
    binary main_v22 main_v33 main_v34 (cmpi .slt : (⟨S1x1024, .i32⟩ : BufTy).Contents (Elt F) → (⟨S1x1024, .i32⟩ : BufTy).Contents (Elt F) → (⟨S1x1024, .i1⟩ : BufTy).Contents (Elt F)),
    nullary main_c_11 (constantI S_ 32 128#32),
    unary main_c_11 main_v35 (broadcastInDim S1x1024 ![] bcast_S_S1x1024 : (⟨S_, .i32⟩ : BufTy).Contents (Elt F) → (⟨S1x1024, .i32⟩ : BufTy).Contents (Elt F)),
    binary main_v22 main_v35 main_v36 (addi : (⟨S1x1024, .i32⟩ : BufTy).Contents (Elt F) → (⟨S1x1024, .i32⟩ : BufTy).Contents (Elt F) → (⟨S1x1024, .i32⟩ : BufTy).Contents (Elt F)),
    ternary main_v34 main_v36 main_v22 main_v37 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    unary main_v32 main_v38 (broadcastInDim S1024x1024 ![0, 1] bcast_S1024x1_S1024x1024_0_1 : (⟨S1024x1, .i32⟩ : BufTy).Contents (Elt F) → (⟨S1024x1024, .i32⟩ : BufTy).Contents (Elt F)),
    unary main_v37 main_v39 (broadcastInDim S1024x1024 ![0, 1] bcast_S1x1024_S1024x1024_0_1 : (⟨S1x1024, .i32⟩ : BufTy).Contents (Elt F) → (⟨S1024x1024, .i32⟩ : BufTy).Contents (Elt F)),
    unary main_v27 main_v40 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v38 main_v41 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v39 main_v42 (broadcastInDim S1024x1024x1 ![0, 1] bcast_S1024x1024_S1024x1024x1_0_1 : (⟨S1024x1024, .i32⟩ : BufTy).Contents (Elt F) → (⟨S1024x1024x1, .i32⟩ : BufTy).Contents (Elt F)),
    nary ![main_v40, main_v41, main_v42] main_v43 (fun u => concatenate S1024x1024x3 2 [⟨S1024x1024x1, u 0⟩, ⟨S1024x1024x1, u 1⟩, ⟨S1024x1024x1, u 2⟩] concatenates_S1024x1024x1_S1024x1024x1_S1024x1024x1_S1024x1024x3_d2),
    binary main_arg0 main_v43 main_v44 ((fun x i => Host.gather gather_S81x64x128x128_S1024x1024x3_S1024x1024x64_2_023_n_n_023_2_16411 x i) : (⟨S81x64x128x128, .f32⟩ : BufTy).Contents (Elt F) → (⟨S1024x1024x3, .i32⟩ : BufTy).Contents (Elt F) → (⟨S1024x1024x64, .f32⟩ : BufTy).Contents (Elt F)),
    unary main_v44 main_v45 ((transpose S64x1024x1024 [2, 0, 1] · transposes_S1024x1024x64_S64x1024x1024_2_0_1) : (⟨S1024x1024x64, .f32⟩ : BufTy).Contents (Elt F) → (⟨S64x1024x1024, .f32⟩ : BufTy).Contents (Elt F)) ]

/-- The whole line is the pieces end to end. -/
theorem ops_eq : (ops : List (HloOp τ sig (Elt F)))
    = opsHead ++ (floorDivideOps (.of main_v0) (.of main_c) main_call0 ++ (opsMid ++ (floorDivideOps (.of main_v1) (.of main_c_1) main_call1 ++ opsTail))) := rfl

/-- @main is that straight line: each call is its function's line, the pieces run one after the other. -/
theorem main_eq (c : Dev nD) : main (F := F) c = seq ops := by
  rw [ops_eq, seq_append, seq_append, seq_append, seq_append, ← floorDivide_body_eq, ← floorDivide_body_eq]
  simp only [seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., unary_bufs_sub .., nullary_bufs_sub ..,
    unary_bufs_sub .., binary_bufs_sub .., unary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., unary_bufs_sub .., unary_bufs_sub .., nary_bufs_sub .., binary_bufs_sub ..,
    unary_bufs_sub ..⟩

/-- The fold of two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The line up to the three planes of start-index components (eighty-eight operations), and the last three:
    the concatenation, the gather, the transposition. -/
abbrev opsInit : List (HloOp τ sig (Elt F)) :=
  [ nullary main_v0 (iotaInDim S1024 32 0),
    nullary main_v1 (iotaInDim S1024 32 0),
    nullary main_c (constantI S_ 32 126#32),
    TRef.unary (.of main_c) main_call0.v0 id,
    TRef.unary main_call0.v0 main_call0.v1 (broadcastInDim S1024 ![] bcast_S_S1024),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v0) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select,
    nullary main_c_0 (constantI S_ 32 8#32),
    unary main_c_0 main_v3 (broadcastInDim S1024 ![] bcast_S_S1024 : (⟨S_, .i32⟩ : BufTy).Contents (Elt F) → (⟨S1024, .i32⟩ : BufTy).Contents (Elt F)),
    binary main_v2 main_v3 main_v4 (minsi : (⟨S1024, .i32⟩ : BufTy).Contents (Elt F) → (⟨S1024, .i32⟩ : BufTy).Contents (Elt F) → (⟨S1024, .i32⟩ : BufTy).Contents (Elt F)),
    nullary main_c_1 (constantI S_ 32 126#32),
    TRef.unary (.of main_c_1) main_call1.v0 id,
    TRef.unary main_call1.v0 main_call1.v1 (broadcastInDim S1024 ![] bcast_S_S1024),
    TRef.binary (.of main_v1) main_call1.v1 main_call1.v2 Host.divsi,
    TRef.unary (.of main_v1) main_call1.v3 signi,
    TRef.unary main_call1.v0 main_call1.v4 signi,
    TRef.unary main_call1.v4 main_call1.v5 (broadcastInDim S1024 ![] bcast_S_S1024),
    TRef.binary main_call1.v3 main_call1.v5 main_call1.v6 (cmpi .ne),
    TRef.unary main_call1.v0 main_call1.v7 (broadcastInDim S1024 ![] bcast_S_S1024),
    TRef.binary (.of main_v1) main_call1.v7 main_call1.v8 Host.remsi,
    TRef.nullary main_call1.c (constantI S_ 32 0#32),
    TRef.unary main_call1.c main_call1.v9 (broadcastInDim S1024 ![] bcast_S_S1024),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S1024 ![] bcast_S_S1024),
    TRef.binary main_call1.v2 main_call1.v12 main_call1.v13 subi,
    TRef.ternary main_call1.v11 main_call1.v13 main_call1.v2 main_call1.call0.v0 select,
    nullary main_c_2 (constantI S_ 32 8#32),
    unary main_c_2 main_v6 (broadcastInDim S1024 ![] bcast_S_S1024 : (⟨S_, .i32⟩ : BufTy).Contents (Elt F) → (⟨S1024, .i32⟩ : BufTy).Contents (Elt F)),
    binary main_v5 main_v6 main_v7 (minsi : (⟨S1024, .i32⟩ : BufTy).Contents (Elt F) → (⟨S1024, .i32⟩ : BufTy).Contents (Elt F) → (⟨S1024, .i32⟩ : BufTy).Contents (Elt F)),
    nullary main_c_3 (constantI S_ 32 126#32),
    unary main_c_3 main_v8 (broadcastInDim S1024 ![] bcast_S_S1024 : (⟨S_, .i32⟩ : BufTy).Contents (Elt F) → (⟨S1024, .i32⟩ : BufTy).Contents (Elt F)),
    binary main_v4 main_v8 main_v9 (muli : (⟨S1024, .i32⟩ : BufTy).Contents (Elt F) → (⟨S1024, .i32⟩ : BufTy).Contents (Elt F) → (⟨S1024, .i32⟩ : BufTy).Contents (Elt F)),
    binary main_v0 main_v9 main_v10 (subi : (⟨S1024, .i32⟩ : BufTy).Contents (Elt F) → (⟨S1024, .i32⟩ : BufTy).Contents (Elt F) → (⟨S1024, .i32⟩ : BufTy).Contents (Elt F)),
    nullary main_c_4 (constantI S_ 32 126#32),
    unary main_c_4 main_v11 (broadcastInDim S1024 ![] bcast_S_S1024 : (⟨S_, .i32⟩ : BufTy).Contents (Elt F) → (⟨S1024, .i32⟩ : BufTy).Contents (Elt F)),
    binary main_v7 main_v11 main_v12 (muli : (⟨S1024, .i32⟩ : BufTy).Contents (Elt F) → (⟨S1024, .i32⟩ : BufTy).Contents (Elt F) → (⟨S1024, .i32⟩ : BufTy).Contents (Elt F)),
    binary main_v1 main_v12 main_v13 (subi : (⟨S1024, .i32⟩ : BufTy).Contents (Elt F) → (⟨S1024, .i32⟩ : BufTy).Contents (Elt F) → (⟨S1024, .i32⟩ : BufTy).Contents (Elt F)),
    unary main_v4 main_v14 (broadcastInDim S1024x1 ![0] bcast_S1024_S1024x1_0 : (⟨S1024, .i32⟩ : BufTy).Contents (Elt F) → (⟨S1024x1, .i32⟩ : BufTy).Contents (Elt F)),
    nullary main_c_5 (constantI S_ 32 9#32),
    unary main_c_5 main_v15 (broadcastInDim S1024x1 ![] bcast_S_S1024x1 : (⟨S_, .i32⟩ : BufTy).Contents (Elt F) → (⟨S1024x1, .i32⟩ : BufTy).Contents (Elt F)),
    binary main_v14 main_v15 main_v16 (muli : (⟨S1024x1, .i32⟩ : BufTy).Contents (Elt F) → (⟨S1024x1, .i32⟩ : BufTy).Contents (Elt F) → (⟨S1024x1, .i32⟩ : BufTy).Contents (Elt F)),
    unary main_v7 main_v17 (broadcastInDim S1x1024 ![1] bcast_S1024_S1x1024_1 : (⟨S1024, .i32⟩ : BufTy).Contents (Elt F) → (⟨S1x1024, .i32⟩ : BufTy).Contents (Elt F)),
    unary main_v16 main_v18 (broadcastInDim S1024x1024 ![0, 1] bcast_S1024x1_S1024x1024_0_1 : (⟨S1024x1, .i32⟩ : BufTy).Contents (Elt F) → (⟨S1024x1024, .i32⟩ : BufTy).Contents (Elt F)),
    unary main_v17 main_v19 (broadcastInDim S1024x1024 ![0, 1] bcast_S1x1024_S1024x1024_0_1 : (⟨S1x1024, .i32⟩ : BufTy).Contents (Elt F) → (⟨S1024x1024, .i32⟩ : BufTy).Contents (Elt F)),
    binary main_v18 main_v19 main_v20 (addi : (⟨S1024x1024, .i32⟩ : BufTy).Contents (Elt F) → (⟨S1024x1024, .i32⟩ : BufTy).Contents (Elt F) → (⟨S1024x1024, .i32⟩ : BufTy).Contents (Elt F)),
    unary main_v10 main_v21 (broadcastInDim S1024x1 ![0] bcast_S1024_S1024x1_0 : (⟨S1024, .i32⟩ : BufTy).Contents (Elt F) → (⟨S1024x1, .i32⟩ : BufTy).Contents (Elt F)),
    unary main_v13 main_v22 (broadcastInDim S1x1024 ![1] bcast_S1024_S1x1024_1 : (⟨S1024, .i32⟩ : BufTy).Contents (Elt F) → (⟨S1x1024, .i32⟩ : BufTy).Contents (Elt F)),
    nullary main_c_6 (constantI S_ 32 0#32),
    unary main_c_6 main_v23 (broadcastInDim S1024x1024 ![] bcast_S_S1024x1024 : (⟨S_, .i32⟩ : BufTy).Contents (Elt F) → (⟨S1024x1024, .i32⟩ : BufTy).Contents (Elt F)),
    binary main_v20 main_v23 main_v24 (cmpi .slt : (⟨S1024x1024, .i32⟩ : BufTy).Contents (Elt F) → (⟨S1024x1024, .i32⟩ : BufTy).Contents (Elt F) → (⟨S1024x1024, .i1⟩ : BufTy).Contents (Elt F)),
    nullary main_c_7 (constantI S_ 32 81#32),
    unary main_c_7 main_v25 (broadcastInDim S1024x1024 ![] bcast_S_S1024x1024 : (⟨S_, .i32⟩ : BufTy).Contents (Elt F) → (⟨S1024x1024, .i32⟩ : BufTy).Contents (Elt F)),
    binary main_v20 main_v25 main_v26 (addi : (⟨S1024x1024, .i32⟩ : BufTy).Contents (Elt F) → (⟨S1024x1024, .i32⟩ : BufTy).Contents (Elt F) → (⟨S1024x1024, .i32⟩ : BufTy).Contents (Elt F)),
    ternary main_v24 main_v26 main_v20 main_v27 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    nullary main_c_8 (constantI S_ 32 0#32),
    unary main_c_8 main_v28 (broadcastInDim S1024x1 ![] bcast_S_S1024x1 : (⟨S_, .i32⟩ : BufTy).Contents (Elt F) → (⟨S1024x1, .i32⟩ : BufTy).Contents (Elt F)),
    binary main_v21 main_v28 main_v29 (cmpi .slt : (⟨S1024x1, .i32⟩ : BufTy).Contents (Elt F) → (⟨S1024x1, .i32⟩ : BufTy).Contents (Elt F) → (⟨S1024x1, .i1⟩ : BufTy).Contents (Elt F)),
    nullary main_c_9 (constantI S_ 32 128#32),
    unary main_c_9 main_v30 (broadcastInDim S1024x1 ![] bcast_S_S1024x1 : (⟨S_, .i32⟩ : BufTy).Contents (Elt F) → (⟨S1024x1, .i32⟩ : BufTy).Contents (Elt F)),
    binary main_v21 main_v30 main_v31 (addi : (⟨S1024x1, .i32⟩ : BufTy).Contents (Elt F) → (⟨S1024x1, .i32⟩ : BufTy).Contents (Elt F) → (⟨S1024x1, .i32⟩ : BufTy).Contents (Elt F)),
    ternary main_v29 main_v31 main_v21 main_v32 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_10 (constantI S_ 32 0#32),
    unary main_c_10 main_v33 (broadcastInDim S1x1024 ![] bcast_S_S1x1024 : (⟨S_, .i32⟩ : BufTy).Contents (Elt F) → (⟨S1x1024, .i32⟩ : BufTy).Contents (Elt F)),
    binary main_v22 main_v33 main_v34 (cmpi .slt : (⟨S1x1024, .i32⟩ : BufTy).Contents (Elt F) → (⟨S1x1024, .i32⟩ : BufTy).Contents (Elt F) → (⟨S1x1024, .i1⟩ : BufTy).Contents (Elt F)),
    nullary main_c_11 (constantI S_ 32 128#32),
    unary main_c_11 main_v35 (broadcastInDim S1x1024 ![] bcast_S_S1x1024 : (⟨S_, .i32⟩ : BufTy).Contents (Elt F) → (⟨S1x1024, .i32⟩ : BufTy).Contents (Elt F)),
    binary main_v22 main_v35 main_v36 (addi : (⟨S1x1024, .i32⟩ : BufTy).Contents (Elt F) → (⟨S1x1024, .i32⟩ : BufTy).Contents (Elt F) → (⟨S1x1024, .i32⟩ : BufTy).Contents (Elt F)),
    ternary main_v34 main_v36 main_v22 main_v37 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    unary main_v32 main_v38 (broadcastInDim S1024x1024 ![0, 1] bcast_S1024x1_S1024x1024_0_1 : (⟨S1024x1, .i32⟩ : BufTy).Contents (Elt F) → (⟨S1024x1024, .i32⟩ : BufTy).Contents (Elt F)),
    unary main_v37 main_v39 (broadcastInDim S1024x1024 ![0, 1] bcast_S1x1024_S1024x1024_0_1 : (⟨S1x1024, .i32⟩ : BufTy).Contents (Elt F) → (⟨S1024x1024, .i32⟩ : BufTy).Contents (Elt F)),
    unary main_v27 main_v40 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v38 main_v41 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v39 main_v42 (broadcastInDim S1024x1024x1 ![0, 1] bcast_S1024x1024_S1024x1024x1_0_1 : (⟨S1024x1024, .i32⟩ : BufTy).Contents (Elt F) → (⟨S1024x1024x1, .i32⟩ : BufTy).Contents (Elt F)) ]
abbrev opsLast : List (HloOp τ sig (Elt F)) :=
  [ nary ![main_v40, main_v41, main_v42] main_v43 (fun u => concatenate S1024x1024x3 2 [⟨S1024x1024x1, u 0⟩, ⟨S1024x1024x1, u 1⟩, ⟨S1024x1024x1, u 2⟩] concatenates_S1024x1024x1_S1024x1024x1_S1024x1024x1_S1024x1024x3_d2),
    binary main_arg0 main_v43 main_v44 ((fun x i => Host.gather gather_S81x64x128x128_S1024x1024x3_S1024x1024x64_2_023_n_n_023_2_16411 x i) : (⟨S81x64x128x128, .f32⟩ : BufTy).Contents (Elt F) → (⟨S1024x1024x3, .i32⟩ : BufTy).Contents (Elt F) → (⟨S1024x1024x64, .f32⟩ : BufTy).Contents (Elt F)),
    unary main_v44 main_v45 ((transpose S64x1024x1024 [2, 0, 1] · transposes_S1024x1024x64_S64x1024x1024_2_0_1) : (⟨S1024x1024x64, .f32⟩ : BufTy).Contents (Elt F) → (⟨S64x1024x1024, .f32⟩ : BufTy).Contents (Elt F)) ]

theorem ops_split : (ops : List (HloOp τ sig (Elt F))) = opsInit ++ opsLast := rfl

/-- After the last three operations the result buffer holds the transposed gather of the argument at the
    concatenation of the three planes, whatever those buffers hold (named here: `x` the argument's contents,
    `X0`, `X1`, `X2` the planes'). -/
theorem after_last (W : Valuation τ sig (Elt F)) (x : FVec F S81x64x128x128 .f32) (X0 X1 X2 : IVec S1024x1024x1 32)
    (hx : W (main_arg0 : DevRef τ sig) = x) (h0 : W (main_v40 : DevRef τ sig) = X0)
    (h1 : W (main_v41 : DevRef τ sig) = X1) (h2 : W (main_v42 : DevRef τ sig) = X2) :
    after opsLast W (main_v45 : DevRef τ sig)
      = transpose S64x1024x1024 [2, 0, 1]
          (Host.gather gather_S81x64x128x128_S1024x1024x3_S1024x1024x64_2_023_n_n_023_2_16411 x
            (concatenate S1024x1024x3 2 [⟨S1024x1024x1, X0⟩, ⟨S1024x1024x1, X1⟩, ⟨S1024x1024x1, X2⟩]
              concatenates_S1024x1024x1_S1024x1024x1_S1024x1024x1_S1024x1024x3_d2))
          transposes_S1024x1024x64_S64x1024x1024_2_0_1 := by
  subst hx h0 h1 h2
  simp (disch := decide) only [after_cons, after_nil, unary_result', binary_result', nary_result', Matrix.cons_val,
    unary_result_ne', binary_result_ne', nary_result_ne']

/-- After the first eighty-eight operations the first plane is the patch index with a trailing unit axis: each
    operation's result read at its own buffer is its function of its operands' contents, at any other buffer what
    was there, and the composed term is `patchIndex`'s, definition by definition. -/
theorem after_init_v40 (V : Valuation τ sig (Elt F)) :
    after opsInit V (main_v40 : DevRef τ sig)
      = broadcastInDim S1024x1024x1 ![0, 1] bcast_S1024x1024_S1024x1024x1_0_1 patchIndex := by
  simp (disch := decide) only [after_cons, after_nil,
    nullary_result', unary_result', binary_result', ternary_result',
    nullary_result_ne', unary_result_ne', binary_result_ne', ternary_result_ne',
    TRef.toBuf, TRef.ofBuf, cast_eq, id_eq, patchIndex, patchCoord, coords, floorDivide]

/-- The second plane is the row offset with a trailing unit axis. -/
theorem after_init_v41 (V : Valuation τ sig (Elt F)) :
    after opsInit V (main_v41 : DevRef τ sig)
      = broadcastInDim S1024x1024x1 ![0, 1] bcast_S1024x1024_S1024x1024x1_0_1 rowOffset := by
  simp (disch := decide) only [after_cons, after_nil,
    nullary_result', unary_result', binary_result', ternary_result',
    nullary_result_ne', unary_result_ne', binary_result_ne', ternary_result_ne',
    TRef.toBuf, TRef.ofBuf, cast_eq, id_eq, rowOffset, patchOffset, patchCoord, coords, floorDivide]

/-- The third plane is the column offset with a trailing unit axis. -/
theorem after_init_v42 (V : Valuation τ sig (Elt F)) :
    after opsInit V (main_v42 : DevRef τ sig)
      = broadcastInDim S1024x1024x1 ![0, 1] bcast_S1024x1024_S1024x1024x1_0_1 colOffset := by
  simp (disch := decide) only [after_cons, after_nil,
    nullary_result', unary_result', binary_result', ternary_result',
    nullary_result_ne', unary_result_ne', binary_result_ne', ternary_result_ne',
    TRef.toBuf, TRef.ofBuf, cast_eq, id_eq, colOffset, patchOffset, patchCoord, coords, floorDivide]

/-- None of them writes the argument. -/
theorem after_init_arg (V : Valuation τ sig (Elt F)) :
    after opsInit V (main_arg0 : DevRef τ sig) = V (main_arg0 : DevRef τ sig) := by
  simp (disch := decide) only [after_cons, after_nil,
    nullary_result_ne', unary_result_ne', binary_result_ne', ternary_result_ne']

/-- The fold at the result buffer is `refResult` of the argument's contents. -/
theorem after_result (V : Valuation τ sig (Elt F)) :
    after ops V (main_v45 : DevRef τ sig) = refResult (V (main_arg0 : DevRef τ sig)) := by
  rw [ops_split, after_append]
  exact after_last _ _ _ _ _ (after_init_arg V) (after_init_v40 V) (after_init_v41 V) (after_init_v42 V)

/-- No operation writes the argument. -/
theorem after_arg (V : Valuation τ sig (Elt F)) :
    after ops V (main_arg0 : DevRef τ sig) = V (main_arg0 : DevRef τ sig) := by
  simp (disch := decide) only [after_cons, after_nil,
    nullary_result_ne', unary_result_ne', binary_result_ne', ternary_result_ne', nary_result_ne']

/-- On every device, for any float values, from any memory with zero counters: every weakly fair execution of
    @main terminates with the result at `refResult` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = refResult (m ((c.tc : Thread nD τ).loc main_arg0))
      ∧ r.2.mem ((c.tc : Thread nD τ).loc main_arg0) = m ((c.tc : Thread nD τ).loc main_arg0) :=
  (θ_run defs _ _).mono (fun _ h c => ⟨(h c main_v45).trans (after_result (launchContents m c)),
      (h c main_arg0).trans (after_arg (launchContents m c))⟩)
    (run_seq scopedRefs_eq scopedSems_eq defs main (fun _ => ops) main_eq (fun _ => ops_sub) m ρ)

end Cert.ReferenceIdeal.RefValue

end
-- ==== Proof.PatchWords.lean ====
/-
  The patch arithmetic on 32-bit words.

  A pixel coordinate y below 1024 enters the reference as the 32-bit word of y. Its patch q = min (floor (y / 126)) 8
  and its offset y - q * 126 are computed on words: the floor division as the program computes it (the truncating quotient, less
  one where the signs differ and the remainder is not zero), a signed minimum, a product, a difference, and for each
  index a wrap that adds the extent when the index is negative. Every number involved is far below 2^31, where the
  signed operations on words are the natural numbers': the quotient is y / 126, the minimum with 8 leaves it (1023 / 126
  = 8), the offset is y % 126, and nothing is negative, so the wraps are the identity.
-/
import Idealize.ShloMosaic.PureOps.Ideal
import Idealize.ShloMosaic.Lib.ValueIdx

namespace Cert.PatchWords

open Idealize.ShloMosaic

/-- The 32-bit word of a natural number. -/
abbrev word (n : Nat) : BitVec 32 := BitVec.ofNat 32 n

/-- Below 2^31 the word reads back as the number … -/
theorem toNat_word {n : Nat} (h : n < 2147483648) : (word n).toNat = n := by
  show (BitVec.ofNat 32 n).toNat = n
  rw [BitVec.toNat_ofNat]
  exact Nat.mod_eq_of_lt (by omega)

/-- … its sign bit is clear … -/
theorem msb_word {n : Nat} (h : n < 2147483648) : (word n).msb = false := by
  rw [BitVec.msb_eq_false_iff_two_mul_lt, toNat_word h]; omega

/-- … and as a signed integer it is the number. -/
theorem toInt_word {n : Nat} (h : n < 2147483648) : (word n).toInt = (n : Int) := by
  rw [BitVec.toInt_eq_toNat_of_msb (msb_word h), toNat_word h]

/-- A gather reads a start index signed, then as a natural: the number again. -/
theorem toInt_toNat_word {n : Nat} (h : n < 2147483648) : (word n).toInt.toNat = n := by
  rw [toInt_word h]; exact Int.toNat_natCast n

/-- The word of a positive number below 2^31 is not the zero word. -/
theorem word_ne_zero {n : Nat} (h : n < 2147483648) (h0 : n ≠ 0) : word n ≠ 0 := by
  intro e
  have := congrArg BitVec.toNat e
  rw [toNat_word h] at this
  exact h0 this

/-! ## Quotient and remainder by 126 -/

/-- The truncating signed quotient of a non-negative word by 126 is the natural quotient. -/
theorem divsi_word (y : Nat) (hy : y < 2147483648) : IntOp.divsi .host (word y) 126#32 = word (y / 126) := by
  have hc : ¬ IntOp.SDivCorner (word y) 126#32 := by
    rintro (h | ⟨_, h⟩) <;> exact absurd h (by decide)
  unfold IntOp.divsi
  rw [if_neg hc, BitVec.sdiv_eq, msb_word hy, show (126#32 : BitVec 32).msb = false from by decide]
  apply BitVec.eq_of_toNat_eq
  show ((word y).udiv 126#32).toNat = (word (y / 126)).toNat
  rw [BitVec.udiv_eq, BitVec.toNat_udiv, toNat_word hy, toNat_word (n := y / 126) (by omega)]
  rfl

/-- The signed remainder of a non-negative word by 126 is the natural remainder. -/
theorem remsi_word (y : Nat) (hy : y < 2147483648) : IntOp.remsi .host (word y) 126#32 = word (y % 126) := by
  have hc : ¬ IntOp.SDivCorner (word y) 126#32 := by
    rintro (h | ⟨_, h⟩) <;> exact absurd h (by decide)
  unfold IntOp.remsi
  rw [if_neg hc, BitVec.srem_eq, msb_word hy, show (126#32 : BitVec 32).msb = false from by decide]
  apply BitVec.eq_of_toNat_eq
  show ((word y) % 126#32).toNat = (word (y % 126)).toNat
  rw [BitVec.toNat_umod, toNat_word hy, toNat_word (n := y % 126) (by omega)]
  rfl

/-- The sign of a word as a two's-complement integer: 0, -1 or 1. -/
def signWord (a : BitVec 32) : BitVec 32 := if a = 0 then 0 else if a.msb then -1 else 1

/-- The program's floor division on two words: the truncating quotient, less one where the signs differ and the remainder
    is not zero. -/
def floorDivWord (a b : BitVec 32) : BitVec 32 :=
  Scalar.select
    (IntOp.andi (IntOp.cmpi .ne (signWord a) (signWord b)) (IntOp.cmpi .ne (IntOp.remsi .host a b) 0#32))
    (IntOp.subi (IntOp.divsi .host a b) 1#32) (IntOp.divsi .host a b)

/-- Of a non-negative number by 126 it is the natural quotient: at zero the remainder is zero, above zero the
    signs agree, so the correction never applies. -/
theorem floorDivWord_word (y : Nat) (hy : y < 2147483648) : floorDivWord (word y) 126#32 = word (y / 126) := by
  by_cases h0 : y = 0
  · subst h0; decide
  · unfold floorDivWord
    have hs : signWord (word y) = 1#32 := by
      unfold signWord; rw [if_neg (word_ne_zero hy h0), msb_word hy]; rfl
    have hb : signWord 126#32 = 1#32 := by decide
    rw [hs, hb, show IntOp.cmpi .ne 1#32 1#32 = 0#1 from by decide,
      show ∀ x : BitVec 1, IntOp.andi 0#1 x = 0#1 from fun x => BitVec.zero_and, ValueIdx.select_zero,
      divsi_word y hy]

/-! ## Minimum, product, difference, sum -/

/-- The signed minimum with 8 leaves a number that is at most 8. -/
theorem minsi_word_eight (q : Nat) (hq : q ≤ 8) : IntOp.minsi (word q) 8#32 = word q := by
  interval_cases q <;> decide

theorem muli_word (a b : Nat) : IntOp.muli (word a) (word b) = word (a * b) :=
  BitVec.ofNat_mul_ofNat a b

theorem addi_word (a b : Nat) : IntOp.addi (word a) (word b) = word (a + b) :=
  BitVec.ofNat_add_ofNat a b

theorem subi_word (a b : Nat) (hb : b ≤ a) (h : b < 4294967296) : IntOp.subi (word a) (word b) = word (a - b) :=
  BitVec.ofNat_sub_ofNat_of_le a b (by omega) hb

/-! ## The wrap of a negative index -/

/-- A non-negative word is not below zero. -/
theorem cmpi_slt_zero_word (n : Nat) (h : n < 2147483648) : IntOp.cmpi .slt (word n) 0#32 = 0#1 := by
  show BitVec.ofBool ((word n).slt 0#32) = 0#1
  rw [BitVec.slt_eq_decide, toInt_word h, show (0#32 : BitVec 32).toInt = 0 from by decide,
    decide_eq_false (by omega)]
  rfl

/-- So the wrap (add the extent `c` when the index is negative) leaves it. -/
theorem wrap_word (n : Nat) (h : n < 2147483648) (c : BitVec 32) :
    Scalar.select (IntOp.cmpi .slt (word n) 0#32) (IntOp.addi (word n) c) (word n) = word n := by
  rw [cmpi_slt_zero_word n h]; exact ValueIdx.select_zero _ _

end Cert.PatchWords
-- ==== Proof.RefImage.lean ====
/-
  The reference's term, read index by index, is the last-patch image.

  `refResult x` is a transposition of a gather of x at start indices that do not depend on x. Read at (c, y, w):
  the transposition reads the gather at (y, w, c); the gather reads x at (p, c, r, s), where (p, r, s) is the start
  index at (y, w) — the three pieces of the concatenation at (y, w, 0), each read signed and clamped into the
  operand; the pieces are the patch index q(y) * 9 + q(w) and the offsets off(y), off(w), spread over the plane
  from a column and a row; and on words (PatchWords) q(y) = y / 126 and off(y) = y % 126 for y below 1024, the wraps
  of negative indices and the clamps doing nothing. That is the image's definition.
-/
import proofs.«114181_j72378788872306_2_alg».proof.Proof.RefTerm
import proofs.«114181_j72378788872306_2_alg».proof.Proof.PatchWords
import proofs.«114181_j72378788872306_2_alg».proof.Proof.LastPatch
import Idealize.ShloMosaic.Lib.Pipeline.Value

noncomputable section

namespace Cert.ReferenceIdeal.RefValue

open Cert.ReferenceIdeal Cert.ReferenceIdeal.Gen Cert.PatchWords Idealize.ShloMosaic Idealize.ShloMosaic.ValueIdx

/-! ## The elementwise integer operations at an index (definitional) -/

section Pointwise
variable {s : Shape} {w : Nat}

theorem addi_apply (x y : IVec s w) (i : s.Idx) : addi x y i = IntOp.addi (x i) (y i) := rfl
theorem subi_apply (x y : IVec s w) (i : s.Idx) : subi x y i = IntOp.subi (x i) (y i) := rfl
theorem muli_apply (x y : IVec s w) (i : s.Idx) : muli x y i = IntOp.muli (x i) (y i) := rfl
theorem minsi_apply (x y : IVec s w) (i : s.Idx) : minsi x y i = IntOp.minsi (x i) (y i) := rfl
theorem cmpi_apply (p : CmpIPredicate) (x y : IVec s w) (i : s.Idx) : cmpi p x y i = IntOp.cmpi p (x i) (y i) := rfl
theorem constantI_apply (b : BitVec w) (i : s.Idx) : constantI s w b i = b := rfl

end Pointwise

/-! ## The program's broadcasts at an index -/

section Broadcasts
variable {α : Type}

/-- A constant scalar spread over any shape reads the constant. -/
theorem scalarConst_apply {T : Shape} (h : S_.BroadcastsInDim T ![]) (c : BitVec 32) (j : T.Idx) :
    broadcastInDim T ![] h (constantI S_ 32 c) j = c := rfl

/-- A vector as a column [1024, 1]. -/
theorem column_apply (v : S1024.Idx → α) (y : Fin 1024) (u : Fin 1) :
    broadcastInDim S1024x1 ![0] bcast_S1024_S1024x1_0 v (ix2 y u) = v (ix1 y) :=
  broadcastInDim_apply _ _ _ _ _ (fun a => match a with | ⟨0, _⟩ => rfl)

/-- A vector as a row [1, 1024]. -/
theorem row_apply (v : S1024.Idx → α) (u : Fin 1) (w : Fin 1024) :
    broadcastInDim S1x1024 ![1] bcast_S1024_S1x1024_1 v (ix2 u w) = v (ix1 w) :=
  broadcastInDim_apply _ _ _ _ _ (fun a => match a with | ⟨0, _⟩ => rfl)

/-- A column spread over the plane reads its row's entry. -/
theorem columnPlane_apply (v : S1024x1.Idx → α) (y w : Fin 1024) :
    broadcastInDim S1024x1024 ![0, 1] bcast_S1024x1_S1024x1024_0_1 v (ix2 y w) = v (ix2 y (0 : Fin 1)) :=
  broadcastInDim_apply _ _ _ _ _ (fun a => match a with | ⟨0, _⟩ => rfl | ⟨1, _⟩ => rfl)

/-- A row spread over the plane reads its column's entry. -/
theorem rowPlane_apply (v : S1x1024.Idx → α) (y w : Fin 1024) :
    broadcastInDim S1024x1024 ![0, 1] bcast_S1x1024_S1024x1024_0_1 v (ix2 y w) = v (ix2 (0 : Fin 1) w) :=
  broadcastInDim_apply _ _ _ _ _ (fun a => match a with | ⟨0, _⟩ => rfl | ⟨1, _⟩ => rfl)

/-- The plane with a trailing unit axis. -/
theorem planeUnit_apply (v : S1024x1024.Idx → α) (y w : Fin 1024) (u : Fin 1) :
    broadcastInDim S1024x1024x1 ![0, 1] bcast_S1024x1024_S1024x1024x1_0_1 v (ix3 y w u) = v (ix2 y w) :=
  broadcastInDim_apply _ _ _ _ _ (fun a => match a with | ⟨0, _⟩ => rfl | ⟨1, _⟩ => rfl)

end Broadcasts

/-! ## The coordinate vectors -/

/-- The printed floor division at an index is the floor division of the two words. -/
theorem floorDivide_apply (a : IVec S1024 32) (c : BitVec 32) (i : S1024.Idx) :
    floorDivide a (constantI S_ 32 c) i = floorDivWord (a i) c := rfl

/-- q(y) = y / 126 for a coordinate below 1024: the floor quotient, which the minimum with 8 leaves. -/
theorem patchCoord_apply (y : Fin 1024) : patchCoord (ix1 y) = word (y.val / 126) := by
  have hy := y.isLt
  show IntOp.minsi (floorDivWord (word y.val) 126#32) 8#32 = _
  rw [floorDivWord_word _ (by omega), minsi_word_eight _ (by omega)]

/-- off(y) = y - (y / 126) * 126 = y % 126. -/
theorem patchOffset_apply (y : Fin 1024) : patchOffset (ix1 y) = word (y.val % 126) := by
  have hy := y.isLt
  show IntOp.subi (word y.val) (IntOp.muli (patchCoord (ix1 y)) 126#32) = _
  rw [patchCoord_apply, muli_word, subi_word _ _ (by omega) (by omega)]
  congr 1; omega

/-! ## The three planes of start-index components -/

/-- The patch index at (y, w) is (y / 126) * 9 + w / 126: not negative, so not wrapped. -/
theorem patchIndex_apply (y w : Fin 1024) : patchIndex (ix2 y w) = word (y.val / 126 * 9 + w.val / 126) := by
  have hy := y.isLt; have hw := w.isLt
  unfold patchIndex
  simp only [select_apply, cmpi_apply, addi_apply]
  rw [columnPlane_apply, rowPlane_apply, muli_apply, column_apply, row_apply, patchCoord_apply, patchCoord_apply]
  repeat rw [scalarConst_apply]
  rw [muli_word, addi_word, wrap_word _ (by omega)]

/-- The row offset at (y, w) is y % 126: not negative, so not wrapped. -/
theorem rowOffset_apply (y w : Fin 1024) : rowOffset (ix2 y w) = word (y.val % 126) := by
  have hy := y.isLt
  unfold rowOffset
  dsimp only
  rw [columnPlane_apply, select_apply, cmpi_apply, addi_apply, column_apply, patchOffset_apply]
  repeat rw [scalarConst_apply]
  rw [wrap_word _ (by omega)]

/-- The column offset at (y, w) is w % 126: not negative, so not wrapped. -/
theorem colOffset_apply (y w : Fin 1024) : colOffset (ix2 y w) = word (w.val % 126) := by
  have hw := w.isLt
  unfold colOffset
  dsimp only
  rw [rowPlane_apply, select_apply, cmpi_apply, addi_apply, row_apply, patchOffset_apply]
  repeat rw [scalarConst_apply]
  rw [wrap_word _ (by omega)]

/-! ## The start indices: three unit pieces along the last axis -/

theorem startIndices_patch (y w : Fin 1024) :
    startIndices (ix3 y w (0 : Fin 3)) = word (y.val / 126 * 9 + w.val / 126) := by
  unfold startIndices
  refine (concatenate_apply_piece (2 : Fin 3) _ _ (ix3 y w (0 : Fin 3)) 0 (by decide) S1024x1024x1 _ rfl rfl 0 rfl
    (ix3 y w (0 : Fin 1)) (fun b hb => match b with | ⟨0, _⟩ => rfl | ⟨1, _⟩ => rfl | ⟨2, _⟩ => (hb rfl).elim) rfl).trans ?_
  rw [planeUnit_apply, patchIndex_apply]

theorem startIndices_row (y w : Fin 1024) : startIndices (ix3 y w (1 : Fin 3)) = word (y.val % 126) := by
  unfold startIndices
  refine (concatenate_apply_piece (2 : Fin 3) _ _ (ix3 y w (1 : Fin 3)) 1 (by decide) S1024x1024x1 _ rfl rfl 1 rfl
    (ix3 y w (0 : Fin 1)) (fun b hb => match b with | ⟨0, _⟩ => rfl | ⟨1, _⟩ => rfl | ⟨2, _⟩ => (hb rfl).elim) rfl).trans ?_
  rw [planeUnit_apply, rowOffset_apply]

theorem startIndices_col (y w : Fin 1024) : startIndices (ix3 y w (2 : Fin 3)) = word (w.val % 126) := by
  unfold startIndices
  refine (concatenate_apply_piece (2 : Fin 3) _ _ (ix3 y w (2 : Fin 3)) 2 (by decide) S1024x1024x1 _ rfl rfl 2 rfl
    (ix3 y w (0 : Fin 1)) (fun b hb => match b with | ⟨0, _⟩ => rfl | ⟨1, _⟩ => rfl | ⟨2, _⟩ => (hb rfl).elim) rfl).trans ?_
  rw [planeUnit_apply, colOffset_apply]

/-! ## The gather and the transposition at an index -/

section Gather
variable {α : Type}

/-- The gather's dimension numbers: offset axis 2 of the result; operand axes 0, 2, 3 collapsed and mapped from the
    start index's components; the index vector along axis 2 of the start indices; slices [1, 64, 1, 1]. -/
abbrev gd : GatherDims S81x64x128x128 S1024x1024x3 S1024x1024x64 :=
  gather_S81x64x128x128_S1024x1024x3_S1024x1024x64_2_023_n_n_023_2_16411

/-- Component `n` of the start index of the result index (y, w, c) is read off the start indices at (y, w, n). -/
theorem gather_siIdx (y w : Fin 1024) (c : Fin 64) (n : Fin gd.startIndexMap.length) :
    gd.siIdx (ix3 y w c) n = ix3 y w (⟨n.val, n.isLt⟩ : Fin 3) := by
  funext b
  refine Fin.ext ?_
  match b with
  | ⟨0, _⟩ => rfl
  | ⟨1, _⟩ => rfl
  | ⟨2, _⟩ => rfl

/-- THE GATHER READ AT (y, w, c): the operand at (p, c, r, s), where p, r, s are the three components of the start
    index at (y, w), read signed — given here as numbers inside the operand, so that the clamps do nothing. The
    patch, row and column axes are collapsed and take the start index; the channel axis is the one offset axis and
    takes c. -/
theorem gather_apply (x : S81x64x128x128.Idx → α) (idx : IVec S1024x1024x3 32) (y w : Fin 1024) (c : Fin 64)
    (p r s : Nat) (hp : p < 81) (hr : r < 128) (hs : s < 128)
    (h0 : (idx (ix3 y w (0 : Fin 3))).toInt.toNat = p) (h1 : (idx (ix3 y w (1 : Fin 3))).toInt.toNat = r)
    (h2 : (idx (ix3 y w (2 : Fin 3))).toInt.toNat = s) :
    Host.gather gd x idx (ix3 y w c) = x (ix4 (⟨p, hp⟩ : Fin 81) c (⟨r, hr⟩ : Fin 128) (⟨s, hs⟩ : Fin 128)) := by
  unfold Host.gather
  congr 1
  funext a
  refine Fin.ext ?_
  show gd.start (ix3 y w c) idx a + gd.batchCoord (ix3 y w c) a + gd.offCoord (ix3 y w c) a = _
  rw [GatherDims.batchCoord_eq_zero _ _ _ List.not_mem_nil, Nat.add_zero]
  match a with
  | ⟨0, _⟩ =>
    show gd.start (ix3 y w c) idx (0 : Fin 4) + gd.offCoord (ix3 y w c) (0 : Fin 4) = p
    rw [GatherDims.offCoord_eq_zero _ _ _ (fun h => ((GatherDims.mem_sKept _ _).mp h).1 (by decide)), Nat.add_zero]
    unfold GatherDims.start
    rw [dif_pos (show (0 : Fin 4) ∈ gd.startIndexMap from by decide), gather_siIdx]
    show min (idx (ix3 y w (0 : Fin 3))).toInt.toNat (81 - 1) = p
    rw [h0]; omega
  | ⟨1, _⟩ =>
    show gd.start (ix3 y w c) idx (1 : Fin 4) + gd.offCoord (ix3 y w c) (1 : Fin 4) = c.val
    unfold GatherDims.start
    rw [dif_neg (show (1 : Fin 4) ∉ gd.startIndexMap from by decide), Nat.zero_add]
    unfold GatherDims.offCoord
    rw [dif_pos (show (1 : Fin 4) ∈ gd.sKept from by decide)]
    rfl
  | ⟨2, _⟩ =>
    show gd.start (ix3 y w c) idx (2 : Fin 4) + gd.offCoord (ix3 y w c) (2 : Fin 4) = r
    rw [GatherDims.offCoord_eq_zero _ _ _ (fun h => ((GatherDims.mem_sKept _ _).mp h).1 (by decide)), Nat.add_zero]
    unfold GatherDims.start
    rw [dif_pos (show (2 : Fin 4) ∈ gd.startIndexMap from by decide), gather_siIdx]
    show min (idx (ix3 y w (1 : Fin 3))).toInt.toNat (128 - 1) = r
    rw [h1]; omega
  | ⟨3, _⟩ =>
    show gd.start (ix3 y w c) idx (3 : Fin 4) + gd.offCoord (ix3 y w c) (3 : Fin 4) = s
    rw [GatherDims.offCoord_eq_zero _ _ _ (fun h => ((GatherDims.mem_sKept _ _).mp h).1 (by decide)), Nat.add_zero]
    unfold GatherDims.start
    rw [dif_pos (show (3 : Fin 4) ∈ gd.startIndexMap from by decide), gather_siIdx]
    show min (idx (ix3 y w (2 : Fin 3))).toInt.toNat (128 - 1) = s
    rw [h2]; omega

/-- The transposition [2, 0, 1] read at (c, y, w) is the operand at (y, w, c). -/
theorem transpose_apply_cyw (v : S1024x1024x64.Idx → α) (c : Fin 64) (y w : Fin 1024) :
    transpose S64x1024x1024 [2, 0, 1] v transposes_S1024x1024x64_S64x1024x1024_2_0_1 (ix3 c y w) = v (ix3 y w c) :=
  transpose_apply _ _ _ _ _ (fun b => match b with | ⟨0, _⟩ => rfl | ⟨1, _⟩ => rfl | ⟨2, _⟩ => rfl)

end Gather

/-! ## The reference's term is the image -/

/-- At (c, y, w) the reference's term reads patch (y / 126) * 9 + w / 126 at (y % 126, w % 126) of channel c. -/
theorem refResult_apply {F : FTy → Type} (x : FVec F S81x64x128x128 .f32) (c : Fin 64) (y w : Fin 1024) :
    refResult x (ix3 c y w) = Cert.PatchScatter.imageAt x c y w := by
  have hy := y.isLt; have hw := w.isLt
  unfold refResult
  rw [transpose_apply_cyw,
    gather_apply x startIndices y w c (y.val / 126 * 9 + w.val / 126) (y.val % 126) (w.val % 126)
      (by omega) (by omega) (by omega)
      (by rw [startIndices_patch, toInt_toNat_word (by omega)])
      (by rw [startIndices_row, toInt_toNat_word (by omega)])
      (by rw [startIndices_col, toInt_toNat_word (by omega)])]
  rfl

/-- The reference's term of the patches is the last-patch image of the patches. -/
theorem refResult_eq (x : FVec Ideal S81x64x128x128 .f32) : refResult x = Cert.PatchScatter.image x := by
  funext j
  obtain ⟨c, y, w, rfl⟩ : ∃ (c : Fin 64) (y w : Fin 1024), j = ix3 c y w := ⟨j 0, j 1, j 2, eq_ix3 j⟩
  exact refResult_apply x c y w

end Cert.ReferenceIdeal.RefValue

end
-- ==== Proof.lean ====
/-
  The overlap patch scatter: eighty-one 128 x 128 patches per channel laid over a 1136 x 1136 plane at stride 126 in
  row-major order, a later patch overwriting an earlier one on their two-pixel overlaps, and the plane cropped to
  1024 x 1024.

  The kernel does it literally: one grid point per channel, the patches copied one by one from HBM into a two-slot
  scratch buffer and stored, whole, into the channel's plane at the patch's corner. The reference reads each pixel
  (y, w) of the cropped image from patch (y / 126, w / 126) at offset (y mod 126, w mod 126) by one gather. Both
  are the same function of the patches array, `Cert.PatchScatter.image`: a pixel's last covering patch is
  (min (y / 126) 8, min (w / 126) 8), and below 1024 the minimum is idle. No arithmetic on the values is done on
  either side, so the claim holds at every float instance and the precondition is never opened.

  The three frames: the kernel's at both instances from its frame run (the body's run on whole memrefs, its stores
  read as the channel's plane), the reference's from its run with the result dropped. The ideal pass rewrote
  nothing, so the kernel's idealization is its own text.
-/
import proofs.«114181_j72378788872306_2_alg».proof.Defs
import proofs.«114181_j72378788872306_2_alg».proof.Proof.Gen.Kernel
import proofs.«114181_j72378788872306_2_alg».proof.Proof.Gen.KernelIdeal
import proofs.«114181_j72378788872306_2_alg».proof.Proof.Gen.ReferenceIdeal
import proofs.«114181_j72378788872306_2_alg».proof.Proof.Gen.Pre_finite_inputs
import proofs.«114181_j72378788872306_2_alg».proof.Proof.BitsFrame
import proofs.«114181_j72378788872306_2_alg».proof.Proof.IdealValue
import proofs.«114181_j72378788872306_2_alg».proof.Proof.RefRun
import proofs.«114181_j72378788872306_2_alg».proof.Proof.RefImage
import Idealize.ShloMosaic.Adequacy
import Idealize.ShloMosaic.Init

noncomputable section

namespace Cert.Proof

open Idealize.ShloMosaic Idealize.SL.Sem

theorem frame_kernel : Cert.frame_Kernel := fun m ρ _ => Cert.Kernel.Scatter.frame (F := Bits) m ρ

theorem frame_kernelIdeal : Cert.frame_KernelIdeal := fun m ρ _ => Cert.KernelIdeal.Scatter.frame (F := Ideal) m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end with the image of the patches they were launched with, and the patches agree. -/
theorem algebraic : Cert.algebraic_KernelIdeal_ReferenceIdeal := by
  intro m ρ m' ρ' _ hagree
  refine ⟨_, Cert.KernelIdeal.Scatter.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c, Cert.ReferenceIdeal.RefValue.refResult_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
